-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x256 : Shape := ⟨3, ![4, 4096, 256]⟩
abbrev S256x256 : Shape := ⟨2, ![256, 256]⟩
abbrev S256 : Shape := ⟨1, ![256]⟩
abbrev S_ : Shape := ⟨0, ![]⟩

class Facts : Prop where
  bcast_S_S4x4096x256 : S_.BroadcastsInDim S4x4096x256 (![] : Fin 0 → Fin S4x4096x256.rank)
  reducesTo_S4x4096x256_S_d0_1_2 : S4x4096x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_arg5 : FVec F S256x256 .f32) (main_arg6 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S4x4096x256 .f32) (main_arg1 : FVec F S256x256 .f32) (main_arg2 : FVec F S256 .f32) (main_arg3 : FVec F S256x256 .f32) (main_arg4 : FVec F S256 .f32) (main_arg5 : FVec F S256x256 .f32) (main_arg6 : FVec F S256 .f32) : IVec S_ 1 :=
  let main_v0 : FVec F S4x4096x256 .f32 := Host.absf main_arg0
  let main_cst : FVec F S_ .f32 := constant S_ .f32 0x7F800000#32
  let main_v1 : FVec F S4x4096x256 .f32 := broadcastInDim S4x4096x256 ![] bcast_S_S4x4096x256 main_cst
  let main_v2 : IVec S4x4096x256 1 := cmpf .olt main_v0 main_v1
  let main_c : IVec S_ 1 := constantI S_ 1 1#1
  let main_v3 : IVec S_ 1 := (fun x v => Host.reduce IntOp.andi x v reducesTo_S4x4096x256_S_d0_1_2 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_v13 main_v16
-- ==== Kernel.lean ====
abbrev S4x4096x256 : Shape := ⟨3, ![4, 4096, 256]⟩
abbrev S256x256 : Shape := ⟨2, ![256, 256]⟩
abbrev S256 : Shape := ⟨1, ![256]⟩
abbrev S1x4096x256 : Shape := ⟨3, ![1, 4096, 256]⟩
abbrev S1x1024x256 : Shape := ⟨3, ![1, 1024, 256]⟩
abbrev S4096x256 : Shape := ⟨2, ![4096, 256]⟩
abbrev S1024x1 : Shape := ⟨2, ![1024, 1]⟩
abbrev S1024x256 : Shape := ⟨2, ![1024, 256]⟩
abbrev S1x256 : Shape := ⟨2, ![1, 256]⟩
abbrev S256x1024 : Shape := ⟨2, ![256, 1024]⟩
abbrev S1024x1024 : Shape := ⟨2, ![1024, 1024]⟩
abbrev S1024 : Shape := ⟨1, ![1024]⟩

abbrev nBuf : Space → Nat
  | .hbm => 14
  | .vmem => 17
  | .smem => 0
  | _ => 0

abbrev bufTy : (tb : Table) → Fin (tcTables nBuf tb) → BufTy
  | .hbm, ⟨0, _⟩ => ⟨S4x4096x256, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256x256, .bf16⟩
  | .hbm, ⟨9, _⟩ => ⟨S256x256, .f32⟩
  | .hbm, ⟨10, _⟩ => ⟨S256x256, .bf16⟩
  | .hbm, ⟨11, _⟩ => ⟨S256x256, .f32⟩
  | .hbm, ⟨12, _⟩ => ⟨S256x256, .bf16⟩
  | .hbm, ⟨13, _⟩ => ⟨S4x4096x256, .f32⟩
  | .local _ .vmem, ⟨0, _⟩ => ⟨S1x4096x256, .f32⟩
  | .local _ .vmem, ⟨1, _⟩ => ⟨S1x4096x256, .f32⟩
  | .local _ .vmem, ⟨2, _⟩ => ⟨S1x1024x256, .f32⟩
  | .local _ .vmem, ⟨3, _⟩ => ⟨S1x1024x256, .f32⟩
  | .local _ .vmem, ⟨4, _⟩ => ⟨S256x256, .bf16⟩
  | .local _ .vmem, ⟨5, _⟩ => ⟨S256, .f32⟩
  | .local _ .vmem, ⟨6, _⟩ => ⟨S256x256, .bf16⟩
  | .local _ .vmem, ⟨7, _⟩ => ⟨S256, .f32⟩
  | .local _ .vmem, ⟨8, _⟩ => ⟨S256x256, .bf16⟩
  | .local _ .vmem, ⟨9, _⟩ => ⟨S256, .f32⟩
  | .local _ .vmem, ⟨10, _⟩ => ⟨S1x1024x256, .f32⟩
  | .local _ .vmem, ⟨11, _⟩ => ⟨S1x1024x256, .f32⟩
  | .local _ .vmem, ⟨12, _⟩ => ⟨S4096x256, .bf16⟩
  | .local _ .vmem, ⟨13, _⟩ => ⟨S4096x256, .bf16⟩
  | .local _ .vmem, ⟨14, _⟩ => ⟨S1024x1, .f32⟩
  | .local _ .vmem, ⟨15, _⟩ => ⟨S1024x1, .f32⟩
  | .local _ .vmem, ⟨16, _⟩ => ⟨S1024x256, .f32⟩
  | _, _ => ⟨S4x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1024x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  transposes_S256x256_S256x256_1_0 : S256x256.Transposes [1, 0] S256x256
  bitsLt_bf16_f32 : FTy.bits .bf16 < FTy.bits .f32
  inb_S1x4096x256_S1x4096x256_0_0_0 : ∀ a, (![0, 0, 0] : Fin 3 → Nat) a + S1x4096x256.size a ≤ S1x4096x256.size a
  h_S1x4096x256 : 0 < S1x4096x256.numel
  shapeCasts_S1x4096x256_S4096x256 : S1x4096x256.ShapeCasts S4096x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256_S256_0 : ∀ a, (![0] : Fin 1 → Nat) a + S256.size a ≤ S256.size a
  h_S256 : 0 < S256.numel
  shapeCasts_S256_S1x256 : S256.ShapeCasts S1x256
  broadcasts_S1x256_S4096x256 : S1x256.Broadcasts S4096x256
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  packedbf16_S4096x256_S4096x256_0_0 : (Rect.unit (s := S4096x256) ![0, 0] S4096x256.size inb_S4096x256_S4096x256_0_0).PackedRows (EltTy.packing .bf16)
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  broadcasts_S1x256_S1024x256 : S1x256.Broadcasts S1024x256
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S4096x256_S1024x256_0_0 : ∀ a, (![0, 0] : Fin 2 → Nat) a + S1024x256.size a ≤ S4096x256.size a
  transposes_S1024x256_p1_0_S256x1024 : S1024x256.Transposes [1, 0] S256x1024
  reduces_S1024x1024_S1024 : S1024x1024.Reduces [1] S1024
  shapeCasts_S1024_S1024x1 : S1024.ShapeCasts S1024x1
  broadcasts_S1024x1_S1024x1024 : S1024x1.Broadcasts S1024x1024
  broadcasts_S1024x1_S1024x256 : S1024x1.Broadcasts S1024x256
  inb_S4096x256_S1024x256_1024_0 : ∀ a, (![1024, 0] : Fin 2 → Nat) a + S1024x256.size a ≤ S4096x256.size a
  inb_S4096x256_S1024x256_2048_0 : ∀ a, (![2048, 0] : Fin 2 → Nat) a + S1024x256.size a ≤ S4096x256.size a
  inb_S4096x256_S1024x256_3072_0 : ∀ a, (![3072, 0] : Fin 2 → Nat) a + S1024x256.size a ≤ S4096x256.size a
  shapeCasts_S1024x256_S1x1024x256 : S1024x256.ShapeCasts S1x1024x256
  dot_S4096x256_S256x256_S4096x256_1_0_0_1_n_n_wf : DotDims.WF S4096x256 S256x256 S4096x256 [1] [0] [0] [1] [] []
  dot_S1024x256_S256x256_S1024x256_1_0_0_1_n_n_wf : DotDims.WF S1024x256 S256x256 S1024x256 [1] [0] [0] [1] [] []
  dot_S1024x256_S256x1024_S1024x1024_1_0_0_1_n_n_wf : DotDims.WF S1024x256 S256x1024 S1024x1024 [1] [0] [0] [1] [] []
  dot_S1024x1024_S1024x256_S1024x256_1_0_0_1_n_n_wf : DotDims.WF S1024x1024 S1024x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x256.size a ≤ S4x4096x256.size a
  hwx0_0 : ∀ i : grid0.Coords, EltTy.bits .f32 = 32 ∨ (Rect.block (s := S4x4096x256) S1x4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x256.size a ≤ S4x4096x256.size a
  hwx0_1 : ∀ i : grid0.Coords, EltTy.bits .f32 = 32 ∨ (Rect.block (s := S4x4096x256) S1x1024x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .bf16 = 32 ∨ (Rect.block (s := S256x256) S256x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .bf16 = 32 ∨ (Rect.block (s := S256x256) S256x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .bf16 = 32 ∨ (Rect.block (s := S256x256) S256x256.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256.size a ≤ S256.size a
  hwx0_7 : ∀ i : grid0.Coords, EltTy.bits .f32 = 32 ∨ (Rect.block (s := S256) S256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1024x256.size a ≤ S4x4096x256.size a
  hwx0_8 : ∀ i : grid0.Coords, EltTy.bits .f32 = 32 ∨ (Rect.block (s := S4x4096x256) S1x1024x256.size (cc0_transform_8 i) (hinb0_8 i)).WholeWords (EltTy.packing .f32)

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf

abbrev win0_0 : Pipeline.Window sig grid0 :=
  Pipeline.Window.ofSpec (Memref.whole main_arg0) S1x4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6) S1x1024x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S4x4096x256 : Shape := ⟨3, ![4, 4096, 256]⟩
abbrev S256x256 : Shape := ⟨2, ![256, 256]⟩
abbrev S256 : Shape := ⟨1, ![256]⟩
abbrev S1x1x256 : Shape := ⟨3, ![1, 1, 256]⟩
abbrev S_ : Shape := ⟨0, ![]⟩
abbrev S4x4096x4096 : Shape := ⟨3, ![4, 4096, 4096]⟩
abbrev S4x4096 : Shape := ⟨2, ![4, 4096]⟩
abbrev S4x4096x1 : Shape := ⟨3, ![4, 4096, 1]⟩

abbrev nBuf : Space → Nat
  | .hbm => 39
  | .vmem => 0
  | .smem => 0
  | _ => 0

abbrev bufTy : (tb : Table) → Fin (tcTables nBuf tb) → BufTy
  | .hbm, ⟨0, _⟩ => ⟨S4x4096x256, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S4x4096x256, .f32⟩
  | .hbm, ⟨8, _⟩ => ⟨S1x1x256, .f32⟩
  | .hbm, ⟨9, _⟩ => ⟨S4x4096x256, .f32⟩
  | .hbm, ⟨10, _⟩ => ⟨S4x4096x256, .f32⟩
  | .hbm, ⟨11, _⟩ => ⟨S4x4096x256, .f32⟩
  | .hbm, ⟨12, _⟩ => ⟨S1x1x256, .f32⟩
  | .hbm, ⟨13, _⟩ => ⟨S4x4096x256, .f32⟩
  | .hbm, ⟨14, _⟩ => ⟨S4x4096x256, .f32⟩
  | .hbm, ⟨15, _⟩ => ⟨S4x4096x256, .f32⟩
  | .hbm, ⟨16, _⟩ => ⟨S1x1x256, .f32⟩
  | .hbm, ⟨17, _⟩ => ⟨S4x4096x256, .f32⟩
  | .hbm, ⟨18, _⟩ => ⟨S4x4096x256, .f32⟩
  | .hbm, ⟨19, _⟩ => ⟨S_, .f32⟩
  | .hbm, ⟨20, _⟩ => ⟨S_, .f32⟩
  | .hbm, ⟨21, _⟩ => ⟨S4x4096x4096, .f32⟩
  | .hbm, ⟨22, _⟩ => ⟨S4x4096x4096, .f32⟩
  | .hbm, ⟨23, _⟩ => ⟨S4x4096x4096, .f32⟩
  | .hbm, ⟨24, _⟩ => ⟨S_, .f32⟩
  | .hbm, ⟨25, _⟩ => ⟨S4x4096, .f32⟩
  | .hbm, ⟨26, _⟩ => ⟨S_, .f32⟩
  | .hbm, ⟨27, _⟩ => ⟨S4x4096, .f32⟩
  | .hbm, ⟨28, _⟩ => ⟨S4x4096, .f32⟩
  | .hbm, ⟨29, _⟩ => ⟨S4x4096x1, .f32⟩
  | .hbm, ⟨30, _⟩ => ⟨S4x4096x4096, .f32⟩
  | .hbm, ⟨31, _⟩ => ⟨S4x4096x4096, .f32⟩
  | .hbm, ⟨32, _⟩ => ⟨S4x4096x4096, .f32⟩
  | .hbm, ⟨33, _⟩ => ⟨S_, .f32⟩
  | .hbm, ⟨34, _⟩ => ⟨S4x4096, .f32⟩
  | .hbm, ⟨35, _⟩ => ⟨S4x4096x1, .f32⟩
  | .hbm, ⟨36, _⟩ => ⟨S4x4096x4096, .f32⟩
  | .hbm, ⟨37, _⟩ => ⟨S4x4096x4096, .f32⟩
  | .hbm, ⟨38, _⟩ => ⟨S4x4096x256, .f32⟩
  | _, _ => ⟨S4x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S4x4096x256_0_1_2 : S1x1x256.BroadcastsInDim S4x4096x256 (![0, 1, 2] : Fin 3 → Fin S4x4096x256.rank)
  bcast_S_S4x4096x4096 : S_.BroadcastsInDim S4x4096x4096 (![] : Fin 0 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  dot_S4x4096x256_S256x256_S4x4096x256_2_1_01_0_n_n_wf : DotDims.WF S4x4096x256 S256x256 S4x4096x256 [2] [1] [0, 1] [0] [] []
  dot_S4x4096x256_S4x4096x256_S4x4096x4096_2_2_1_1_0_0_wf : DotDims.WF S4x4096x256 S4x4096x256 S4x4096x4096 [2] [2] [1] [1] [0] [0]
  dot_S4x4096x4096_S4x4096x256_S4x4096x256_2_1_1_2_0_0_wf : DotDims.WF S4x4096x4096 S4x4096x256 S4x4096x256 [2] [1] [1] [2] [0] [0]

variable [Facts₀]

def dot_S4x4096x256_S256x256_S4x4096x256_2_1_01_0_n_n : DotDims S4x4096x256 S256x256 S4x4096x256 where
  lhsContracting := [2]
  rhsContracting := [1]
  lhsNonContracting := [0, 1]
  rhsNonContracting := [0]
  lhsBatch := []
  rhsBatch := []
  wf := dot_S4x4096x256_S256x256_S4x4096x256_2_1_01_0_n_n_wf
def dot_S4x4096x256_S4x4096x256_S4x4096x4096_2_2_1_1_0_0 : DotDims S4x4096x256 S4x4096x256 S4x4096x4096 where
  lhsContracting := [2]
  rhsContracting := [2]
  lhsNonContracting := [1]
  rhsNonContracting := [1]
  lhsBatch := [0]
  rhsBatch := [0]
  wf := dot_S4x4096x256_S4x4096x256_S4x4096x4096_2_2_1_1_0_0_wf
def dot_S4x4096x4096_S4x4096x256_S4x4096x256_2_1_1_2_0_0 : DotDims S4x4096x4096 S4x4096x256 S4x4096x256 where
  lhsContracting := [2]
  rhsContracting := [1]
  lhsNonContracting := [1]
  rhsNonContracting := [2]
  lhsBatch := [0]
  rhsBatch := [0]
  wf := dot_S4x4096x4096_S4x4096x256_S4x4096x256_2_1_1_2_0_0_wf

class Facts : Prop extends Facts₀ where

variable [Facts]
-- ==== Proof.KI.Runs.lean ====
/-
  What the two runs of the attention kernel's body share: the contents of the device's buffers when the region is
  entered (after the three weight matrices have been transposed and narrowed on the host), @main reduced to the
  region, each window's block of its array at a grid point, the one branch condition of the body in closed form
  (the keys and values of a batch are projected at the batch's first query tile: grid points 0, 4, 8, 12), the
  staging and scratch buffers as the body is called with them, and the region's invariant spelled over the five
  scratch buffers.
-/
import proofs.«119718_j75144747811056_2_alg».proof.Proof.Gen.KernelIdeal.Launch
import proofs.«119718_j75144747811056_2_alg».proof.Proof.Gen.KernelIdeal.Skeleton
import proofs.«119718_j75144747811056_2_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffer contents when the region is entered: the launch contents after the six host operations (each
    weight transposed, then narrowed). -/
abbrev V (c : Dev nD) (b : Ref sig .tc) : Buf (Elt F) ((c : Thread nD τ).loc b) :=
  StableHlo.after hostOps0 (fun b => m (c, b)) (Proc.devRef .tc b)

theorem hostOps0_fresh : (hostOps0 : List (HloOp τ sig (Elt F))).Forall fun op => op.fresh = ∅ := by
  simp only [List.Forall]; repeat' constructor

/-- @main is the six host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host operations write only their own results: the seven arguments are as launched. -/
theorem V_main_arg0 (c : Dev nD) : V m c main_arg0 = m ((c : Thread nD τ).loc main_arg0) := by
  dsimp only [V, hostOps0]; after_results_simp
theorem V_main_arg1 (c : Dev nD) : V m c main_arg1 = m ((c : Thread nD τ).loc main_arg1) := by
  dsimp only [V, hostOps0]; after_results_simp
theorem V_main_arg2 (c : Dev nD) : V m c main_arg2 = m ((c : Thread nD τ).loc main_arg2) := by
  dsimp only [V, hostOps0]; after_results_simp
theorem V_main_arg3 (c : Dev nD) : V m c main_arg3 = m ((c : Thread nD τ).loc main_arg3) := by
  dsimp only [V, hostOps0]; after_results_simp
theorem V_main_arg4 (c : Dev nD) : V m c main_arg4 = m ((c : Thread nD τ).loc main_arg4) := by
  dsimp only [V, hostOps0]; after_results_simp
theorem V_main_arg5 (c : Dev nD) : V m c main_arg5 = m ((c : Thread nD τ).loc main_arg5) := by
  dsimp only [V, hostOps0]; after_results_simp
theorem V_main_arg6 (c : Dev nD) : V m c main_arg6 = m ((c : Thread nD τ).loc main_arg6) := by
  dsimp only [V, hostOps0]; after_results_simp

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (unfetched, the
    block index has not moved since the fetch). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The body's branch condition -/

/-- "This is the batch's first query tile" (grid coordinate 1 is zero), as the body computes it. -/
abbrev cond0_0 (i : grid0.Coords) : Prop := (Scalar.cmpi .ne (Scalar.extui (Scalar.cmpi .eq (BitVec.ofNat 32 (i 1).val) 0#32)) 0#32) = 1#1
/-- It holds at the points ≡ 0 (mod 4). -/
theorem hcond0_0 : ∀ t : Fin cfg0.N, cond0_0 (grid0.coords t) ↔ t.val % 4 = 0 :=
  (by decide +kernel : ∀ t : Fin grid0.N, cond0_0 (grid0.coords t) ↔ t.val % 4 = 0)

/-- No window is ever idle. -/
theorem liveAt0 : ∀ (w : Fin cfg0.W) (t : Fin cfg0.N), cfg0.idle w (grid0.coords t) = false := fun _ _ => rfl

/-! ## The memrefs the body is called with -/

abbrev ms0_0 (t : Fin cfg0.N) : Memref sig .tc .vmem S1x4096x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x256 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x256 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1024x256 .f32 := win0_8.stage (cfg0.slots t 8)
abbrev hs0_8 (t : Fin cfg0.N) : (ms0_8 t).IsWhole := hstage0_8 ((cfg0.slots t 8).cast nbuf0_8)
/-- The scratch operands: the projected keys and values of the current batch (carried from the batch's first point
    to its last), and the running maximum, denominator and accumulator (reset at every point). -/
abbrev scM0_0 : Memref sig .tc .vmem S4096x256 .bf16 := Memref.whole cc0_scratch0
abbrev scM0_1 : Memref sig .tc .vmem S4096x256 .bf16 := Memref.whole cc0_scratch1
abbrev scM0_2 : Memref sig .tc .vmem S1024x1 .f32 := Memref.whole cc0_scratch2
abbrev scM0_3 : Memref sig .tc .vmem S1024x1 .f32 := Memref.whole cc0_scratch3
abbrev scM0_4 : Memref sig .tc .vmem S1024x256 .f32 := Memref.whole cc0_scratch4

/-- The region's class invariant over the five scratch buffers, each owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.KernelIdeal.Hand

end
-- ==== Proof.KI.RunB.lean ====
/-
  The body at a point that is not its batch's first query tile: the projected keys and values are already in the two
  scratch buffers (at contents `xs0`, `xs1`), the body projects its own query tile, resets the running maximum,
  denominator and accumulator, streams the four key/value tiles through the online-softmax recurrence and stores
  accumulator / denominator into the output's staging buffer. Holding every input's staging buffer and the key and
  value scratch at their contents and the rest at anything, it runs to the end without a fault, leaves what it only
  read as it was, and leaves the output's buffer with the pieces its one store wrote.
-/
import proofs.«119718_j75144747811056_2_alg».proof.Proof.KI.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
noncomputable def kernelRun0_B (c : Dev nD) (i : grid0.Coords) (arg2 : Memref sig .tc .vmem S1x4096x256 .f32) (harg2 : arg2.IsWhole) (arg3 : Memref sig .tc .vmem S1x1024x256 .f32) (harg3 : arg3.IsWhole) (arg4 : Memref sig .tc .vmem S256x256 .bf16) (harg4 : arg4.IsWhole) (arg5 : Memref sig .tc .vmem S256 .f32) (harg5 : arg5.IsWhole) (arg6 : Memref sig .tc .vmem S256x256 .bf16) (harg6 : arg6.IsWhole) (arg7 : Memref sig .tc .vmem S256 .f32) (harg7 : arg7.IsWhole) (arg8 : Memref sig .tc .vmem S256x256 .bf16) (harg8 : arg8.IsWhole) (arg9 : Memref sig .tc .vmem S256 .f32) (harg9 : arg9.IsWhole) (arg10 : Memref sig .tc .vmem S1x1024x256 .f32) (harg10 : arg10.IsWhole) (arg11 : Memref sig .tc .vmem S4096x256 .bf16) (harg11 : arg11.IsWhole) (arg12 : Memref sig .tc .vmem S4096x256 .bf16) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x256 .f32) (harg15 : arg15.IsWhole) (hc0 : ¬cond0_0 i)
    (x0 : Vec F S1x4096x256 .f32) (x1 : Vec F S1x1024x256 .f32) (x2 : Vec F S256x256 .bf16) (x3 : Vec F S256 .f32) (x4 : Vec F S256x256 .bf16) (x5 : Vec F S256 .f32) (x6 : Vec F S256x256 .bf16) (x7 : Vec F S256 .f32) (xs0 xs1 : Vec F S4096x256 .bf16) :
    { L8 : List (View.Piece (Elt F) S1x1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xs0 ∗ owns (c : Thread nD τ) arg12 fullShare xs1 ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ owns (c : Thread nD τ) arg11 fullShare xs0 ∗ owns (c : Thread nD τ) arg12 fullShare xs1 ∗ (∃ d, owns (c : Thread nD τ) arg13 fullShare d) ∗ (∃ d, owns (c : Thread nD τ) arg14 fullShare d) ∗ (∃ d, owns (c : Thread nD τ) arg15 fullShare d)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, %hf8, H8⟩, ⟨%fs0, %hfs0, HS0⟩, ⟨%fs1, %hfs1, HS1⟩, ⟨%d2, %fs2, %hfs2, HS2⟩, ⟨%d3, %fs3, %hfs3, HS3⟩, ⟨%d4, %fs4, %hfs4, HS4⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6; obtain rfl := harg9.eq_unread hf7
    obtain rfl := harg11.eq_unread hfs0; obtain rfl := harg12.eq_unread hfs1
    sl_exec (disch := exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; iexact H8
    isplitl [HS0]
    · iexists _; isplitr; · ipureintro; exact harg11.read_unread _
      iexact HS0
    isplitl [HS1]
    · iexists _; isplitr; · ipureintro; exact harg12.read_unread _
      iexact HS1
    isplitl [HS2]
    · iexists _; iexists _; isplitr
      swap; · iexact HS2
      ipureintro; rfl
    isplitl [HS3]
    · iexists _; iexists _; isplitr
      swap; · iexact HS3
      ipureintro; rfl
    iexists _; iexists _; isplitr
    swap; · iexact HS4
    ipureintro; rfl

end Cert.KernelIdeal.Hand

end
-- ==== Proof.KI.RunA.lean ====
/-
  The body at a batch's first query tile: it first projects the whole batch's keys and values (the batch's 4096 rows
  of the input times the transposed key and value weights, plus the biases) into the two scratch buffers, whatever
  they held, and then does what it does at every point: projects its own query tile, resets the running maximum,
  denominator and accumulator, streams the four key/value tiles through the online-softmax recurrence and stores
  accumulator / denominator into the output's staging buffer. Holding every input's staging buffer at its contents
  and the rest at anything, it runs to the end without a fault, leaves the inputs as they were, and leaves the
  output's buffer and the key and value scratch with the pieces its stores wrote.
-/
import proofs.«119718_j75144747811056_2_alg».proof.Proof.KI.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
noncomputable def kernelRun0_A (c : Dev nD) (i : grid0.Coords) (arg2 : Memref sig .tc .vmem S1x4096x256 .f32) (harg2 : arg2.IsWhole) (arg3 : Memref sig .tc .vmem S1x1024x256 .f32) (harg3 : arg3.IsWhole) (arg4 : Memref sig .tc .vmem S256x256 .bf16) (harg4 : arg4.IsWhole) (arg5 : Memref sig .tc .vmem S256 .f32) (harg5 : arg5.IsWhole) (arg6 : Memref sig .tc .vmem S256x256 .bf16) (harg6 : arg6.IsWhole) (arg7 : Memref sig .tc .vmem S256 .f32) (harg7 : arg7.IsWhole) (arg8 : Memref sig .tc .vmem S256x256 .bf16) (harg8 : arg8.IsWhole) (arg9 : Memref sig .tc .vmem S256 .f32) (harg9 : arg9.IsWhole) (arg10 : Memref sig .tc .vmem S1x1024x256 .f32) (harg10 : arg10.IsWhole) (arg11 : Memref sig .tc .vmem S4096x256 .bf16) (harg11 : arg11.IsWhole) (arg12 : Memref sig .tc .vmem S4096x256 .bf16) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x256 .f32) (harg15 : arg15.IsWhole) (hc0 : cond0_0 i)
    (x0 : Vec F S1x4096x256 .f32) (x1 : Vec F S1x1024x256 .f32) (x2 : Vec F S256x256 .bf16) (x3 : Vec F S256 .f32) (x4 : Vec F S256x256 .bf16) (x5 : Vec F S256 .f32) (x6 : Vec F S256x256 .bf16) (x7 : Vec F S256 .f32) :
    Σ' (L8 : List (View.Piece (Elt F) S1x1024x256 .f32)) (LS0 : List (View.Piece (Elt F) S4096x256 .bf16)), { LS1 : List (View.Piece (Elt F) S4096x256 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ d, owns (c : Thread nD τ) arg13 fullShare d) ∗ (∃ d, owns (c : Thread nD τ) arg14 fullShare d) ∗ (∃ d, owns (c : Thread nD τ) arg15 fullShare d)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, %hf8, H8⟩, ⟨%d0, %fs0, %hfs0, HS0⟩, ⟨%d1, %fs1, %hfs1, HS1⟩, ⟨%d2, %fs2, %hfs2, HS2⟩, ⟨%d3, %fs3, %hfs3, HS3⟩, ⟨%d4, %fs4, %hfs4, HS4⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6; obtain rfl := harg9.eq_unread hf7
    sl_exec (disch := exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; iexact H8
    isplitl [HS0]
    · iexists _; iexact HS0
    isplitl [HS1]
    · iexists _; iexact HS1
    isplitl [HS2]
    · iexists _; iexists _; isplitr
      swap; · iexact HS2
      ipureintro; rfl
    isplitl [HS3]
    · iexists _; iexists _; isplitr
      swap; · iexact HS3
      ipureintro; rfl
    iexists _; iexists _; isplitr
    swap; · iexact HS4
    ipureintro; rfl

end Cert.KernelIdeal.Hand

end
-- ==== Proof.KI.Frame.lean ====
/-
  The frame of the attention kernel, with what it leaves named: what each of the body's two cases leaves in the
  output's staging buffer and in the key and value scratch; what they hold after every grid point (the keys and
  values projected at a batch's first point are carried, untouched, through the batch's other three points); the
  pipeline's proof data — the input array is handed to two windows (the batch's whole block, and the query tile), so
  each holds half of it —; the body obligation at every point; and the run: every weakly fair execution of @main
  terminates without a fault, every array of the pipeline ends at what the proof data compute, every other buffer as
  the region found it. The seven arguments end unchanged.
-/
import proofs.«119718_j75144747811056_2_alg».proof.Proof.KI.RunA
import Idealize.ShloMosaic.Lib.Pipeline.Launch

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- One staging buffer of the output window, and the two carried scratch buffers, as views: contents are stated through them. -/
abbrev VO0_8 : View sig .tc .vmem S1x1024x256 .f32 := (Memref.whole cc0_stg8_0 : Memref sig .tc .vmem S1x1024x256 .f32).view
abbrev VS0_0 : View sig .tc .vmem S4096x256 .bf16 := scM0_0.view
abbrev VS0_1 : View sig .tc .vmem S4096x256 .bf16 := scM0_1.view

theorem cover0_A_8 (c : Dev nD) (i : grid0.Coords) (arg2 : Memref sig .tc .vmem S1x4096x256 .f32) (harg2 : arg2.IsWhole) (arg3 : Memref sig .tc .vmem S1x1024x256 .f32) (harg3 : arg3.IsWhole) (arg4 : Memref sig .tc .vmem S256x256 .bf16) (harg4 : arg4.IsWhole) (arg5 : Memref sig .tc .vmem S256 .f32) (harg5 : arg5.IsWhole) (arg6 : Memref sig .tc .vmem S256x256 .bf16) (harg6 : arg6.IsWhole) (arg7 : Memref sig .tc .vmem S256 .f32) (harg7 : arg7.IsWhole) (arg8 : Memref sig .tc .vmem S256x256 .bf16) (harg8 : arg8.IsWhole) (arg9 : Memref sig .tc .vmem S256 .f32) (harg9 : arg9.IsWhole) (arg10 : Memref sig .tc .vmem S1x1024x256 .f32) (harg10 : arg10.IsWhole) (arg11 : Memref sig .tc .vmem S4096x256 .bf16) (harg11 : arg11.IsWhole) (arg12 : Memref sig .tc .vmem S4096x256 .bf16) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x256 .f32) (harg15 : arg15.IsWhole) (hc0 : cond0_0 i) (x0 : Vec F S1x4096x256 .f32) (x1 : Vec F S1x1024x256 .f32) (x2 : Vec F S256x256 .bf16) (x3 : Vec F S256 .f32) (x4 : Vec F S256x256 .bf16) (x5 : Vec F S256 .f32) (x6 : Vec F S256x256 .bf16) (x7 : Vec F S256 .f32) (y : S1x1024x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).1 S1x1024x256.size (by sl_kernel_rfl) y
theorem scover0_A_0 (c : Dev nD) (i : grid0.Coords) (arg2 : Memref sig .tc .vmem S1x4096x256 .f32) (harg2 : arg2.IsWhole) (arg3 : Memref sig .tc .vmem S1x1024x256 .f32) (harg3 : arg3.IsWhole) (arg4 : Memref sig .tc .vmem S256x256 .bf16) (harg4 : arg4.IsWhole) (arg5 : Memref sig .tc .vmem S256 .f32) (harg5 : arg5.IsWhole) (arg6 : Memref sig .tc .vmem S256x256 .bf16) (harg6 : arg6.IsWhole) (arg7 : Memref sig .tc .vmem S256 .f32) (harg7 : arg7.IsWhole) (arg8 : Memref sig .tc .vmem S256x256 .bf16) (harg8 : arg8.IsWhole) (arg9 : Memref sig .tc .vmem S256 .f32) (harg9 : arg9.IsWhole) (arg10 : Memref sig .tc .vmem S1x1024x256 .f32) (harg10 : arg10.IsWhole) (arg11 : Memref sig .tc .vmem S4096x256 .bf16) (harg11 : arg11.IsWhole) (arg12 : Memref sig .tc .vmem S4096x256 .bf16) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x256 .f32) (harg15 : arg15.IsWhole) (hc0 : cond0_0 i) (x0 : Vec F S1x4096x256 .f32) (x1 : Vec F S1x1024x256 .f32) (x2 : Vec F S256x256 .bf16) (x3 : Vec F S256 .f32) (x4 : Vec F S256x256 .bf16) (x5 : Vec F S256 .f32) (x6 : Vec F S256x256 .bf16) (x7 : Vec F S256 .f32) (y : S4096x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.1 S4096x256.size (by sl_kernel_rfl) y
theorem scover0_A_1 (c : Dev nD) (i : grid0.Coords) (arg2 : Memref sig .tc .vmem S1x4096x256 .f32) (harg2 : arg2.IsWhole) (arg3 : Memref sig .tc .vmem S1x1024x256 .f32) (harg3 : arg3.IsWhole) (arg4 : Memref sig .tc .vmem S256x256 .bf16) (harg4 : arg4.IsWhole) (arg5 : Memref sig .tc .vmem S256 .f32) (harg5 : arg5.IsWhole) (arg6 : Memref sig .tc .vmem S256x256 .bf16) (harg6 : arg6.IsWhole) (arg7 : Memref sig .tc .vmem S256 .f32) (harg7 : arg7.IsWhole) (arg8 : Memref sig .tc .vmem S256x256 .bf16) (harg8 : arg8.IsWhole) (arg9 : Memref sig .tc .vmem S256 .f32) (harg9 : arg9.IsWhole) (arg10 : Memref sig .tc .vmem S1x1024x256 .f32) (harg10 : arg10.IsWhole) (arg11 : Memref sig .tc .vmem S4096x256 .bf16) (harg11 : arg11.IsWhole) (arg12 : Memref sig .tc .vmem S4096x256 .bf16) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x256 .f32) (harg15 : arg15.IsWhole) (hc0 : cond0_0 i) (x0 : Vec F S1x4096x256 .f32) (x1 : Vec F S1x1024x256 .f32) (x2 : Vec F S256x256 .bf16) (x3 : Vec F S256 .f32) (x4 : Vec F S256x256 .bf16) (x5 : Vec F S256 .f32) (x6 : Vec F S256x256 .bf16) (x7 : Vec F S256 .f32) (y : S4096x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.1 S4096x256.size (by sl_kernel_rfl) y
theorem cover0_B_8 (c : Dev nD) (i : grid0.Coords) (arg2 : Memref sig .tc .vmem S1x4096x256 .f32) (harg2 : arg2.IsWhole) (arg3 : Memref sig .tc .vmem S1x1024x256 .f32) (harg3 : arg3.IsWhole) (arg4 : Memref sig .tc .vmem S256x256 .bf16) (harg4 : arg4.IsWhole) (arg5 : Memref sig .tc .vmem S256 .f32) (harg5 : arg5.IsWhole) (arg6 : Memref sig .tc .vmem S256x256 .bf16) (harg6 : arg6.IsWhole) (arg7 : Memref sig .tc .vmem S256 .f32) (harg7 : arg7.IsWhole) (arg8 : Memref sig .tc .vmem S256x256 .bf16) (harg8 : arg8.IsWhole) (arg9 : Memref sig .tc .vmem S256 .f32) (harg9 : arg9.IsWhole) (arg10 : Memref sig .tc .vmem S1x1024x256 .f32) (harg10 : arg10.IsWhole) (arg11 : Memref sig .tc .vmem S4096x256 .bf16) (harg11 : arg11.IsWhole) (arg12 : Memref sig .tc .vmem S4096x256 .bf16) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x256 .f32) (harg15 : arg15.IsWhole) (hc0 : ¬cond0_0 i) (x0 : Vec F S1x4096x256 .f32) (x1 : Vec F S1x1024x256 .f32) (x2 : Vec F S256x256 .bf16) (x3 : Vec F S256 .f32) (x4 : Vec F S256x256 .bf16) (x5 : Vec F S256 .f32) (x6 : Vec F S256x256 .bf16) (x7 : Vec F S256 .f32) (xs0 xs1 : Vec F S4096x256 .bf16) (y : S1x1024x256.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 xs1).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 xs1).1 S1x1024x256.size (by sl_kernel_rfl) y

/-- What the first-tile case leaves in the output's staging buffer, and in the key and value scratch. -/
def out0_A_8 (c : Dev nD) (i : grid0.Coords) (arg2 : Memref sig .tc .vmem S1x4096x256 .f32) (harg2 : arg2.IsWhole) (arg3 : Memref sig .tc .vmem S1x1024x256 .f32) (harg3 : arg3.IsWhole) (arg4 : Memref sig .tc .vmem S256x256 .bf16) (harg4 : arg4.IsWhole) (arg5 : Memref sig .tc .vmem S256 .f32) (harg5 : arg5.IsWhole) (arg6 : Memref sig .tc .vmem S256x256 .bf16) (harg6 : arg6.IsWhole) (arg7 : Memref sig .tc .vmem S256 .f32) (harg7 : arg7.IsWhole) (arg8 : Memref sig .tc .vmem S256x256 .bf16) (harg8 : arg8.IsWhole) (arg9 : Memref sig .tc .vmem S256 .f32) (harg9 : arg9.IsWhole) (arg10 : Memref sig .tc .vmem S1x1024x256 .f32) (harg10 : arg10.IsWhole) (arg11 : Memref sig .tc .vmem S4096x256 .bf16) (harg11 : arg11.IsWhole) (arg12 : Memref sig .tc .vmem S4096x256 .bf16) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x256 .f32) (harg15 : arg15.IsWhole) (hc0 : cond0_0 i) (x0 : Vec F S1x4096x256 .f32) (x1 : Vec F S1x1024x256 .f32) (x2 : Vec F S256x256 .bf16) (x3 : Vec F S256 .f32) (x4 : Vec F S256x256 .bf16) (x5 : Vec F S256 .f32) (x6 : Vec F S256x256 .bf16) (x7 : Vec F S256 .f32) : Vec F S1x1024x256 .f32 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).1)
def sout0_A_0 (c : Dev nD) (i : grid0.Coords) (arg2 : Memref sig .tc .vmem S1x4096x256 .f32) (harg2 : arg2.IsWhole) (arg3 : Memref sig .tc .vmem S1x1024x256 .f32) (harg3 : arg3.IsWhole) (arg4 : Memref sig .tc .vmem S256x256 .bf16) (harg4 : arg4.IsWhole) (arg5 : Memref sig .tc .vmem S256 .f32) (harg5 : arg5.IsWhole) (arg6 : Memref sig .tc .vmem S256x256 .bf16) (harg6 : arg6.IsWhole) (arg7 : Memref sig .tc .vmem S256 .f32) (harg7 : arg7.IsWhole) (arg8 : Memref sig .tc .vmem S256x256 .bf16) (harg8 : arg8.IsWhole) (arg9 : Memref sig .tc .vmem S256 .f32) (harg9 : arg9.IsWhole) (arg10 : Memref sig .tc .vmem S1x1024x256 .f32) (harg10 : arg10.IsWhole) (arg11 : Memref sig .tc .vmem S4096x256 .bf16) (harg11 : arg11.IsWhole) (arg12 : Memref sig .tc .vmem S4096x256 .bf16) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x256 .f32) (harg15 : arg15.IsWhole) (hc0 : cond0_0 i) (x0 : Vec F S1x4096x256 .f32) (x1 : Vec F S1x1024x256 .f32) (x2 : Vec F S256x256 .bf16) (x3 : Vec F S256 .f32) (x4 : Vec F S256x256 .bf16) (x5 : Vec F S256 .f32) (x6 : Vec F S256x256 .bf16) (x7 : Vec F S256 .f32) : Vec F S4096x256 .bf16 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.1)
def sout0_A_1 (c : Dev nD) (i : grid0.Coords) (arg2 : Memref sig .tc .vmem S1x4096x256 .f32) (harg2 : arg2.IsWhole) (arg3 : Memref sig .tc .vmem S1x1024x256 .f32) (harg3 : arg3.IsWhole) (arg4 : Memref sig .tc .vmem S256x256 .bf16) (harg4 : arg4.IsWhole) (arg5 : Memref sig .tc .vmem S256 .f32) (harg5 : arg5.IsWhole) (arg6 : Memref sig .tc .vmem S256x256 .bf16) (harg6 : arg6.IsWhole) (arg7 : Memref sig .tc .vmem S256 .f32) (harg7 : arg7.IsWhole) (arg8 : Memref sig .tc .vmem S256x256 .bf16) (harg8 : arg8.IsWhole) (arg9 : Memref sig .tc .vmem S256 .f32) (harg9 : arg9.IsWhole) (arg10 : Memref sig .tc .vmem S1x1024x256 .f32) (harg10 : arg10.IsWhole) (arg11 : Memref sig .tc .vmem S4096x256 .bf16) (harg11 : arg11.IsWhole) (arg12 : Memref sig .tc .vmem S4096x256 .bf16) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x256 .f32) (harg15 : arg15.IsWhole) (hc0 : cond0_0 i) (x0 : Vec F S1x4096x256 .f32) (x1 : Vec F S1x1024x256 .f32) (x2 : Vec F S256x256 .bf16) (x3 : Vec F S256 .f32) (x4 : Vec F S256x256 .bf16) (x5 : Vec F S256 .f32) (x6 : Vec F S256x256 .bf16) (x7 : Vec F S256 .f32) : Vec F S4096x256 .bf16 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.1)
/-- What a later tile's case leaves in the output's staging buffer, given the carried keys and values. -/
def out0_B_8 (c : Dev nD) (i : grid0.Coords) (arg2 : Memref sig .tc .vmem S1x4096x256 .f32) (harg2 : arg2.IsWhole) (arg3 : Memref sig .tc .vmem S1x1024x256 .f32) (harg3 : arg3.IsWhole) (arg4 : Memref sig .tc .vmem S256x256 .bf16) (harg4 : arg4.IsWhole) (arg5 : Memref sig .tc .vmem S256 .f32) (harg5 : arg5.IsWhole) (arg6 : Memref sig .tc .vmem S256x256 .bf16) (harg6 : arg6.IsWhole) (arg7 : Memref sig .tc .vmem S256 .f32) (harg7 : arg7.IsWhole) (arg8 : Memref sig .tc .vmem S256x256 .bf16) (harg8 : arg8.IsWhole) (arg9 : Memref sig .tc .vmem S256 .f32) (harg9 : arg9.IsWhole) (arg10 : Memref sig .tc .vmem S1x1024x256 .f32) (harg10 : arg10.IsWhole) (arg11 : Memref sig .tc .vmem S4096x256 .bf16) (harg11 : arg11.IsWhole) (arg12 : Memref sig .tc .vmem S4096x256 .bf16) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x256 .f32) (harg15 : arg15.IsWhole) (hc0 : ¬cond0_0 i) (x0 : Vec F S1x4096x256 .f32) (x1 : Vec F S1x1024x256 .f32) (x2 : Vec F S256x256 .bf16) (x3 : Vec F S256 .f32) (x4 : Vec F S256x256 .bf16) (x5 : Vec F S256 .f32) (x6 : Vec F S256x256 .bf16) (x7 : Vec F S256 .f32) (xs0 xs1 : Vec F S4096x256 .bf16) : Vec F S1x1024x256 .f32 :=
  VO0_8.read (Elt F) (VO0_8.writes (Elt F) VO0_8.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 xs1).1)

/-! ## What the output's buffer and the carried scratch hold after each point -/

/-- After the body at position `n`: the output's staging buffer, the key scratch, the value scratch. At a batch's
    first point all three are what the first-tile case leaves; at the other points the output is the later-tile
    case's over the keys and values the point before left, which stay. -/
def outsAt0 (c : Dev nD) : (n : ℕ) → n < cfg0.N → Vec F S1x1024x256 .f32 × Vec F S4096x256 .bf16 × Vec F S4096x256 .bf16
  | 0, hn => (out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩),
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩),
      sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩))
  | n + 1, hn =>
    if h0 : (n + 1) % 4 = 0 then
      (out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩),
       sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩),
       sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩))
    else
      (out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.1 (outsAt0 c n (Nat.lt_of_succ_lt hn)).2.2,
       (outsAt0 c n (Nat.lt_of_succ_lt hn)).2.1, (outsAt0 c n (Nat.lt_of_succ_lt hn)).2.2)

theorem outsAt0_A (c : Dev nD) (t : Fin cfg0.N) (h0 : t.val % 4 = 0) :
    outsAt0 m c t.val t.isLt = (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t),
      sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t),
      sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t)) := by
  obtain ⟨n, hn⟩ := t
  cases n with
  | zero => exact rfl
  | succ n => exact (dif_pos h0).trans rfl

theorem outsAt0_B (c : Dev nD) (t : Fin cfg0.N) (h0 : ¬t.val % 4 = 0) :
    outsAt0 m c t.val t.isLt = (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2,
      (outsAt0 m c (t.val - 1) (Nat.lt_of_le_of_lt (Nat.sub_le _ _) t.isLt)).2.1, (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-- The scratch buffers before position `n`: before the first point anything; afterwards the keys and values at what
    the point before left, the running maximum, denominator and accumulator at anything. -/
def PhiS (c : Dev nD) : (n : ℕ) → n ≤ cfg0.N → sProp 𝕄
  | 0, _ => Pipeline.scopedRest spec0 c
  | n + 1, hn => iprop(owns (c : Thread nD τ) scM0_0 fullShare ((outsAt0 m c n hn).2.1) ∗ owns (c : Thread nD τ) scM0_1 fullShare ((outsAt0 m c n hn).2.2) ∗ (∃ d, owns (c : Thread nD τ) scM0_2 fullShare d) ∗ (∃ d, owns (c : Thread nD τ) scM0_3 fullShare d) ∗ (∃ d, owns (c : Thread nD τ) scM0_4 fullShare d))

theorem scopedRest0_owns (c : Dev nD) :
    (Pipeline.scopedRest spec0 c : sProp 𝕄)
      = iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) := by
  rw [scopedRest0_eq]; simp only [scM0_0, scM0_1, scM0_2, scM0_3, scM0_4, owns_whole]; try rfl

theorem PhiS_zero (c : Dev nD) (n : ℕ) (h : n ≤ cfg0.N) (hz : n = 0) : PhiS m c n h = Pipeline.scopedRest spec0 c := by
  subst hz; rfl
theorem PhiS_succ (c : Dev nD) (n : ℕ) (hn : n < cfg0.N) :
    PhiS m c (n + 1) hn = iprop(owns (c : Thread nD τ) scM0_0 fullShare ((outsAt0 m c n hn).2.1) ∗ owns (c : Thread nD τ) scM0_1 fullShare ((outsAt0 m c n hn).2.2) ∗ (∃ d, owns (c : Thread nD τ) scM0_2 fullShare d) ∗ (∃ d, owns (c : Thread nD τ) scM0_3 fullShare d) ∗ (∃ d, owns (c : Thread nD τ) scM0_4 fullShare d)) := rfl
theorem PhiS_pos (c : Dev nD) (n : ℕ) (h : n ≤ cfg0.N) (hz : n ≠ 0) :
    PhiS m c n h = iprop(owns (c : Thread nD τ) scM0_0 fullShare ((outsAt0 m c (n - 1) (by omega)).2.1) ∗ owns (c : Thread nD τ) scM0_1 fullShare ((outsAt0 m c (n - 1) (by omega)).2.2) ∗ (∃ d, owns (c : Thread nD τ) scM0_2 fullShare d) ∗ (∃ d, owns (c : Thread nD τ) scM0_3 fullShare d) ∗ (∃ d, owns (c : Thread nD τ) scM0_4 fullShare d)) := by
  cases n with
  | zero => exact absurd rfl hz
  | succ n => rfl

/-! ## The pipeline's proof data -/

/-- The arrays as the region finds them; after the body each input's buffer at its block and the output's at
    `outsAt0`; the invariant the scratch buffers (`PhiS`); nothing owed; the input array, which windows 0 and 1 both
    read, held half by each, every other input array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt).1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t.val t.isLt).1 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from rfl, after0_0]
  rw [show (dats m 0 c).leavesExact 1 t = owns (c : Thread nD τ) (ms0_1 t) fullShare ((dats m 0 c).after 1 t) from rfl, after0_1]
  rw [show (dats m 0 c).leavesExact 2 t = owns (c : Thread nD τ) (ms0_2 t) fullShare ((dats m 0 c).after 2 t) from rfl, after0_2]
  rw [show (dats m 0 c).leavesExact 3 t = owns (c : Thread nD τ) (ms0_3 t) fullShare ((dats m 0 c).after 3 t) from rfl, after0_3]
  rw [show (dats m 0 c).leavesExact 4 t = owns (c : Thread nD τ) (ms0_4 t) fullShare ((dats m 0 c).after 4 t) from rfl, after0_4]
  rw [show (dats m 0 c).leavesExact 5 t = owns (c : Thread nD τ) (ms0_5 t) fullShare ((dats m 0 c).after 5 t) from rfl, after0_5]
  rw [show (dats m 0 c).leavesExact 6 t = owns (c : Thread nD τ) (ms0_6 t) fullShare ((dats m 0 c).after 6 t) from rfl, after0_6]
  rw [show (dats m 0 c).leavesExact 7 t = owns (c : Thread nD τ) (ms0_7 t) fullShare ((dats m 0 c).after 7 t) from rfl, after0_7]
  rw [show (dats m 0 c).leavesExact 8 t = owns (c : Thread nD τ) (ms0_8 t) fullShare ((dats m 0 c).after 8 t) from rfl, after0_8]
  by_cases h0 : t.val % 4 = 0
  · rw [outsAt0_A m c t h0]
    unfold out0_A_8 sout0_A_0 sout0_A_1; (try dsimp only)
    have hpre : (dats m 0 c).Φ t.castSucc ⊢ (iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) : sProp 𝕄) := by
      rw [PhiS_castSucc m c t]
      by_cases hz : t.val = 0
      · rw [PhiS_zero m c _ _ hz, scopedRest0_owns]
      · rw [PhiS_pos m c _ _ hz]
        iintro ⟨HS0, HS1, HS2, HS3, HS4⟩
        isplitl [HS0]; · iexists _; iexact HS0
        isplitl [HS1]; · iexists _; iexact HS1
        isplitl [HS2]; · iexact HS2
        isplitl [HS3]; · iexact HS3
        iexact HS4
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    ihave HΦ' := hpre $$ HΦ
    icases HΦ' with ⟨HS0, HS1, HS2, HS3, HS4⟩
    iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, H7, ⟨%e8, H8⟩, ⟨%es0, HS0⟩, ⟨%es1, HS1⟩, HS2, HS3, HS4⟩
    isplitl [HS0 HS1 HS2 HS3 HS4]
    · isplitl [HS0]
      · unfold owns; iexists _; isplitr
        swap; · iexact HS0
        ipureintro; exact View.read_writes_of_cover _ _ _ _ _ (scover0_A_0 c _ _ _ _ _ _ _ _ _ _ _ _ _ _ _ _ _ _ _ _ _ _ _ _ _ _ _ _ _ _ _ _ _ _ _ _ _ _ )
      isplitl [HS1]
      · unfold owns; iexists _; isplitr
        swap; · iexact HS1
        ipureintro; exact View.read_writes_of_cover _ _ _ _ _ (scover0_A_1 c _ _ _ _ _ _ _ _ _ _ _ _ _ _ _ _ _ _ _ _ _ _ _ _ _ _ _ _ _ _ _ _ _ _ _ _ _ _ )
      isplitl [HS2]; · iexact HS2
      isplitl [HS3]; · iexact HS3
      iexact HS4
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    unfold owns; iexists _; isplitr
    swap; · iexact H8
    ipureintro; exact View.read_writes_of_cover _ _ _ _ _ (cover0_A_8 c _ _ _ _ _ _ _ _ _ _ _ _ _ _ _ _ _ _ _ _ _ _ _ _ _ _ _ _ _ _ _ _ _ _ _ _ _ _ )
  · rw [outsAt0_B m c t h0]
    unfold out0_B_8; (try dsimp only)
    have hz : t.val ≠ 0 := fun e => h0 (by rw [e])
    rw [PhiS_castSucc m c t, PhiS_pos m c _ _ hz]
    iintro ⟨⟨HS0, HS1, HS2, HS3, HS4⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) _ _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, H7, ⟨%e8, H8⟩, HS0, HS1, HS2, HS3, HS4⟩
    isplitl [HS0 HS1 HS2 HS3 HS4]
    · isplitl [HS0]; · iexact HS0
      isplitl [HS1]; · iexact HS1
      isplitl [HS2]; · iexact HS2
      isplitl [HS3]; · iexact HS3
      iexact HS4
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    unfold owns; iexists _; isplitr
    swap; · iexact H8
    ipureintro; exact View.read_writes_of_cover _ _ _ _ _ (cover0_B_8 c _ _ _ _ _ _ _ _ _ _ _ _ _ _ _ _ _ _ _ _ _ _ _ _ _ _ _ _ _ _ _ _ _ _ _ _ _ _ _ _ )

theorem body_obligation (c : Dev nD) : BodyObligation (dats (F := F) m 0 c) (defs₀ (F := F)) Variants.none () Set.univ := fun t => by
  rw [bigSep_W0, bigSep_W0]
  exact sound_body m c t

/-! ## The launch -/

/-- What the launch hands the region of the scoped buffers is the invariant before the first point. -/
theorem hin (c : Dev nD) : iprop((BI.emp : sProp 𝕄) ∗ Pipeline.scopedRest spec0 c) ⊢ (dats m 0 c).Φ 0 := by
  rw [show (dats m 0 c).Φ 0 = PhiS m c 0 (Nat.zero_le _) from rfl, PhiS_zero m c 0 _ rfl]
  iintro ⟨-, H⟩; iexact H

/-- After the last point the invariant gives the scoped buffers back, the keys' and values' contents forgotten. -/
theorem hout (c : Dev nD) : (dats m 0 c).Φ (Fin.last cfg0.N) ⊢ iprop((BI.emp : sProp 𝕄) ∗ Pipeline.scopedRest spec0 c) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 16 := N_0; omega), scopedRest0_owns]
  iintro ⟨HS0, HS1, HS2, HS3, HS4⟩
  isplitr; · iempintro
  isplitl [HS0]; · iexists _; iexact HS0
  isplitl [HS1]; · iexists _; iexact HS1
  isplitl [HS2]; · iexact HS2
  isplitl [HS3]; · iexact HS3
  iexact HS4

/-- The pipeline's arrays over the buffers' own locations: every window's array is a whole buffer. -/
theorem arrays_eq' (c : Dev nD) (Fa : (w : Fin cfg0.W) → Buf (Elt F) ((cfg0.win w).arr.view.loc (c.tc : Thread nD τ))) :
    (dats m 0 c).arrays Fa = bigSep Finset.univ fun w => (((c.tc : Thread nD τ).loc (Pipeline.arrRef spec0 w)) ↦{(dats m 0 c).share w} Fa w : sProp 𝕄) := by
  unfold Dat.arrays
  exact bigSep_congr fun w _ => by rw [(arr_whole0 w).set_eq_univ]

/-- The distinct buffers behind the nine windows' arrays, conjoined one by one. -/
theorem bigSep_arrs {M : Type} [URA M] (Φ : Ref sig .tc → sProp M) :
    bigSep (Finset.univ.image (Pipeline.arrRef spec0)) Φ
      = iprop(Φ main_arg0 ∗ Φ main_v1 ∗ Φ main_arg2 ∗ Φ main_v3 ∗ Φ main_arg4 ∗ Φ main_v5 ∗ Φ main_arg6 ∗ Φ main_v6) :=
  bigSep_eq_bigSepL_of_eq [main_arg0, main_v1, main_arg2, main_v3, main_arg4, main_v5, main_arg6, main_v6] (by decide) (by decide) Φ

/-- The buffers behind the windows' arrays, each whole, dealt to the windows: the input array's two readers take
    half of it each, every other array goes whole to its one window. -/
theorem hsplit (c : Dev nD) :
    (Pipeline.arrBufs spec0 c (V m c) : sProp 𝕄) ⊢ (dats m 0 c).arrays ((dats m 0 c).arrAt · 0) := by
  rw [arrays_eq']
  unfold Pipeline.arrBufs
  rw [bigSep_arrs, bigSep_W0]
  iintro ⟨Hx, H2, H3, H4, H5, H6, H7, H8⟩
  ihave Hx' := (pointsTo_share (PosShare.mem_left_op_right fullShare)).1 $$ Hx
  icases Hx' with ⟨H0, H1⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

set_option backward.isDefEq.respectTransparency.types false in
/-- Every weakly fair execution of @main terminates without a fault; every array of the pipeline ends at what the proof
    data compute, every other unscoped buffer as the region found it. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj))
    (hu₀ := BI.Entails.refl _)
    (V := V m) (hmain := hmain m Variants.none) (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr; · iempintro
      iexact H)
    (hin := hin m) (hout := hout m)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-- The arguments the pipeline stages end as launched: an input window's array is never written. -/
theorem arr_in (c : Dev nD) (w : Fin cfg0.W) (hw : (cfg0.win w).isOut = false) :
    (dats m 0 c).arrAt w cfg0.N = V m c (Pipeline.arrRef spec0 w) :=
  ((dats m 0 c).arrAt_in w hw _).trans (A_eq m c w)

/-- THE FRAME: the run, and the seven arguments unchanged. Four of them are arrays of input windows; the three weight
    matrices bypass the region (the kernel reads their transposed, narrowed copies). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).1 0).trans ((arr_in m c 0 rfl).trans (V_main_arg0 m c)),
     ((h c).2 main_arg1 (Pipeline.mem_restRefs_of _ rfl (by decide))).trans (V_main_arg1 m c),
     ((h c).1 3).trans ((arr_in m c 3 rfl).trans (V_main_arg2 m c)),
     ((h c).2 main_arg3 (Pipeline.mem_restRefs_of _ rfl (by decide))).trans (V_main_arg3 m c),
     ((h c).1 5).trans ((arr_in m c 5 rfl).trans (V_main_arg4 m c)),
     ((h c).2 main_arg5 (Pipeline.mem_restRefs_of _ rfl (by decide))).trans (V_main_arg5 m c),
     ((h c).1 7).trans ((arr_in m c 7 rfl).trans (V_main_arg6 m c))⟩) (run_main m ρ)

end Cert.KernelIdeal.Hand

end
-- ==== Proof.KB.Runs.lean ====
/-
  What the two runs of the attention kernel's body share: the contents of the device's buffers when the region is
  entered (after the three weight matrices have been transposed and narrowed on the host), @main reduced to the
  region, each window's block of its array at a grid point, the one branch condition of the body in closed form
  (the keys and values of a batch are projected at the batch's first query tile: grid points 0, 4, 8, 12), the
  staging and scratch buffers as the body is called with them, and the region's invariant spelled over the five
  scratch buffers.
-/
import proofs.«119718_j75144747811056_2_alg».proof.Proof.KI.Frame
import proofs.«119718_j75144747811056_2_alg».proof.Proof.Gen.Kernel.Launch
import proofs.«119718_j75144747811056_2_alg».proof.Proof.Gen.Kernel.Skeleton
import proofs.«119718_j75144747811056_2_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffer contents when the region is entered: the launch contents after the six host operations (each
    weight transposed, then narrowed). -/
abbrev V (c : Dev nD) (b : Ref sig .tc) : Buf (Elt F) ((c : Thread nD τ).loc b) :=
  StableHlo.after hostOps0 (fun b => m (c, b)) (Proc.devRef .tc b)

theorem hostOps0_fresh : (hostOps0 : List (HloOp τ sig (Elt F))).Forall fun op => op.fresh = ∅ := by
  simp only [List.Forall]; repeat' constructor

/-- @main is the six host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host operations write only their own results: the seven arguments are as launched. -/
theorem V_main_arg0 (c : Dev nD) : V m c main_arg0 = m ((c : Thread nD τ).loc main_arg0) := by
  dsimp only [V, hostOps0]; after_results_simp
theorem V_main_arg1 (c : Dev nD) : V m c main_arg1 = m ((c : Thread nD τ).loc main_arg1) := by
  dsimp only [V, hostOps0]; after_results_simp
theorem V_main_arg2 (c : Dev nD) : V m c main_arg2 = m ((c : Thread nD τ).loc main_arg2) := by
  dsimp only [V, hostOps0]; after_results_simp
theorem V_main_arg3 (c : Dev nD) : V m c main_arg3 = m ((c : Thread nD τ).loc main_arg3) := by
  dsimp only [V, hostOps0]; after_results_simp
theorem V_main_arg4 (c : Dev nD) : V m c main_arg4 = m ((c : Thread nD τ).loc main_arg4) := by
  dsimp only [V, hostOps0]; after_results_simp
theorem V_main_arg5 (c : Dev nD) : V m c main_arg5 = m ((c : Thread nD τ).loc main_arg5) := by
  dsimp only [V, hostOps0]; after_results_simp
theorem V_main_arg6 (c : Dev nD) : V m c main_arg6 = m ((c : Thread nD τ).loc main_arg6) := by
  dsimp only [V, hostOps0]; after_results_simp

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (unfetched, the
    block index has not moved since the fetch). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The body's branch condition -/

/-- "This is the batch's first query tile" (grid coordinate 1 is zero), as the body computes it. -/
abbrev cond0_0 (i : grid0.Coords) : Prop := (Scalar.cmpi .ne (Scalar.extui (Scalar.cmpi .eq (BitVec.ofNat 32 (i 1).val) 0#32)) 0#32) = 1#1
/-- It holds at the points ≡ 0 (mod 4). -/
theorem hcond0_0 : ∀ t : Fin cfg0.N, cond0_0 (grid0.coords t) ↔ t.val % 4 = 0 :=
  (by decide +kernel : ∀ t : Fin grid0.N, cond0_0 (grid0.coords t) ↔ t.val % 4 = 0)

/-- No window is ever idle. -/
theorem liveAt0 : ∀ (w : Fin cfg0.W) (t : Fin cfg0.N), cfg0.idle w (grid0.coords t) = false := fun _ _ => rfl

/-! ## The memrefs the body is called with -/

abbrev ms0_0 (t : Fin cfg0.N) : Memref sig .tc .vmem S1x4096x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x256 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x256 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1024x256 .f32 := win0_8.stage (cfg0.slots t 8)
abbrev hs0_8 (t : Fin cfg0.N) : (ms0_8 t).IsWhole := hstage0_8 ((cfg0.slots t 8).cast nbuf0_8)
/-- The scratch operands: the projected keys and values of the current batch (carried from the batch's first point
    to its last), and the running maximum, denominator and accumulator (reset at every point). -/
abbrev scM0_0 : Memref sig .tc .vmem S4096x256 .bf16 := Memref.whole cc0_scratch0
abbrev scM0_1 : Memref sig .tc .vmem S4096x256 .bf16 := Memref.whole cc0_scratch1
abbrev scM0_2 : Memref sig .tc .vmem S1024x1 .f32 := Memref.whole cc0_scratch2
abbrev scM0_3 : Memref sig .tc .vmem S1024x1 .f32 := Memref.whole cc0_scratch3
abbrev scM0_4 : Memref sig .tc .vmem S1024x256 .f32 := Memref.whole cc0_scratch4

/-- The region's class invariant over the five scratch buffers, each owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.Kernel.Hand

end
-- ==== Proof.KB.RunB.lean ====
/-
  The body at a point that is not its batch's first query tile: the projected keys and values are already in the two
  scratch buffers (at contents `xs0`, `xs1`), the body projects its own query tile, resets the running maximum,
  denominator and accumulator, streams the four key/value tiles through the online-softmax recurrence and stores
  accumulator / denominator into the output's staging buffer. Holding every input's staging buffer and the key and
  value scratch at their contents and the rest at anything, it runs to the end without a fault, leaves what it only
  read as it was, and leaves the output's buffer with the pieces its one store wrote.
-/
import proofs.«119718_j75144747811056_2_alg».proof.Proof.KB.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
noncomputable def kernelRun0_B (c : Dev nD) (i : grid0.Coords) (arg2 : Memref sig .tc .vmem S1x4096x256 .f32) (harg2 : arg2.IsWhole) (arg3 : Memref sig .tc .vmem S1x1024x256 .f32) (harg3 : arg3.IsWhole) (arg4 : Memref sig .tc .vmem S256x256 .bf16) (harg4 : arg4.IsWhole) (arg5 : Memref sig .tc .vmem S256 .f32) (harg5 : arg5.IsWhole) (arg6 : Memref sig .tc .vmem S256x256 .bf16) (harg6 : arg6.IsWhole) (arg7 : Memref sig .tc .vmem S256 .f32) (harg7 : arg7.IsWhole) (arg8 : Memref sig .tc .vmem S256x256 .bf16) (harg8 : arg8.IsWhole) (arg9 : Memref sig .tc .vmem S256 .f32) (harg9 : arg9.IsWhole) (arg10 : Memref sig .tc .vmem S1x1024x256 .f32) (harg10 : arg10.IsWhole) (arg11 : Memref sig .tc .vmem S4096x256 .bf16) (harg11 : arg11.IsWhole) (arg12 : Memref sig .tc .vmem S4096x256 .bf16) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x256 .f32) (harg15 : arg15.IsWhole) (hc0 : ¬cond0_0 i)
    (x0 : Vec F S1x4096x256 .f32) (x1 : Vec F S1x1024x256 .f32) (x2 : Vec F S256x256 .bf16) (x3 : Vec F S256 .f32) (x4 : Vec F S256x256 .bf16) (x5 : Vec F S256 .f32) (x6 : Vec F S256x256 .bf16) (x7 : Vec F S256 .f32) (xs0 xs1 : Vec F S4096x256 .bf16) :
    { L8 : List (View.Piece (Elt F) S1x1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xs0 ∗ owns (c : Thread nD τ) arg12 fullShare xs1 ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ owns (c : Thread nD τ) arg11 fullShare xs0 ∗ owns (c : Thread nD τ) arg12 fullShare xs1 ∗ (∃ d, owns (c : Thread nD τ) arg13 fullShare d) ∗ (∃ d, owns (c : Thread nD τ) arg14 fullShare d) ∗ (∃ d, owns (c : Thread nD τ) arg15 fullShare d)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, %hf8, H8⟩, ⟨%fs0, %hfs0, HS0⟩, ⟨%fs1, %hfs1, HS1⟩, ⟨%d2, %fs2, %hfs2, HS2⟩, ⟨%d3, %fs3, %hfs3, HS3⟩, ⟨%d4, %fs4, %hfs4, HS4⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6; obtain rfl := harg9.eq_unread hf7
    obtain rfl := harg11.eq_unread hfs0; obtain rfl := harg12.eq_unread hfs1
    sl_exec (disch := exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; iexact H8
    isplitl [HS0]
    · iexists _; isplitr; · ipureintro; exact harg11.read_unread _
      iexact HS0
    isplitl [HS1]
    · iexists _; isplitr; · ipureintro; exact harg12.read_unread _
      iexact HS1
    isplitl [HS2]
    · iexists _; iexists _; isplitr
      swap; · iexact HS2
      ipureintro; rfl
    isplitl [HS3]
    · iexists _; iexists _; isplitr
      swap; · iexact HS3
      ipureintro; rfl
    iexists _; iexists _; isplitr
    swap; · iexact HS4
    ipureintro; rfl

end Cert.Kernel.Hand

end
-- ==== Proof.KB.RunA.lean ====
/-
  The body at a batch's first query tile: it first projects the whole batch's keys and values (the batch's 4096 rows
  of the input times the transposed key and value weights, plus the biases) into the two scratch buffers, whatever
  they held, and then does what it does at every point: projects its own query tile, resets the running maximum,
  denominator and accumulator, streams the four key/value tiles through the online-softmax recurrence and stores
  accumulator / denominator into the output's staging buffer. Holding every input's staging buffer at its contents
  and the rest at anything, it runs to the end without a fault, leaves the inputs as they were, and leaves the
  output's buffer and the key and value scratch with the pieces its stores wrote.
-/
import proofs.«119718_j75144747811056_2_alg».proof.Proof.KB.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
noncomputable def kernelRun0_A (c : Dev nD) (i : grid0.Coords) (arg2 : Memref sig .tc .vmem S1x4096x256 .f32) (harg2 : arg2.IsWhole) (arg3 : Memref sig .tc .vmem S1x1024x256 .f32) (harg3 : arg3.IsWhole) (arg4 : Memref sig .tc .vmem S256x256 .bf16) (harg4 : arg4.IsWhole) (arg5 : Memref sig .tc .vmem S256 .f32) (harg5 : arg5.IsWhole) (arg6 : Memref sig .tc .vmem S256x256 .bf16) (harg6 : arg6.IsWhole) (arg7 : Memref sig .tc .vmem S256 .f32) (harg7 : arg7.IsWhole) (arg8 : Memref sig .tc .vmem S256x256 .bf16) (harg8 : arg8.IsWhole) (arg9 : Memref sig .tc .vmem S256 .f32) (harg9 : arg9.IsWhole) (arg10 : Memref sig .tc .vmem S1x1024x256 .f32) (harg10 : arg10.IsWhole) (arg11 : Memref sig .tc .vmem S4096x256 .bf16) (harg11 : arg11.IsWhole) (arg12 : Memref sig .tc .vmem S4096x256 .bf16) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x256 .f32) (harg15 : arg15.IsWhole) (hc0 : cond0_0 i)
    (x0 : Vec F S1x4096x256 .f32) (x1 : Vec F S1x1024x256 .f32) (x2 : Vec F S256x256 .bf16) (x3 : Vec F S256 .f32) (x4 : Vec F S256x256 .bf16) (x5 : Vec F S256 .f32) (x6 : Vec F S256x256 .bf16) (x7 : Vec F S256 .f32) :
    Σ' (L8 : List (View.Piece (Elt F) S1x1024x256 .f32)) (LS0 : List (View.Piece (Elt F) S4096x256 .bf16)), { LS1 : List (View.Piece (Elt F) S4096x256 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ d, owns (c : Thread nD τ) arg13 fullShare d) ∗ (∃ d, owns (c : Thread nD τ) arg14 fullShare d) ∗ (∃ d, owns (c : Thread nD τ) arg15 fullShare d)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, %hf8, H8⟩, ⟨%d0, %fs0, %hfs0, HS0⟩, ⟨%d1, %fs1, %hfs1, HS1⟩, ⟨%d2, %fs2, %hfs2, HS2⟩, ⟨%d3, %fs3, %hfs3, HS3⟩, ⟨%d4, %fs4, %hfs4, HS4⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6; obtain rfl := harg9.eq_unread hf7
    sl_exec (disch := exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; iexact H8
    isplitl [HS0]
    · iexists _; iexact HS0
    isplitl [HS1]
    · iexists _; iexact HS1
    isplitl [HS2]
    · iexists _; iexists _; isplitr
      swap; · iexact HS2
      ipureintro; rfl
    isplitl [HS3]
    · iexists _; iexists _; isplitr
      swap; · iexact HS3
      ipureintro; rfl
    iexists _; iexists _; isplitr
    swap; · iexact HS4
    ipureintro; rfl

end Cert.Kernel.Hand

end
-- ==== Proof.KB.Frame.lean ====
/-
  The frame of the attention kernel, with what it leaves named: what each of the body's two cases leaves in the
  output's staging buffer and in the key and value scratch; what they hold after every grid point (the keys and
  values projected at a batch's first point are carried, untouched, through the batch's other three points); the
  pipeline's proof data — the input array is handed to two windows (the batch's whole block, and the query tile), so
  each holds half of it —; the body obligation at every point; and the run: every weakly fair execution of @main
  terminates without a fault, every array of the pipeline ends at what the proof data compute, every other buffer as
  the region found it. The seven arguments end unchanged.
-/
import proofs.«119718_j75144747811056_2_alg».proof.Proof.KB.RunA
import Idealize.ShloMosaic.Lib.Pipeline.Launch

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- One staging buffer of the output window, and the two carried scratch buffers, as views: contents are stated through them. -/
abbrev VO0_8 : View sig .tc .vmem S1x1024x256 .f32 := (Memref.whole cc0_stg8_0 : Memref sig .tc .vmem S1x1024x256 .f32).view
abbrev VS0_0 : View sig .tc .vmem S4096x256 .bf16 := scM0_0.view
abbrev VS0_1 : View sig .tc .vmem S4096x256 .bf16 := scM0_1.view

theorem cover0_A_8 (c : Dev nD) (i : grid0.Coords) (arg2 : Memref sig .tc .vmem S1x4096x256 .f32) (harg2 : arg2.IsWhole) (arg3 : Memref sig .tc .vmem S1x1024x256 .f32) (harg3 : arg3.IsWhole) (arg4 : Memref sig .tc .vmem S256x256 .bf16) (harg4 : arg4.IsWhole) (arg5 : Memref sig .tc .vmem S256 .f32) (harg5 : arg5.IsWhole) (arg6 : Memref sig .tc .vmem S256x256 .bf16) (harg6 : arg6.IsWhole) (arg7 : Memref sig .tc .vmem S256 .f32) (harg7 : arg7.IsWhole) (arg8 : Memref sig .tc .vmem S256x256 .bf16) (harg8 : arg8.IsWhole) (arg9 : Memref sig .tc .vmem S256 .f32) (harg9 : arg9.IsWhole) (arg10 : Memref sig .tc .vmem S1x1024x256 .f32) (harg10 : arg10.IsWhole) (arg11 : Memref sig .tc .vmem S4096x256 .bf16) (harg11 : arg11.IsWhole) (arg12 : Memref sig .tc .vmem S4096x256 .bf16) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x256 .f32) (harg15 : arg15.IsWhole) (hc0 : cond0_0 i) (x0 : Vec F S1x4096x256 .f32) (x1 : Vec F S1x1024x256 .f32) (x2 : Vec F S256x256 .bf16) (x3 : Vec F S256 .f32) (x4 : Vec F S256x256 .bf16) (x5 : Vec F S256 .f32) (x6 : Vec F S256x256 .bf16) (x7 : Vec F S256 .f32) (y : S1x1024x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).1 S1x1024x256.size (by sl_kernel_rfl) y
theorem scover0_A_0 (c : Dev nD) (i : grid0.Coords) (arg2 : Memref sig .tc .vmem S1x4096x256 .f32) (harg2 : arg2.IsWhole) (arg3 : Memref sig .tc .vmem S1x1024x256 .f32) (harg3 : arg3.IsWhole) (arg4 : Memref sig .tc .vmem S256x256 .bf16) (harg4 : arg4.IsWhole) (arg5 : Memref sig .tc .vmem S256 .f32) (harg5 : arg5.IsWhole) (arg6 : Memref sig .tc .vmem S256x256 .bf16) (harg6 : arg6.IsWhole) (arg7 : Memref sig .tc .vmem S256 .f32) (harg7 : arg7.IsWhole) (arg8 : Memref sig .tc .vmem S256x256 .bf16) (harg8 : arg8.IsWhole) (arg9 : Memref sig .tc .vmem S256 .f32) (harg9 : arg9.IsWhole) (arg10 : Memref sig .tc .vmem S1x1024x256 .f32) (harg10 : arg10.IsWhole) (arg11 : Memref sig .tc .vmem S4096x256 .bf16) (harg11 : arg11.IsWhole) (arg12 : Memref sig .tc .vmem S4096x256 .bf16) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x256 .f32) (harg15 : arg15.IsWhole) (hc0 : cond0_0 i) (x0 : Vec F S1x4096x256 .f32) (x1 : Vec F S1x1024x256 .f32) (x2 : Vec F S256x256 .bf16) (x3 : Vec F S256 .f32) (x4 : Vec F S256x256 .bf16) (x5 : Vec F S256 .f32) (x6 : Vec F S256x256 .bf16) (x7 : Vec F S256 .f32) (y : S4096x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.1 S4096x256.size (by sl_kernel_rfl) y
theorem scover0_A_1 (c : Dev nD) (i : grid0.Coords) (arg2 : Memref sig .tc .vmem S1x4096x256 .f32) (harg2 : arg2.IsWhole) (arg3 : Memref sig .tc .vmem S1x1024x256 .f32) (harg3 : arg3.IsWhole) (arg4 : Memref sig .tc .vmem S256x256 .bf16) (harg4 : arg4.IsWhole) (arg5 : Memref sig .tc .vmem S256 .f32) (harg5 : arg5.IsWhole) (arg6 : Memref sig .tc .vmem S256x256 .bf16) (harg6 : arg6.IsWhole) (arg7 : Memref sig .tc .vmem S256 .f32) (harg7 : arg7.IsWhole) (arg8 : Memref sig .tc .vmem S256x256 .bf16) (harg8 : arg8.IsWhole) (arg9 : Memref sig .tc .vmem S256 .f32) (harg9 : arg9.IsWhole) (arg10 : Memref sig .tc .vmem S1x1024x256 .f32) (harg10 : arg10.IsWhole) (arg11 : Memref sig .tc .vmem S4096x256 .bf16) (harg11 : arg11.IsWhole) (arg12 : Memref sig .tc .vmem S4096x256 .bf16) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x256 .f32) (harg15 : arg15.IsWhole) (hc0 : cond0_0 i) (x0 : Vec F S1x4096x256 .f32) (x1 : Vec F S1x1024x256 .f32) (x2 : Vec F S256x256 .bf16) (x3 : Vec F S256 .f32) (x4 : Vec F S256x256 .bf16) (x5 : Vec F S256 .f32) (x6 : Vec F S256x256 .bf16) (x7 : Vec F S256 .f32) (y : S4096x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.1 S4096x256.size (by sl_kernel_rfl) y
theorem cover0_B_8 (c : Dev nD) (i : grid0.Coords) (arg2 : Memref sig .tc .vmem S1x4096x256 .f32) (harg2 : arg2.IsWhole) (arg3 : Memref sig .tc .vmem S1x1024x256 .f32) (harg3 : arg3.IsWhole) (arg4 : Memref sig .tc .vmem S256x256 .bf16) (harg4 : arg4.IsWhole) (arg5 : Memref sig .tc .vmem S256 .f32) (harg5 : arg5.IsWhole) (arg6 : Memref sig .tc .vmem S256x256 .bf16) (harg6 : arg6.IsWhole) (arg7 : Memref sig .tc .vmem S256 .f32) (harg7 : arg7.IsWhole) (arg8 : Memref sig .tc .vmem S256x256 .bf16) (harg8 : arg8.IsWhole) (arg9 : Memref sig .tc .vmem S256 .f32) (harg9 : arg9.IsWhole) (arg10 : Memref sig .tc .vmem S1x1024x256 .f32) (harg10 : arg10.IsWhole) (arg11 : Memref sig .tc .vmem S4096x256 .bf16) (harg11 : arg11.IsWhole) (arg12 : Memref sig .tc .vmem S4096x256 .bf16) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x256 .f32) (harg15 : arg15.IsWhole) (hc0 : ¬cond0_0 i) (x0 : Vec F S1x4096x256 .f32) (x1 : Vec F S1x1024x256 .f32) (x2 : Vec F S256x256 .bf16) (x3 : Vec F S256 .f32) (x4 : Vec F S256x256 .bf16) (x5 : Vec F S256 .f32) (x6 : Vec F S256x256 .bf16) (x7 : Vec F S256 .f32) (xs0 xs1 : Vec F S4096x256 .bf16) (y : S1x1024x256.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 xs1).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 xs1).1 S1x1024x256.size (by sl_kernel_rfl) y

/-- What the first-tile case leaves in the output's staging buffer, and in the key and value scratch. -/
def out0_A_8 (c : Dev nD) (i : grid0.Coords) (arg2 : Memref sig .tc .vmem S1x4096x256 .f32) (harg2 : arg2.IsWhole) (arg3 : Memref sig .tc .vmem S1x1024x256 .f32) (harg3 : arg3.IsWhole) (arg4 : Memref sig .tc .vmem S256x256 .bf16) (harg4 : arg4.IsWhole) (arg5 : Memref sig .tc .vmem S256 .f32) (harg5 : arg5.IsWhole) (arg6 : Memref sig .tc .vmem S256x256 .bf16) (harg6 : arg6.IsWhole) (arg7 : Memref sig .tc .vmem S256 .f32) (harg7 : arg7.IsWhole) (arg8 : Memref sig .tc .vmem S256x256 .bf16) (harg8 : arg8.IsWhole) (arg9 : Memref sig .tc .vmem S256 .f32) (harg9 : arg9.IsWhole) (arg10 : Memref sig .tc .vmem S1x1024x256 .f32) (harg10 : arg10.IsWhole) (arg11 : Memref sig .tc .vmem S4096x256 .bf16) (harg11 : arg11.IsWhole) (arg12 : Memref sig .tc .vmem S4096x256 .bf16) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x256 .f32) (harg15 : arg15.IsWhole) (hc0 : cond0_0 i) (x0 : Vec F S1x4096x256 .f32) (x1 : Vec F S1x1024x256 .f32) (x2 : Vec F S256x256 .bf16) (x3 : Vec F S256 .f32) (x4 : Vec F S256x256 .bf16) (x5 : Vec F S256 .f32) (x6 : Vec F S256x256 .bf16) (x7 : Vec F S256 .f32) : Vec F S1x1024x256 .f32 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).1)
def sout0_A_0 (c : Dev nD) (i : grid0.Coords) (arg2 : Memref sig .tc .vmem S1x4096x256 .f32) (harg2 : arg2.IsWhole) (arg3 : Memref sig .tc .vmem S1x1024x256 .f32) (harg3 : arg3.IsWhole) (arg4 : Memref sig .tc .vmem S256x256 .bf16) (harg4 : arg4.IsWhole) (arg5 : Memref sig .tc .vmem S256 .f32) (harg5 : arg5.IsWhole) (arg6 : Memref sig .tc .vmem S256x256 .bf16) (harg6 : arg6.IsWhole) (arg7 : Memref sig .tc .vmem S256 .f32) (harg7 : arg7.IsWhole) (arg8 : Memref sig .tc .vmem S256x256 .bf16) (harg8 : arg8.IsWhole) (arg9 : Memref sig .tc .vmem S256 .f32) (harg9 : arg9.IsWhole) (arg10 : Memref sig .tc .vmem S1x1024x256 .f32) (harg10 : arg10.IsWhole) (arg11 : Memref sig .tc .vmem S4096x256 .bf16) (harg11 : arg11.IsWhole) (arg12 : Memref sig .tc .vmem S4096x256 .bf16) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x256 .f32) (harg15 : arg15.IsWhole) (hc0 : cond0_0 i) (x0 : Vec F S1x4096x256 .f32) (x1 : Vec F S1x1024x256 .f32) (x2 : Vec F S256x256 .bf16) (x3 : Vec F S256 .f32) (x4 : Vec F S256x256 .bf16) (x5 : Vec F S256 .f32) (x6 : Vec F S256x256 .bf16) (x7 : Vec F S256 .f32) : Vec F S4096x256 .bf16 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.1)
def sout0_A_1 (c : Dev nD) (i : grid0.Coords) (arg2 : Memref sig .tc .vmem S1x4096x256 .f32) (harg2 : arg2.IsWhole) (arg3 : Memref sig .tc .vmem S1x1024x256 .f32) (harg3 : arg3.IsWhole) (arg4 : Memref sig .tc .vmem S256x256 .bf16) (harg4 : arg4.IsWhole) (arg5 : Memref sig .tc .vmem S256 .f32) (harg5 : arg5.IsWhole) (arg6 : Memref sig .tc .vmem S256x256 .bf16) (harg6 : arg6.IsWhole) (arg7 : Memref sig .tc .vmem S256 .f32) (harg7 : arg7.IsWhole) (arg8 : Memref sig .tc .vmem S256x256 .bf16) (harg8 : arg8.IsWhole) (arg9 : Memref sig .tc .vmem S256 .f32) (harg9 : arg9.IsWhole) (arg10 : Memref sig .tc .vmem S1x1024x256 .f32) (harg10 : arg10.IsWhole) (arg11 : Memref sig .tc .vmem S4096x256 .bf16) (harg11 : arg11.IsWhole) (arg12 : Memref sig .tc .vmem S4096x256 .bf16) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x256 .f32) (harg15 : arg15.IsWhole) (hc0 : cond0_0 i) (x0 : Vec F S1x4096x256 .f32) (x1 : Vec F S1x1024x256 .f32) (x2 : Vec F S256x256 .bf16) (x3 : Vec F S256 .f32) (x4 : Vec F S256x256 .bf16) (x5 : Vec F S256 .f32) (x6 : Vec F S256x256 .bf16) (x7 : Vec F S256 .f32) : Vec F S4096x256 .bf16 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.1)
/-- What a later tile's case leaves in the output's staging buffer, given the carried keys and values. -/
def out0_B_8 (c : Dev nD) (i : grid0.Coords) (arg2 : Memref sig .tc .vmem S1x4096x256 .f32) (harg2 : arg2.IsWhole) (arg3 : Memref sig .tc .vmem S1x1024x256 .f32) (harg3 : arg3.IsWhole) (arg4 : Memref sig .tc .vmem S256x256 .bf16) (harg4 : arg4.IsWhole) (arg5 : Memref sig .tc .vmem S256 .f32) (harg5 : arg5.IsWhole) (arg6 : Memref sig .tc .vmem S256x256 .bf16) (harg6 : arg6.IsWhole) (arg7 : Memref sig .tc .vmem S256 .f32) (harg7 : arg7.IsWhole) (arg8 : Memref sig .tc .vmem S256x256 .bf16) (harg8 : arg8.IsWhole) (arg9 : Memref sig .tc .vmem S256 .f32) (harg9 : arg9.IsWhole) (arg10 : Memref sig .tc .vmem S1x1024x256 .f32) (harg10 : arg10.IsWhole) (arg11 : Memref sig .tc .vmem S4096x256 .bf16) (harg11 : arg11.IsWhole) (arg12 : Memref sig .tc .vmem S4096x256 .bf16) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x256 .f32) (harg15 : arg15.IsWhole) (hc0 : ¬cond0_0 i) (x0 : Vec F S1x4096x256 .f32) (x1 : Vec F S1x1024x256 .f32) (x2 : Vec F S256x256 .bf16) (x3 : Vec F S256 .f32) (x4 : Vec F S256x256 .bf16) (x5 : Vec F S256 .f32) (x6 : Vec F S256x256 .bf16) (x7 : Vec F S256 .f32) (xs0 xs1 : Vec F S4096x256 .bf16) : Vec F S1x1024x256 .f32 :=
  VO0_8.read (Elt F) (VO0_8.writes (Elt F) VO0_8.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 xs1).1)

/-! ## What the output's buffer and the carried scratch hold after each point -/

/-- After the body at position `n`: the output's staging buffer, the key scratch, the value scratch. At a batch's
    first point all three are what the first-tile case leaves; at the other points the output is the later-tile
    case's over the keys and values the point before left, which stay. -/
def outsAt0 (c : Dev nD) : (n : ℕ) → n < cfg0.N → Vec F S1x1024x256 .f32 × Vec F S4096x256 .bf16 × Vec F S4096x256 .bf16
  | 0, hn => (out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩),
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩),
      sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩))
  | n + 1, hn =>
    if h0 : (n + 1) % 4 = 0 then
      (out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩),
       sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩),
       sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩))
    else
      (out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.1 (outsAt0 c n (Nat.lt_of_succ_lt hn)).2.2,
       (outsAt0 c n (Nat.lt_of_succ_lt hn)).2.1, (outsAt0 c n (Nat.lt_of_succ_lt hn)).2.2)

theorem outsAt0_A (c : Dev nD) (t : Fin cfg0.N) (h0 : t.val % 4 = 0) :
    outsAt0 m c t.val t.isLt = (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t),
      sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t),
      sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t)) := by
  obtain ⟨n, hn⟩ := t
  cases n with
  | zero => exact rfl
  | succ n => exact (dif_pos h0).trans rfl

theorem outsAt0_B (c : Dev nD) (t : Fin cfg0.N) (h0 : ¬t.val % 4 = 0) :
    outsAt0 m c t.val t.isLt = (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2,
      (outsAt0 m c (t.val - 1) (Nat.lt_of_le_of_lt (Nat.sub_le _ _) t.isLt)).2.1, (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-- The scratch buffers before position `n`: before the first point anything; afterwards the keys and values at what
    the point before left, the running maximum, denominator and accumulator at anything. -/
def PhiS (c : Dev nD) : (n : ℕ) → n ≤ cfg0.N → sProp 𝕄
  | 0, _ => Pipeline.scopedRest spec0 c
  | n + 1, hn => iprop(owns (c : Thread nD τ) scM0_0 fullShare ((outsAt0 m c n hn).2.1) ∗ owns (c : Thread nD τ) scM0_1 fullShare ((outsAt0 m c n hn).2.2) ∗ (∃ d, owns (c : Thread nD τ) scM0_2 fullShare d) ∗ (∃ d, owns (c : Thread nD τ) scM0_3 fullShare d) ∗ (∃ d, owns (c : Thread nD τ) scM0_4 fullShare d))

theorem scopedRest0_owns (c : Dev nD) :
    (Pipeline.scopedRest spec0 c : sProp 𝕄)
      = iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) := by
  rw [scopedRest0_eq]; simp only [scM0_0, scM0_1, scM0_2, scM0_3, scM0_4, owns_whole]; try rfl

theorem PhiS_zero (c : Dev nD) (n : ℕ) (h : n ≤ cfg0.N) (hz : n = 0) : PhiS m c n h = Pipeline.scopedRest spec0 c := by
  subst hz; rfl
theorem PhiS_succ (c : Dev nD) (n : ℕ) (hn : n < cfg0.N) :
    PhiS m c (n + 1) hn = iprop(owns (c : Thread nD τ) scM0_0 fullShare ((outsAt0 m c n hn).2.1) ∗ owns (c : Thread nD τ) scM0_1 fullShare ((outsAt0 m c n hn).2.2) ∗ (∃ d, owns (c : Thread nD τ) scM0_2 fullShare d) ∗ (∃ d, owns (c : Thread nD τ) scM0_3 fullShare d) ∗ (∃ d, owns (c : Thread nD τ) scM0_4 fullShare d)) := rfl
theorem PhiS_pos (c : Dev nD) (n : ℕ) (h : n ≤ cfg0.N) (hz : n ≠ 0) :
    PhiS m c n h = iprop(owns (c : Thread nD τ) scM0_0 fullShare ((outsAt0 m c (n - 1) (by omega)).2.1) ∗ owns (c : Thread nD τ) scM0_1 fullShare ((outsAt0 m c (n - 1) (by omega)).2.2) ∗ (∃ d, owns (c : Thread nD τ) scM0_2 fullShare d) ∗ (∃ d, owns (c : Thread nD τ) scM0_3 fullShare d) ∗ (∃ d, owns (c : Thread nD τ) scM0_4 fullShare d)) := by
  cases n with
  | zero => exact absurd rfl hz
  | succ n => rfl

/-! ## The pipeline's proof data -/

/-- The arrays as the region finds them; after the body each input's buffer at its block and the output's at
    `outsAt0`; the invariant the scratch buffers (`PhiS`); nothing owed; the input array, which windows 0 and 1 both
    read, held half by each, every other input array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt).1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t.val t.isLt).1 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from rfl, after0_0]
  rw [show (dats m 0 c).leavesExact 1 t = owns (c : Thread nD τ) (ms0_1 t) fullShare ((dats m 0 c).after 1 t) from rfl, after0_1]
  rw [show (dats m 0 c).leavesExact 2 t = owns (c : Thread nD τ) (ms0_2 t) fullShare ((dats m 0 c).after 2 t) from rfl, after0_2]
  rw [show (dats m 0 c).leavesExact 3 t = owns (c : Thread nD τ) (ms0_3 t) fullShare ((dats m 0 c).after 3 t) from rfl, after0_3]
  rw [show (dats m 0 c).leavesExact 4 t = owns (c : Thread nD τ) (ms0_4 t) fullShare ((dats m 0 c).after 4 t) from rfl, after0_4]
  rw [show (dats m 0 c).leavesExact 5 t = owns (c : Thread nD τ) (ms0_5 t) fullShare ((dats m 0 c).after 5 t) from rfl, after0_5]
  rw [show (dats m 0 c).leavesExact 6 t = owns (c : Thread nD τ) (ms0_6 t) fullShare ((dats m 0 c).after 6 t) from rfl, after0_6]
  rw [show (dats m 0 c).leavesExact 7 t = owns (c : Thread nD τ) (ms0_7 t) fullShare ((dats m 0 c).after 7 t) from rfl, after0_7]
  rw [show (dats m 0 c).leavesExact 8 t = owns (c : Thread nD τ) (ms0_8 t) fullShare ((dats m 0 c).after 8 t) from rfl, after0_8]
  by_cases h0 : t.val % 4 = 0
  · rw [outsAt0_A m c t h0]
    unfold out0_A_8 sout0_A_0 sout0_A_1; (try dsimp only)
    have hpre : (dats m 0 c).Φ t.castSucc ⊢ (iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) : sProp 𝕄) := by
      rw [PhiS_castSucc m c t]
      by_cases hz : t.val = 0
      · rw [PhiS_zero m c _ _ hz, scopedRest0_owns]
      · rw [PhiS_pos m c _ _ hz]
        iintro ⟨HS0, HS1, HS2, HS3, HS4⟩
        isplitl [HS0]; · iexists _; iexact HS0
        isplitl [HS1]; · iexists _; iexact HS1
        isplitl [HS2]; · iexact HS2
        isplitl [HS3]; · iexact HS3
        iexact HS4
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    ihave HΦ' := hpre $$ HΦ
    icases HΦ' with ⟨HS0, HS1, HS2, HS3, HS4⟩
    iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, H7, ⟨%e8, H8⟩, ⟨%es0, HS0⟩, ⟨%es1, HS1⟩, HS2, HS3, HS4⟩
    isplitl [HS0 HS1 HS2 HS3 HS4]
    · isplitl [HS0]
      · unfold owns; iexists _; isplitr
        swap; · iexact HS0
        ipureintro; exact View.read_writes_of_cover _ _ _ _ _ (scover0_A_0 c _ _ _ _ _ _ _ _ _ _ _ _ _ _ _ _ _ _ _ _ _ _ _ _ _ _ _ _ _ _ _ _ _ _ _ _ _ _ )
      isplitl [HS1]
      · unfold owns; iexists _; isplitr
        swap; · iexact HS1
        ipureintro; exact View.read_writes_of_cover _ _ _ _ _ (scover0_A_1 c _ _ _ _ _ _ _ _ _ _ _ _ _ _ _ _ _ _ _ _ _ _ _ _ _ _ _ _ _ _ _ _ _ _ _ _ _ _ )
      isplitl [HS2]; · iexact HS2
      isplitl [HS3]; · iexact HS3
      iexact HS4
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    unfold owns; iexists _; isplitr
    swap; · iexact H8
    ipureintro; exact View.read_writes_of_cover _ _ _ _ _ (cover0_A_8 c _ _ _ _ _ _ _ _ _ _ _ _ _ _ _ _ _ _ _ _ _ _ _ _ _ _ _ _ _ _ _ _ _ _ _ _ _ _ )
  · rw [outsAt0_B m c t h0]
    unfold out0_B_8; (try dsimp only)
    have hz : t.val ≠ 0 := fun e => h0 (by rw [e])
    rw [PhiS_castSucc m c t, PhiS_pos m c _ _ hz]
    iintro ⟨⟨HS0, HS1, HS2, HS3, HS4⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) _ _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, H7, ⟨%e8, H8⟩, HS0, HS1, HS2, HS3, HS4⟩
    isplitl [HS0 HS1 HS2 HS3 HS4]
    · isplitl [HS0]; · iexact HS0
      isplitl [HS1]; · iexact HS1
      isplitl [HS2]; · iexact HS2
      isplitl [HS3]; · iexact HS3
      iexact HS4
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    unfold owns; iexists _; isplitr
    swap; · iexact H8
    ipureintro; exact View.read_writes_of_cover _ _ _ _ _ (cover0_B_8 c _ _ _ _ _ _ _ _ _ _ _ _ _ _ _ _ _ _ _ _ _ _ _ _ _ _ _ _ _ _ _ _ _ _ _ _ _ _ _ _ )

theorem body_obligation (c : Dev nD) : BodyObligation (dats (F := F) m 0 c) (defs₀ (F := F)) Variants.none () Set.univ := fun t => by
  rw [bigSep_W0, bigSep_W0]
  exact sound_body m c t

/-! ## The launch -/

/-- What the launch hands the region of the scoped buffers is the invariant before the first point. -/
theorem hin (c : Dev nD) : iprop((BI.emp : sProp 𝕄) ∗ Pipeline.scopedRest spec0 c) ⊢ (dats m 0 c).Φ 0 := by
  rw [show (dats m 0 c).Φ 0 = PhiS m c 0 (Nat.zero_le _) from rfl, PhiS_zero m c 0 _ rfl]
  iintro ⟨-, H⟩; iexact H

/-- After the last point the invariant gives the scoped buffers back, the keys' and values' contents forgotten. -/
theorem hout (c : Dev nD) : (dats m 0 c).Φ (Fin.last cfg0.N) ⊢ iprop((BI.emp : sProp 𝕄) ∗ Pipeline.scopedRest spec0 c) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 16 := N_0; omega), scopedRest0_owns]
  iintro ⟨HS0, HS1, HS2, HS3, HS4⟩
  isplitr; · iempintro
  isplitl [HS0]; · iexists _; iexact HS0
  isplitl [HS1]; · iexists _; iexact HS1
  isplitl [HS2]; · iexact HS2
  isplitl [HS3]; · iexact HS3
  iexact HS4

/-- The pipeline's arrays over the buffers' own locations: every window's array is a whole buffer. -/
theorem arrays_eq' (c : Dev nD) (Fa : (w : Fin cfg0.W) → Buf (Elt F) ((cfg0.win w).arr.view.loc (c.tc : Thread nD τ))) :
    (dats m 0 c).arrays Fa = bigSep Finset.univ fun w => (((c.tc : Thread nD τ).loc (Pipeline.arrRef spec0 w)) ↦{(dats m 0 c).share w} Fa w : sProp 𝕄) := by
  unfold Dat.arrays
  exact bigSep_congr fun w _ => by rw [(arr_whole0 w).set_eq_univ]

/-- The distinct buffers behind the nine windows' arrays, conjoined one by one. -/
theorem bigSep_arrs {M : Type} [URA M] (Φ : Ref sig .tc → sProp M) :
    bigSep (Finset.univ.image (Pipeline.arrRef spec0)) Φ
      = iprop(Φ main_arg0 ∗ Φ main_v1 ∗ Φ main_arg2 ∗ Φ main_v3 ∗ Φ main_arg4 ∗ Φ main_v5 ∗ Φ main_arg6 ∗ Φ main_v6) :=
  bigSep_eq_bigSepL_of_eq [main_arg0, main_v1, main_arg2, main_v3, main_arg4, main_v5, main_arg6, main_v6] (by decide) (by decide) Φ

/-- The buffers behind the windows' arrays, each whole, dealt to the windows: the input array's two readers take
    half of it each, every other array goes whole to its one window. -/
theorem hsplit (c : Dev nD) :
    (Pipeline.arrBufs spec0 c (V m c) : sProp 𝕄) ⊢ (dats m 0 c).arrays ((dats m 0 c).arrAt · 0) := by
  rw [arrays_eq']
  unfold Pipeline.arrBufs
  rw [bigSep_arrs, bigSep_W0]
  iintro ⟨Hx, H2, H3, H4, H5, H6, H7, H8⟩
  ihave Hx' := (pointsTo_share (PosShare.mem_left_op_right fullShare)).1 $$ Hx
  icases Hx' with ⟨H0, H1⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

set_option backward.isDefEq.respectTransparency.types false in
/-- Every weakly fair execution of @main terminates without a fault; every array of the pipeline ends at what the proof
    data compute, every other unscoped buffer as the region found it. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj))
    (hu₀ := BI.Entails.refl _)
    (V := V m) (hmain := hmain m Variants.none) (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr; · iempintro
      iexact H)
    (hin := hin m) (hout := hout m)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-- The arguments the pipeline stages end as launched: an input window's array is never written. -/
theorem arr_in (c : Dev nD) (w : Fin cfg0.W) (hw : (cfg0.win w).isOut = false) :
    (dats m 0 c).arrAt w cfg0.N = V m c (Pipeline.arrRef spec0 w) :=
  ((dats m 0 c).arrAt_in w hw _).trans (A_eq m c w)

/-- THE FRAME: the run, and the seven arguments unchanged. Four of them are arrays of input windows; the three weight
    matrices bypass the region (the kernel reads their transposed, narrowed copies). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).1 0).trans ((arr_in m c 0 rfl).trans (V_main_arg0 m c)),
     ((h c).2 main_arg1 (Pipeline.mem_restRefs_of _ rfl (by decide))).trans (V_main_arg1 m c),
     ((h c).1 3).trans ((arr_in m c 3 rfl).trans (V_main_arg2 m c)),
     ((h c).2 main_arg3 (Pipeline.mem_restRefs_of _ rfl (by decide))).trans (V_main_arg3 m c),
     ((h c).1 5).trans ((arr_in m c 5 rfl).trans (V_main_arg4 m c)),
     ((h c).2 main_arg5 (Pipeline.mem_restRefs_of _ rfl (by decide))).trans (V_main_arg5 m c),
     ((h c).1 7).trans ((arr_in m c 7 rfl).trans (V_main_arg6 m c))⟩) (run_main m ρ)

end Cert.Kernel.Hand

end
-- ==== Proof.KI.OutTerm.lean ====
/-
  The body's arithmetic as one pure term. Reading the body's memory operations in order — every load of the running
  maximum, denominator and accumulator returns what the store before it wrote — the value stored into the output's
  staging buffer is a composition of the skeleton's payloads: from the query tile's block `x1`, the query weight and
  bias, and the four 1024-row tiles of the projected keys `K0 … K3` and values `V0 … V3`:
      q = x1 · wq + bq;   (m, l, acc) starts at (−∞, 0, 0);   for each tile k:
        s = (q · Kkᵀ) · (1/16),  m' = max m (row max s),  a = exp (m − m'),  p = exp (s − m'),
        l' = a · l + row sum p,   acc' = a · acc + p · Vk,   m := m';
      out = acc / l.
  Likewise what the first-tile case stores into the key and value scratch: the batch's block of the input times the
  key (value) weight plus the bias.
-/
import proofs.«119718_j75144747811056_2_alg».proof.Proof.Gen.KernelIdeal.Skeleton

noncomputable section

namespace Cert.KernelIdeal.Hand

open Cert.KernelIdeal Cert.KernelIdeal.Gen
open Idealize.ShloMosaic Idealize.SL.Sem

variable {F : FTy → Type} [FloatOps F]

section Term

variable (x1 : Vec F S1x1024x256 .f32) (wq : Vec F S256x256 .bf16) (bq : Vec F S256 .f32)
  (K0 K1 K2 K3 V0 V1 V2 V3 : Vec F S1024x256 .bf16)

/-- The query tile. -/
def qT : FVec F S1024x256 .bf16 := k0_pay5 x1 wq bq
/-- The scale 1/16, as the f32 word the body broadcasts. -/
def scaleW : F .f32 := Scalar.ofBits .f32 0x3D800000#32
/-- The zero accumulator of the later tiles' score products. -/
def zeroAcc : FVec F S1024x1024 .f32 := constant S1024x1024 .f32 0x00000000#32

/-- Tile 0: scores, then the running maximum, denominator and accumulator after it. -/
def s0 : FVec F S1024x1024 .f32 := k0_pay9 x1 wq bq K0
def m1 : FVec F S1024x1 .f32 := k0_pay16 (s0 x1 wq bq K0) scaleW k0_pay6
def l1 : FVec F S1024x1 .f32 := k0_pay14 (s0 x1 wq bq K0) scaleW k0_pay6 k0_pay6 k0_pay7
def a1 : FVec F S1024x256 .f32 := k0_pay15 V0 (s0 x1 wq bq K0) scaleW k0_pay6 k0_pay6 k0_pay8
/-- Tile 1. -/
def m2 : FVec F S1024x1 .f32 := k0_pay24 (qT x1 wq bq) (k0_pay17 K1) zeroAcc (m1 x1 wq bq K0)
def l2 : FVec F S1024x1 .f32 := k0_pay22 (qT x1 wq bq) (k0_pay17 K1) zeroAcc (m1 x1 wq bq K0) (m1 x1 wq bq K0) (l1 x1 wq bq K0)
def a2 : FVec F S1024x256 .f32 := k0_pay23 (qT x1 wq bq) V1 (k0_pay17 K1) zeroAcc (m1 x1 wq bq K0) (m1 x1 wq bq K0) (a1 x1 wq bq K0 V0)
/-- Tile 2. -/
def m3 : FVec F S1024x1 .f32 := k0_pay31 (qT x1 wq bq) K2 (m2 x1 wq bq K0 K1)
def l3 : FVec F S1024x1 .f32 := k0_pay29 (qT x1 wq bq) K2 (m2 x1 wq bq K0 K1) (m2 x1 wq bq K0 K1) (l2 x1 wq bq K0 K1)
def a3 : FVec F S1024x256 .f32 := k0_pay30 (qT x1 wq bq) K2 V2 (m2 x1 wq bq K0 K1) (m2 x1 wq bq K0 K1) (a2 x1 wq bq K0 K1 V0 V1)
/-- Tile 3. -/
def l4 : FVec F S1024x1 .f32 := k0_pay36 (qT x1 wq bq) K3 (m3 x1 wq bq K0 K1 K2) (m3 x1 wq bq K0 K1 K2) (l3 x1 wq bq K0 K1 K2)
def a4 : FVec F S1024x256 .f32 := k0_pay37 (qT x1 wq bq) K3 V3 (m3 x1 wq bq K0 K1 K2) (m3 x1 wq bq K0 K1 K2) (a3 x1 wq bq K0 K1 K2 V0 V1 V2)

/-- What the body stores into the output's staging buffer. -/
def outTerm : FVec F S1x1024x256 .f32 :=
  k0_pay1 (a4 x1 wq bq K0 K1 K2 K3 V0 V1 V2 V3) (l4 x1 wq bq K0 K1 K2 K3)

end Term

/-- What the first-tile case stores into the key scratch and into the value scratch, from the batch's block `xf`. -/
def kTerm (xf : Vec F S1x4096x256 .f32) (wk : Vec F S256x256 .bf16) (bk : Vec F S256 .f32) : FVec F S4096x256 .bf16 := k0_pay3 xf wk bk
def vTerm (xf : Vec F S1x4096x256 .f32) (wv : Vec F S256x256 .bf16) (bv : Vec F S256 .f32) : FVec F S4096x256 .bf16 := k0_pay4 xf wv bv

end Cert.KernelIdeal.Hand

end
-- ==== Proof.KI.Tiles.lean ====
/-
  The four 1024-row tiles of a [4096, 256] scratch buffer, as the body loads them: tile `k` is rows 1024·k … 1024·k + 1023.
-/
import proofs.«119718_j75144747811056_2_alg».proof.Proof.KI.OutTerm
import Idealize.ShloMosaic.Lib.Pipeline.FrameBody

noncomputable section

namespace Cert.KernelIdeal.Hand

open Cert.KernelIdeal Cert.KernelIdeal.Gen
open Idealize.ShloMosaic Idealize.SL.Sem

variable {F : FTy → Type} [FloatOps F]

abbrev tile0 (xs : Vec F S4096x256 .bf16) : Vec F S1024x256 .bf16 := View.ld xs (Rect.unit (s := S4096x256) ![0, 0] S1024x256.size inb_S4096x256_S1024x256_0_0)
abbrev tile1 (xs : Vec F S4096x256 .bf16) : Vec F S1024x256 .bf16 := View.ld xs (Rect.unit (s := S4096x256) ![1024, 0] S1024x256.size inb_S4096x256_S1024x256_1024_0)
abbrev tile2 (xs : Vec F S4096x256 .bf16) : Vec F S1024x256 .bf16 := View.ld xs (Rect.unit (s := S4096x256) ![2048, 0] S1024x256.size inb_S4096x256_S1024x256_2048_0)
abbrev tile3 (xs : Vec F S4096x256 .bf16) : Vec F S1024x256 .bf16 := View.ld xs (Rect.unit (s := S4096x256) ![3072, 0] S1024x256.size inb_S4096x256_S1024x256_3072_0)

end Cert.KernelIdeal.Hand

end
-- ==== Proof.LibCoverStore.lean ====
/-
  A general fact about reading a buffer back after it has been overwritten whole.

  A list of stores into a buffer of shape S is kept last store first. If the last store covered the whole buffer — its
  rectangle is the unit-stride rectangle of S's own sizes at zero offsets — then a load through that same rectangle reads
  exactly what that store wrote, whatever the earlier stores were: none of them shows through.
  (The library states this for a list of ONE store; an accumulator that is overwritten again and again needs it with
  earlier stores still in the list.)
-/
import Idealize.ShloMosaic.Lib.Pipeline.Value

noncomputable section

namespace Idealize.ShloMosaic.View

variable {Val : EltTy → Type} {S : Shape} {e : EltTy}

/-- A load through the whole-shape rectangle, after a list of stores whose LAST one went through that rectangle, reads that
    store's payload `w`; the earlier stores `L` are all overwritten. -/
theorem readCov_cons_unit_zero [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (Piece Val S e)) :
    v.readCov ((⟨Rect.unit off S.size inb, w⟩ : Piece Val S e) :: L) (Rect.unit off S.size inb).toLoadRect = w := by
  subst h
  rw [readCov_eq_canon_ld _ _ _ (fun y => ⟨_, List.mem_cons_self, mem_set_unit_zero rfl inb y⟩),
    canon_cons_unit_zero rfl, ld_unit_zero rfl]

end Idealize.ShloMosaic.View

end
-- ==== Proof.KI.Pieces.lean ====
/-
  The pieces each case's run found, read back as the body's pure terms: what a later tile's case leaves in the output's
  staging buffer is the attention term of the point's query block and of the four tiles of the carried keys and
  values; what the first-tile case leaves in the key and value scratch is the projection of the batch's block, and in
  the output's buffer the same attention term over the tiles of those projections.
-/
import proofs.«119718_j75144747811056_2_alg».proof.Proof.KI.Frame
import proofs.«119718_j75144747811056_2_alg».proof.Proof.KI.Tiles
import proofs.«119718_j75144747811056_2_alg».proof.Proof.LibCoverStore
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- After ONE store through the whole-shape rectangle, a load through ANY rectangle reads that store's payload at the
    rectangle's indices: the key and value tiles loaded right after the scratch was filled. -/
theorem readCov_whole_sub {Val : EltTy → Type} [∀ e, Nonempty (Val e)] {S : Shape} {e : EltTy} {sig' : RefSig} {κ : Kind} {sp : Space}
    (v : View sig' κ sp S e) {off : Fin S.rank → Nat} (h : off = fun _ => 0) (inb : ∀ a, off a + S.size a ≤ S.size a)
    (w : S.Idx → Val e) (r : Rect S) :
    v.readCov [(⟨Rect.unit off S.size inb, w⟩ : View.Piece Val S e)] r = View.ld w r := by
  subst h
  rw [View.readCov_eq_canon_ld _ _ _ (fun y => ⟨_, List.mem_singleton_self _, View.mem_set_unit_zero rfl inb y⟩), View.canon_unit_zero rfl]

set_option maxHeartbeats 4000000 in
theorem out0_B_8_eq (c : Dev nD) (i : grid0.Coords) (arg2 : Memref sig .tc .vmem S1x4096x256 .f32) (harg2 : arg2.IsWhole) (arg3 : Memref sig .tc .vmem S1x1024x256 .f32) (harg3 : arg3.IsWhole) (arg4 : Memref sig .tc .vmem S256x256 .bf16) (harg4 : arg4.IsWhole) (arg5 : Memref sig .tc .vmem S256 .f32) (harg5 : arg5.IsWhole) (arg6 : Memref sig .tc .vmem S256x256 .bf16) (harg6 : arg6.IsWhole) (arg7 : Memref sig .tc .vmem S256 .f32) (harg7 : arg7.IsWhole) (arg8 : Memref sig .tc .vmem S256x256 .bf16) (harg8 : arg8.IsWhole) (arg9 : Memref sig .tc .vmem S256 .f32) (harg9 : arg9.IsWhole) (arg10 : Memref sig .tc .vmem S1x1024x256 .f32) (harg10 : arg10.IsWhole) (arg11 : Memref sig .tc .vmem S4096x256 .bf16) (harg11 : arg11.IsWhole) (arg12 : Memref sig .tc .vmem S4096x256 .bf16) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x256 .f32) (harg15 : arg15.IsWhole) (hc0 : ¬cond0_0 i) (x0 : Vec F S1x4096x256 .f32) (x1 : Vec F S1x1024x256 .f32) (x2 : Vec F S256x256 .bf16) (x3 : Vec F S256 .f32) (x4 : Vec F S256x256 .bf16) (x5 : Vec F S256 .f32) (x6 : Vec F S256x256 .bf16) (x7 : Vec F S256 .f32) (xs0 xs1 : Vec F S4096x256 .bf16) :
    out0_B_8 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 xs1
      = outTerm x1 x2 x3 (tile0 xs0) (tile1 xs0) (tile2 xs0) (tile3 xs0) (tile0 xs1) (tile1 xs1) (tile2 xs1) (tile3 xs1) := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 xs1)]
  unfold kernelRun0_B
  dsimp only
  sl_unfold_words
  rw [View.canon_unit_zero (S := S1x1024x256) hz3]
  simp only [View.readCov_cons_unit_zero (S := S1024x1) _ hz2, View.readCov_unit_zero (S := S1024x1) _ hz2, View.readCov_cons_unit_zero (S := S1024x256) _ hz2, View.readCov_unit_zero (S := S1024x256) _ hz2,
    View.readAt_eq_ld, harg3.read_unread, harg4.read_unread, harg5.read_unread,
    harg11.read_unread, harg12.read_unread, View.ld_unit_zero (S := S1x1024x256) hz3, View.ld_unit_zero (S := S256x256) hz2, View.ld_unit_zero (S := S256) hz1]
  rfl

set_option maxHeartbeats 4000000 in
theorem sout0_A_0_eq (c : Dev nD) (i : grid0.Coords) (arg2 : Memref sig .tc .vmem S1x4096x256 .f32) (harg2 : arg2.IsWhole) (arg3 : Memref sig .tc .vmem S1x1024x256 .f32) (harg3 : arg3.IsWhole) (arg4 : Memref sig .tc .vmem S256x256 .bf16) (harg4 : arg4.IsWhole) (arg5 : Memref sig .tc .vmem S256 .f32) (harg5 : arg5.IsWhole) (arg6 : Memref sig .tc .vmem S256x256 .bf16) (harg6 : arg6.IsWhole) (arg7 : Memref sig .tc .vmem S256 .f32) (harg7 : arg7.IsWhole) (arg8 : Memref sig .tc .vmem S256x256 .bf16) (harg8 : arg8.IsWhole) (arg9 : Memref sig .tc .vmem S256 .f32) (harg9 : arg9.IsWhole) (arg10 : Memref sig .tc .vmem S1x1024x256 .f32) (harg10 : arg10.IsWhole) (arg11 : Memref sig .tc .vmem S4096x256 .bf16) (harg11 : arg11.IsWhole) (arg12 : Memref sig .tc .vmem S4096x256 .bf16) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x256 .f32) (harg15 : arg15.IsWhole) (hc0 : cond0_0 i) (x0 : Vec F S1x4096x256 .f32) (x1 : Vec F S1x1024x256 .f32) (x2 : Vec F S256x256 .bf16) (x3 : Vec F S256 .f32) (x4 : Vec F S256x256 .bf16) (x5 : Vec F S256 .f32) (x6 : Vec F S256x256 .bf16) (x7 : Vec F S256 .f32) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 = kTerm x0 x4 x5 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7)]
  unfold kernelRun0_A
  dsimp only
  sl_unfold_words
  rw [View.canon_unit_zero (S := S4096x256) hz2]
  simp only [View.readAt_eq_ld, harg2.read_unread, harg6.read_unread, harg7.read_unread,
    View.ld_unit_zero (S := S1x4096x256) hz3, View.ld_unit_zero (S := S256x256) hz2, View.ld_unit_zero (S := S256) hz1]
  rfl

set_option maxHeartbeats 4000000 in
theorem sout0_A_1_eq (c : Dev nD) (i : grid0.Coords) (arg2 : Memref sig .tc .vmem S1x4096x256 .f32) (harg2 : arg2.IsWhole) (arg3 : Memref sig .tc .vmem S1x1024x256 .f32) (harg3 : arg3.IsWhole) (arg4 : Memref sig .tc .vmem S256x256 .bf16) (harg4 : arg4.IsWhole) (arg5 : Memref sig .tc .vmem S256 .f32) (harg5 : arg5.IsWhole) (arg6 : Memref sig .tc .vmem S256x256 .bf16) (harg6 : arg6.IsWhole) (arg7 : Memref sig .tc .vmem S256 .f32) (harg7 : arg7.IsWhole) (arg8 : Memref sig .tc .vmem S256x256 .bf16) (harg8 : arg8.IsWhole) (arg9 : Memref sig .tc .vmem S256 .f32) (harg9 : arg9.IsWhole) (arg10 : Memref sig .tc .vmem S1x1024x256 .f32) (harg10 : arg10.IsWhole) (arg11 : Memref sig .tc .vmem S4096x256 .bf16) (harg11 : arg11.IsWhole) (arg12 : Memref sig .tc .vmem S4096x256 .bf16) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x256 .f32) (harg15 : arg15.IsWhole) (hc0 : cond0_0 i) (x0 : Vec F S1x4096x256 .f32) (x1 : Vec F S1x1024x256 .f32) (x2 : Vec F S256x256 .bf16) (x3 : Vec F S256 .f32) (x4 : Vec F S256x256 .bf16) (x5 : Vec F S256 .f32) (x6 : Vec F S256x256 .bf16) (x7 : Vec F S256 .f32) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 = vTerm x0 x6 x7 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7)]
  unfold kernelRun0_A
  dsimp only
  sl_unfold_words
  rw [View.canon_unit_zero (S := S4096x256) hz2]
  simp only [View.readAt_eq_ld, harg2.read_unread, harg8.read_unread, harg9.read_unread,
    View.ld_unit_zero (S := S1x4096x256) hz3, View.ld_unit_zero (S := S256x256) hz2, View.ld_unit_zero (S := S256) hz1]
  rfl

set_option maxHeartbeats 4000000 in
theorem out0_A_8_eq (c : Dev nD) (i : grid0.Coords) (arg2 : Memref sig .tc .vmem S1x4096x256 .f32) (harg2 : arg2.IsWhole) (arg3 : Memref sig .tc .vmem S1x1024x256 .f32) (harg3 : arg3.IsWhole) (arg4 : Memref sig .tc .vmem S256x256 .bf16) (harg4 : arg4.IsWhole) (arg5 : Memref sig .tc .vmem S256 .f32) (harg5 : arg5.IsWhole) (arg6 : Memref sig .tc .vmem S256x256 .bf16) (harg6 : arg6.IsWhole) (arg7 : Memref sig .tc .vmem S256 .f32) (harg7 : arg7.IsWhole) (arg8 : Memref sig .tc .vmem S256x256 .bf16) (harg8 : arg8.IsWhole) (arg9 : Memref sig .tc .vmem S256 .f32) (harg9 : arg9.IsWhole) (arg10 : Memref sig .tc .vmem S1x1024x256 .f32) (harg10 : arg10.IsWhole) (arg11 : Memref sig .tc .vmem S4096x256 .bf16) (harg11 : arg11.IsWhole) (arg12 : Memref sig .tc .vmem S4096x256 .bf16) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x256 .f32) (harg15 : arg15.IsWhole) (hc0 : cond0_0 i) (x0 : Vec F S1x4096x256 .f32) (x1 : Vec F S1x1024x256 .f32) (x2 : Vec F S256x256 .bf16) (x3 : Vec F S256 .f32) (x4 : Vec F S256x256 .bf16) (x5 : Vec F S256 .f32) (x6 : Vec F S256x256 .bf16) (x7 : Vec F S256 .f32) :
    out0_A_8 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7
      = outTerm x1 x2 x3 (tile0 (kTerm x0 x4 x5)) (tile1 (kTerm x0 x4 x5)) (tile2 (kTerm x0 x4 x5)) (tile3 (kTerm x0 x4 x5))
          (tile0 (vTerm x0 x6 x7)) (tile1 (vTerm x0 x6 x7)) (tile2 (vTerm x0 x6 x7)) (tile3 (vTerm x0 x6 x7)) := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7)]
  unfold kernelRun0_A
  dsimp only
  sl_unfold_words
  rw [View.canon_unit_zero (S := S1x1024x256) hz3]
  simp only [View.readCov_cons_unit_zero (S := S1024x1) _ hz2, View.readCov_unit_zero (S := S1024x1) _ hz2, View.readCov_cons_unit_zero (S := S1024x256) _ hz2, View.readCov_unit_zero (S := S1024x256) _ hz2,
    readCov_whole_sub (S := S4096x256) _ hz2,
    View.readAt_eq_ld, harg2.read_unread, harg3.read_unread, harg4.read_unread, harg5.read_unread, harg6.read_unread, harg7.read_unread, harg8.read_unread, harg9.read_unread,
    View.ld_unit_zero (S := S1x4096x256) hz3, View.ld_unit_zero (S := S1x1024x256) hz3, View.ld_unit_zero (S := S256x256) hz2, View.ld_unit_zero (S := S256) hz1]
  rfl

end Cert.KernelIdeal.Hand

end
-- ==== Proof.KI.Blocks.lean ====
/-
  The geometry of the attention kernel's pipeline: which element of which argument array each window's block holds
  at each grid point.

  The grid is 4 × 4: point `t` is batch `t / 4` and query tile `t % 4`. Window 0 is the batch's whole block
  [1, 4096, 256] of the input; window 1 the query tile [1, 1024, 256] (rows `(t % 4) · 1024 …`); windows 2, 4, 6 the three
  weight matrices as the host prepared them (transposed, then narrowed: at the ideal values the transpose alone);
  windows 3, 5, 7 the three biases; window 8 the output tile [1, 1024, 256] at the same place as the query tile. A
  block's coordinate on an axis is always block index × block size + the coordinate inside the block. The sixteen
  output tiles cover the output array.
-/
import proofs.«119718_j75144747811056_2_alg».proof.Proof.KI.Frame
import proofs.«119718_j75144747811056_2_alg».proof.Proof.KI.Tiles
import Idealize.ShloMosaic.Lib.Pipeline.Value
import Idealize.ShloMosaic.Lib.ValueIdx
import Idealize.ShloMosaic.Lib.ValueLayout

noncomputable section

namespace Cert.KernelIdeal.Blocks

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable {F : FTy → Type} [FloatOps F]
variable (m : (ℓ : Loc nD τ sig) → Buf (Elt F) ℓ)

/-! ## The index maps, decided over the grid -/

/-- The printed index maps at every grid point: windows 0 (the batch's block) and 1, 8 (the query and output tiles)
    move with the point; the weights' and biases' windows stay at block 0. -/
theorem idx_facts : ∀ t : Fin cfg0.N,
    win0_0.index t (0 : Fin 3) = t.val / 4 ∧ win0_0.index t (1 : Fin 3) = 0 ∧ win0_0.index t (2 : Fin 3) = 0
    ∧ win0_1.index t (0 : Fin 3) = t.val / 4 ∧ win0_1.index t (1 : Fin 3) = t.val % 4 ∧ win0_1.index t (2 : Fin 3) = 0
    ∧ win0_8.index t (0 : Fin 3) = t.val / 4 ∧ win0_8.index t (1 : Fin 3) = t.val % 4 ∧ win0_8.index t (2 : Fin 3) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0 :=
  (by decide +kernel : ∀ t : Fin grid0.N, _)

/-- The grid has sixteen points. -/
theorem t_lt (t : Fin cfg0.N) : t.val < 16 := by
  have h : t.val < grid0.N := t.isLt
  rw [N_0] at h; exact h

/-- The batch of grid point `t`. -/
def bt (t : Fin cfg0.N) : Fin 4 := ⟨t.val / 4, by have := t_lt t; omega⟩

/-- The input row of row `p` of the query (and output) tile of grid point `t`. -/
def qrow (t : Fin cfg0.N) (p : Fin 1024) : Fin 4096 := ⟨(t.val % 4) * 1024 + p.val, by have := p.isLt; omega⟩

theorem bt_val (t : Fin cfg0.N) : (bt t).val = t.val / 4 := rfl
theorem qrow_val (t : Fin cfg0.N) (p : Fin 1024) : (qrow t p).val = (t.val % 4) * 1024 + p.val := rfl

/-! ## The input blocks at an index -/

/-- Window 0's block is the batch's whole [4096, 256] slab of the input. -/
theorem blk0_apply (c : Dev nD) (t : Fin cfg0.N) (r : Fin 4096) (f : Fin 256) :
    iblk m c 0 t (ix3 (0 : Fin 1) r f) = m ((c : Thread nD τ).loc main_arg0) (ix3 (bt t) r f) := by
  show V m c main_arg0 (((cfg0.win 0).blk t).view.emb (ix3 (0 : Fin 1) r f)) = _
  rw [V_main_arg0]
  refine congrArg _ ?_
  obtain ⟨e0, e1, e2, -⟩ := idx_facts t
  funext a; apply Fin.ext
  match a with
  | ⟨0, _⟩ => show win0_0.index t (0 : Fin 3) * 1 + 1 * (0 : Fin 1).val = t.val / 4; rw [e0]; simp
  | ⟨1, _⟩ => show win0_0.index t (1 : Fin 3) * 4096 + 1 * r.val = r.val; omega
  | ⟨2, _⟩ => show win0_0.index t (2 : Fin 3) * 256 + 1 * f.val = f.val; omega

/-- Window 1's block is the query tile: rows `(t % 4) · 1024 …` of the batch's slab. -/
theorem blk1_apply (c : Dev nD) (t : Fin cfg0.N) (p : Fin 1024) (f : Fin 256) :
    iblk m c 1 t (ix3 (0 : Fin 1) p f) = m ((c : Thread nD τ).loc main_arg0) (ix3 (bt t) (qrow t p) f) := by
  show V m c main_arg0 (((cfg0.win 1).blk t).view.emb (ix3 (0 : Fin 1) p f)) = _
  rw [V_main_arg0]
  refine congrArg _ ?_
  obtain ⟨-, -, -, e0, e1, e2, -⟩ := idx_facts t
  funext a; apply Fin.ext
  match a with
  | ⟨0, _⟩ => show win0_1.index t (0 : Fin 3) * 1 + 1 * (0 : Fin 1).val = t.val / 4; rw [e0]; simp
  | ⟨1, _⟩ => show win0_1.index t (1 : Fin 3) * 1024 + 1 * p.val = (t.val % 4) * 1024 + p.val; omega
  | ⟨2, _⟩ => show win0_1.index t (2 : Fin 3) * 256 + 1 * f.val = f.val; omega

/-- Windows 3, 5, 7 are the three biases, whole. -/
theorem blk3_apply (c : Dev nD) (t : Fin cfg0.N) (g : Fin 256) :
    iblk m c 3 t (ix1 g) = m ((c : Thread nD τ).loc main_arg2) (ix1 g) := by
  show V m c main_arg2 (((cfg0.win 3).blk t).view.emb (ix1 g)) = _
  rw [V_main_arg2]
  refine congrArg _ ?_
  obtain ⟨-, -, -, -, -, -, -, -, -, -, -, e, -⟩ := idx_facts t
  funext a; apply Fin.ext
  match a with
  | ⟨0, _⟩ => show win0_3.index t (0 : Fin 1) * 256 + 1 * g.val = g.val; omega

theorem blk5_apply (c : Dev nD) (t : Fin cfg0.N) (g : Fin 256) :
    iblk m c 5 t (ix1 g) = m ((c : Thread nD τ).loc main_arg4) (ix1 g) := by
  show V m c main_arg4 (((cfg0.win 5).blk t).view.emb (ix1 g)) = _
  rw [V_main_arg4]
  refine congrArg _ ?_
  obtain ⟨-, -, -, -, -, -, -, -, -, -, -, -, -, -, e, -⟩ := idx_facts t
  funext a; apply Fin.ext
  match a with
  | ⟨0, _⟩ => show win0_5.index t (0 : Fin 1) * 256 + 1 * g.val = g.val; omega

theorem blk7_apply (c : Dev nD) (t : Fin cfg0.N) (g : Fin 256) :
    iblk m c 7 t (ix1 g) = m ((c : Thread nD τ).loc main_arg6) (ix1 g) := by
  show V m c main_arg6 (((cfg0.win 7).blk t).view.emb (ix1 g)) = _
  rw [V_main_arg6]
  refine congrArg _ ?_
  obtain ⟨-, -, -, -, -, -, -, -, -, -, -, -, -, -, -, -, -, e⟩ := idx_facts t
  funext a; apply Fin.ext
  match a with
  | ⟨0, _⟩ => show win0_7.index t (0 : Fin 1) * 256 + 1 * g.val = g.val; omega

/-! ## The weights as the host prepared them, at the ideal values -/

section AtIdeal

variable (mI : (ℓ : Loc nD τ sig) → Buf (Elt Ideal) ℓ)

/-- Window 2's block is the query weight transposed (the narrowing is the identity at the ideal values). -/
theorem blk2_apply (c : Dev nD) (t : Fin cfg0.N) (f g : Fin 256) :
    iblk mI c 2 t (ix2 f g) = mI ((c : Thread nD τ).loc main_arg1) (ix2 g f) := by
  have e : @Eq (S256x256.Idx → EReal) (V mI c main_v1)
      (truncf (F := Ideal) .bf16 (transpose S256x256 [1, 0] (mI ((c : Thread nD τ).loc main_arg1)) transposes_S256x256_S256x256_1_0) bitsLt_bf16_f32) := by
    dsimp only [V, hostOps0]; after_results
  have hemb : ((cfg0.win 2).blk t).view.emb (ix2 f g) = ix2 f g := by
    obtain ⟨-, -, -, -, -, -, -, -, -, e0, e1, -⟩ := idx_facts t
    funext a; apply Fin.ext
    match a with
    | ⟨0, _⟩ => show win0_2.index t (0 : Fin 2) * 256 + 1 * f.val = f.val; omega
    | ⟨1, _⟩ => show win0_2.index t (1 : Fin 2) * 256 + 1 * g.val = g.val; omega
  show V mI c main_v1 (((cfg0.win 2).blk t).view.emb (ix2 f g)) = _
  rw [hemb]
  refine (congrFun e (ix2 f g)).trans ?_
  rw [ValueIdx.truncf_apply, ValueIdx.transpose_ix2_apply]

/-- Window 4's block is the key weight transposed. -/
theorem blk4_apply (c : Dev nD) (t : Fin cfg0.N) (f g : Fin 256) :
    iblk mI c 4 t (ix2 f g) = mI ((c : Thread nD τ).loc main_arg3) (ix2 g f) := by
  have e : @Eq (S256x256.Idx → EReal) (V mI c main_v3)
      (truncf (F := Ideal) .bf16 (transpose S256x256 [1, 0] (mI ((c : Thread nD τ).loc main_arg3)) transposes_S256x256_S256x256_1_0) bitsLt_bf16_f32) := by
    dsimp only [V, hostOps0]; after_results
  have hemb : ((cfg0.win 4).blk t).view.emb (ix2 f g) = ix2 f g := by
    obtain ⟨-, -, -, -, -, -, -, -, -, -, -, -, e0, e1, -⟩ := idx_facts t
    funext a; apply Fin.ext
    match a with
    | ⟨0, _⟩ => show win0_4.index t (0 : Fin 2) * 256 + 1 * f.val = f.val; omega
    | ⟨1, _⟩ => show win0_4.index t (1 : Fin 2) * 256 + 1 * g.val = g.val; omega
  show V mI c main_v3 (((cfg0.win 4).blk t).view.emb (ix2 f g)) = _
  rw [hemb]
  refine (congrFun e (ix2 f g)).trans ?_
  rw [ValueIdx.truncf_apply, ValueIdx.transpose_ix2_apply]

/-- Window 6's block is the value weight transposed. -/
theorem blk6_apply (c : Dev nD) (t : Fin cfg0.N) (f g : Fin 256) :
    iblk mI c 6 t (ix2 f g) = mI ((c : Thread nD τ).loc main_arg5) (ix2 g f) := by
  have e : @Eq (S256x256.Idx → EReal) (V mI c main_v5)
      (truncf (F := Ideal) .bf16 (transpose S256x256 [1, 0] (mI ((c : Thread nD τ).loc main_arg5)) transposes_S256x256_S256x256_1_0) bitsLt_bf16_f32) := by
    dsimp only [V, hostOps0]; after_results
  have hemb : ((cfg0.win 6).blk t).view.emb (ix2 f g) = ix2 f g := by
    obtain ⟨-, -, -, -, -, -, -, -, -, -, -, -, -, -, -, e0, e1, -⟩ := idx_facts t
    funext a; apply Fin.ext
    match a with
    | ⟨0, _⟩ => show win0_6.index t (0 : Fin 2) * 256 + 1 * f.val = f.val; omega
    | ⟨1, _⟩ => show win0_6.index t (1 : Fin 2) * 256 + 1 * g.val = g.val; omega
  show V mI c main_v5 (((cfg0.win 6).blk t).view.emb (ix2 f g)) = _
  rw [hemb]
  refine (congrFun e (ix2 f g)).trans ?_
  rw [ValueIdx.truncf_apply, ValueIdx.transpose_ix2_apply]

end AtIdeal

/-! ## The four tiles of a [4096, 256] scratch buffer -/

/-- Row `j` of tile `k` is row `k · 1024 + j`. -/
def trow (k : Fin 4) (j : Fin 1024) : Fin 4096 := ⟨k.val * 1024 + j.val, by have := k.isLt; have := j.isLt; omega⟩

theorem trow_val (k : Fin 4) (j : Fin 1024) : (trow k j).val = k.val * 1024 + j.val := rfl

theorem tile0_apply (xs : Vec F S4096x256 .bf16) (j : Fin 1024) (e : Fin 256) :
    tile0 xs (ix2 j e) = xs (ix2 (trow 0 j) e) := by
  show xs _ = xs _
  refine congrArg xs ?_
  funext a; apply Fin.ext
  match a with
  | ⟨0, _⟩ => show 0 + 1 * j.val = 0 * 1024 + j.val; omega
  | ⟨1, _⟩ => show 0 + 1 * e.val = e.val; omega

theorem tile1_apply (xs : Vec F S4096x256 .bf16) (j : Fin 1024) (e : Fin 256) :
    tile1 xs (ix2 j e) = xs (ix2 (trow 1 j) e) := by
  show xs _ = xs _
  refine congrArg xs ?_
  funext a; apply Fin.ext
  match a with
  | ⟨0, _⟩ => show 1024 + 1 * j.val = 1 * 1024 + j.val; omega
  | ⟨1, _⟩ => show 0 + 1 * e.val = e.val; omega

theorem tile2_apply (xs : Vec F S4096x256 .bf16) (j : Fin 1024) (e : Fin 256) :
    tile2 xs (ix2 j e) = xs (ix2 (trow 2 j) e) := by
  show xs _ = xs _
  refine congrArg xs ?_
  funext a; apply Fin.ext
  match a with
  | ⟨0, _⟩ => show 2048 + 1 * j.val = 2 * 1024 + j.val; omega
  | ⟨1, _⟩ => show 0 + 1 * e.val = e.val; omega

theorem tile3_apply (xs : Vec F S4096x256 .bf16) (j : Fin 1024) (e : Fin 256) :
    tile3 xs (ix2 j e) = xs (ix2 (trow 3 j) e) := by
  show xs _ = xs _
  refine congrArg xs ?_
  funext a; apply Fin.ext
  match a with
  | ⟨0, _⟩ => show 3072 + 1 * j.val = 3 * 1024 + j.val; omega
  | ⟨1, _⟩ => show 0 + 1 * e.val = e.val; omega

/-! ## The output window -/

/-- Row `p`, column `d` of the output tile of grid point `t` is the output array at batch `t / 4`, row `(t % 4) · 1024 + p`. -/
theorem emb8 (t : Fin cfg0.N) (p : Fin 1024) (d : Fin 256) :
    ((cfg0.win 8).blk t).view.emb (ix3 (0 : Fin 1) p d) = ix3 (bt t) (qrow t p) d := by
  obtain ⟨-, -, -, -, -, -, e0, e1, e2, -⟩ := idx_facts t
  funext a; apply Fin.ext
  match a with
  | ⟨0, _⟩ => show win0_8.index t (0 : Fin 3) * 1 + 1 * (0 : Fin 1).val = t.val / 4; rw [e0]; simp
  | ⟨1, _⟩ => show win0_8.index t (1 : Fin 3) * 1024 + 1 * p.val = (t.val % 4) * 1024 + p.val; omega
  | ⟨2, _⟩ => show win0_8.index t (2 : Fin 3) * 256 + 1 * d.val = d.val; omega

/-- An index of the output array is in point `t`'s block iff each coordinate is in the block's range on its axis. -/
theorem mem_blk8 (t : Fin cfg0.N) (i : S4x4096x256.Idx) :
    i ∈ ((cfg0.win 8).blk t).view.set ↔ ∀ a : Fin 3, win0_8.index t a * S1x1024x256.size a ≤ (i a).val
      ∧ (i a).val < win0_8.index t a * S1x1024x256.size a + S1x1024x256.size a := by
  show i ∈ ((View.whole main_v6).slice (win0_8.rect t)).set ↔ _
  rw [View.set_slice_whole, Rect.mem_set_unit]
  exact Iff.rfl

/-- The same in closed form: the batch is `t / 4` and the row lies in query tile `t % 4`. -/
theorem mem_blk8_iff (t : Fin cfg0.N) (i : S4x4096x256.Idx) :
    i ∈ ((cfg0.win 8).blk t).view.set ↔ (i 0).val = t.val / 4 ∧ (t.val % 4) * 1024 ≤ (i 1).val
      ∧ (i 1).val < (t.val % 4) * 1024 + 1024 := by
  rw [mem_blk8]
  obtain ⟨-, -, -, -, -, -, e0, e1, e2, -⟩ := idx_facts t
  have h2 : (i 2).val < 256 := (i 2).isLt
  constructor
  · intro h
    have b0 : win0_8.index t (0 : Fin 3) * 1 ≤ (i 0).val ∧ (i 0).val < win0_8.index t (0 : Fin 3) * 1 + 1 := h 0
    have b1 : win0_8.index t (1 : Fin 3) * 1024 ≤ (i 1).val ∧ (i 1).val < win0_8.index t (1 : Fin 3) * 1024 + 1024 := h 1
    omega
  · rintro ⟨h0, h1, h1'⟩ a
    match a with
    | ⟨0, _⟩ => show win0_8.index t (0 : Fin 3) * 1 ≤ (i 0).val ∧ (i 0).val < win0_8.index t (0 : Fin 3) * 1 + 1; omega
    | ⟨1, _⟩ => show win0_8.index t (1 : Fin 3) * 1024 ≤ (i 1).val ∧ (i 1).val < win0_8.index t (1 : Fin 3) * 1024 + 1024; omega
    | ⟨2, _⟩ => show win0_8.index t (2 : Fin 3) * 256 ≤ (i 2).val ∧ (i 2).val < win0_8.index t (2 : Fin 3) * 256 + 256; omega

/-- The grid point whose output tile holds index `i`: batch `i 0`, query tile `(i 1) / 1024`. -/
def pointOf (i : S4x4096x256.Idx) : Fin cfg0.N :=
  (⟨(i 0).val * 4 + (i 1).val / 1024, by
    have h0 : (i 0).val < 4 := (i 0).isLt
    have h1 : (i 1).val < 4096 := (i 1).isLt
    rw [N_0]; omega⟩ : Fin grid0.N)

theorem pointOf_val (i : S4x4096x256.Idx) : (pointOf i).val = (i 0).val * 4 + (i 1).val / 1024 := rfl

/-- THE COVER: every index of the output array is in the block of a grid point that writes back (every point does). -/
theorem cover8 : ∀ i : S4x4096x256.Idx, ∃ t : Fin cfg0.N, (cfg0.win 8).flush t = true ∧ i ∈ ((cfg0.win 8).blk t).view.set := by
  intro i
  refine ⟨pointOf i, flush0_8 _, ?_⟩
  rw [mem_blk8_iff, pointOf_val]
  have h0 : (i 0).val < 4 := (i 0).isLt
  have h1 : (i 1).val < 4096 := (i 1).isLt
  omega

/-- An index of the output array written through its own grid point: the tile row is `(i 1) % 1024`. -/
theorem emb8_pointOf (i : S4x4096x256.Idx) :
    ((cfg0.win 8).blk (pointOf i)).view.emb (ix3 (0 : Fin 1) (⟨(i 1).val % 1024, Nat.mod_lt _ (by norm_num)⟩ : Fin 1024) (i 2)) = i := by
  refine (emb8 (pointOf i) _ (i 2)).trans ?_
  have h0 : (i 0).val < 4 := (i 0).isLt
  have h1 : (i 1).val < 4096 := (i 1).isLt
  funext a; apply Fin.ext
  match a with
  | ⟨0, _⟩ => show (pointOf i).val / 4 = (i 0).val; rw [pointOf_val]; omega
  | ⟨1, _⟩ => show ((pointOf i).val % 4) * 1024 + (i 1).val % 1024 = (i 1).val; rw [pointOf_val]; omega
  | ⟨2, _⟩ => rfl

end Cert.KernelIdeal.Blocks

end
-- ==== Proof.LibPlainDot.lean ====
/-
  A plain matrix product read at an index, over the extended reals.

  For the dimension numbers of an M×K by K×N product (contract the left operand's second axis with the
  right operand's first; no batch axes) the entry (i, j) of the product is the sum over k of
  lhs (i, k) · rhs (k, j): stated once for a `tpu.matmul` accumulating into the zero splat and once for
  the host's `dot_general`, for any extents M, K, N. The contraction index of such a product has one
  axis of extent K, and the sum over it is re-indexed by that coordinate.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable {M K N : Nat}

/-- The left operand's row coordinate is the result's row coordinate. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q 1).val = (q ⟨0, show 0 < (DotDims.plain M K N).contr.rank from Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q 0).val = (q ⟨0, show 0 < (DotDims.plain M K N).contr.rank from Nat.one_pos⟩).val :=
  (DotDims.plain M K N).rhsIdx_val_of_single rfl j q

/-- The right operand's column coordinate is the result's column coordinate. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the contraction index of a plain product is the sum over k of lhs (i, k) · rhs (k, j). -/
theorem sum_contr (lhs : (⟨2, ![M, K]⟩ : Shape).Idx → EReal) (rhs : (⟨2, ![K, N]⟩ : Shape).Idx → EReal)
    (i : Fin M) (j : Fin N) :
    (∑ q : (DotDims.plain M K N).contr.Idx,
        lhs ((DotDims.plain M K N).lhsIdx (ix2 i j) q) * rhs ((DotDims.plain M K N).rhsIdx (ix2 i j) q))
      = ∑ k : Fin K, lhs (ix2 i k) * rhs (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_row _ _
      | ⟨1, _⟩ => exact (lhs_col _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_row _ _).trans hk
      | ⟨1, _⟩ => exact rhs_col _ _)
  rw [el, er]

/-- A `tpu.matmul` of plain dimension numbers into the zero splat, at (i, j): the sum over k of the products. -/
theorem matmul_zero_apply {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) :=
  (Ideal.matmul_constant_zero_apply (DotDims.plain M K N) prec lhs rhs (ix2 i j)).trans (sum_contr lhs rhs i j)

/-- The host's `dot_general` of plain dimension numbers, at (i, j): the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (i : Fin M) (j : Fin N) :
    FloatOps.dotGeneral (DotDims.plain M K N) prec sched lhs rhs (ix2 i j)
      = ∑ k : Fin K, lhs (ix2 i k) * rhs (ix2 k j) :=
  (Ideal.dotGeneral_apply (DotDims.plain M K N) prec sched lhs rhs (ix2 i j)).trans (sum_contr lhs rhs i j)

end Idealize.ShloMosaic.PlainDot

end
-- ==== Proof.KI.PayAtProj.lean ====
/-
  The body's three linear layers read at an index, over the extended reals.

  A block with a leading unit axis is cast to a matrix, narrowed, multiplied by a weight into a zero accumulator, a bias
  row broadcast down the rows is added, and the result is narrowed. The two narrowings are the identity on extended
  reals, the cast drops the unit coordinate, and the product into the zero accumulator is the plain sum, so the entry
  at row r and output feature g is the sum over the input features f of block (0, r, f) times weight (f, g), plus
  bias g. This is the query tile from the query block, and the key and value scratch from the whole batch's block.
-/
import proofs.«119718_j75144747811056_2_alg».proof.Proof.KI.OutTerm
import proofs.«119718_j75144747811056_2_alg».proof.Proof.LibPlainDot
import Idealize.ShloMosaic.Lib.ValueLayout

noncomputable section

open scoped BigOperators

namespace Cert.KernelIdeal.PayAt

open Cert.KernelIdeal Cert.KernelIdeal.Gen Cert.KernelIdeal.Hand Idealize.ShloMosaic Idealize.ShloMosaic.ValueIdx

/-- The query tile's product has the plain dimension numbers of a 1024×256 by 256×256 product. -/
theorem dot_tile_eq : dot_S1024x256_S256x256_S1024x256_1_0_0_1_n_n = DotDims.plain 1024 256 256 := rfl

/-- The batch's product has the plain dimension numbers of a 4096×256 by 256×256 product. -/
theorem dot_batch_eq : dot_S4096x256_S256x256_S4096x256_1_0_0_1_n_n = DotDims.plain 4096 256 256 := rfl

/-- A linear layer of R rows at (r, g): the sum over the input features plus the bias. -/
theorem linear_at {R : Nat} (D : DotDims ⟨2, ![R, 256]⟩ S256x256 ⟨2, ![R, 256]⟩) (hD : D = DotDims.plain R 256 256)
    (x : FVec Ideal ⟨3, ![1, R, 256]⟩ .f32) (w : FVec Ideal S256x256 .bf16) (b : FVec Ideal S256 .f32)
    (h1 : (⟨3, ![1, R, 256]⟩ : Shape).ShapeCasts ⟨2, ![R, 256]⟩) (h2 : (FTy.bf16).bits < (FTy.f32).bits)
    (h3 : S256x256.ShapeCasts S256x256) (h4 : S256.ShapeCasts S1x256) (h5 : S1x256.Broadcasts ⟨2, ![R, 256]⟩)
    (r : Fin R) (g : Fin 256) :
    truncf .bf16 (addf (matmul D none (truncf .bf16 (shapeCast ⟨2, ![R, 256]⟩ x h1) h2) (shapeCast S256x256 w h3)
        (constant ⟨2, ![R, 256]⟩ .f32 0x00000000#32)) (broadcastTo ⟨2, ![R, 256]⟩ (shapeCast S1x256 b h4) h5)) h2 (ix2 r g)
      = (∑ f : Fin 256, x (ix3 (0 : Fin 1) r f) * w (ix2 f g)) + b (ix1 g) := by
  subst hD
  rw [truncf_apply, addf_apply]
  refine congrArg₂ (· + ·) ?_ ?_
  · refine (PlainDot.matmul_zero_apply none _ _ r g).trans (Finset.sum_congr rfl fun f _ => ?_)
    rw [truncf_apply, shapeCast_1ab_ab_apply, shapeCast_self]
  · rw [broadcastTo_1b_ab_apply, shapeCast_a_1a_apply]

/-- The query tile at row p and feature g. -/
theorem qT_at (x1 : Vec Ideal S1x1024x256 .f32) (wq : Vec Ideal S256x256 .bf16) (bq : Vec Ideal S256 .f32)
    (p : Fin 1024) (g : Fin 256) :
    qT (F := Ideal) x1 wq bq (ix2 p g) = (∑ f : Fin 256, x1 (ix3 (0 : Fin 1) p f) * wq (ix2 f g)) + bq (ix1 g) := by
  unfold qT k0_pay5
  exact linear_at _ dot_tile_eq x1 wq bq _ _ _ _ _ p g

/-- The key scratch at row r and feature g. -/
theorem kTerm_at (xf : Vec Ideal S1x4096x256 .f32) (wk : Vec Ideal S256x256 .bf16) (bk : Vec Ideal S256 .f32)
    (r : Fin 4096) (g : Fin 256) :
    kTerm (F := Ideal) xf wk bk (ix2 r g) = (∑ f : Fin 256, xf (ix3 (0 : Fin 1) r f) * wk (ix2 f g)) + bk (ix1 g) := by
  unfold kTerm k0_pay3 k0_pay2
  rw [shapeCast_self]
  exact linear_at _ dot_batch_eq xf wk bk _ _ _ _ _ r g

/-- The value scratch at row r and feature g. -/
theorem vTerm_at (xf : Vec Ideal S1x4096x256 .f32) (wv : Vec Ideal S256x256 .bf16) (bv : Vec Ideal S256 .f32)
    (r : Fin 4096) (g : Fin 256) :
    vTerm (F := Ideal) xf wv bv (ix2 r g) = (∑ f : Fin 256, xf (ix3 (0 : Fin 1) r f) * wv (ix2 f g)) + bv (ix1 g) := by
  unfold vTerm k0_pay4 k0_pay2
  rw [shapeCast_self]
  exact linear_at _ dot_batch_eq xf wv bv _ _ _ _ _ r g

end Cert.KernelIdeal.PayAt

end
-- ==== Proof.LibRowOps.lean ====
/-
  Row-wise reductions and column broadcasts of a matrix, read at an index, over the extended reals.

  For an a × b matrix: the maximum (or sum) over a row, whether taken by a vector reduction from a neutral
  accumulator or by the host's reduce from an initial value, is at row p the fold of max (or the sum) over the b
  columns of the entries (p, j). A vector of a entries stood up as an a × 1 column reads entry p at (p, 0), and
  that column spread over b columns reads (p, 0) at every (p, q); both in the vector spelling (shape cast, broadcast)
  and in the host's (broadcast in dimensions).
-/
import Idealize.ShloMosaic.Lib.Pipeline.Value
import Idealize.ShloMosaic.Lib.ValueIdx
import Idealize.ShloMosaic.PureOps.Ideal.Laws
import Idealize.ShloMosaic.PureOps.Reduce

noncomputable section

open scoped BigOperators

namespace Idealize.ShloMosaic.RowOps

open Idealize.ShloMosaic Idealize.ShloMosaic.ValueIdx

variable {a b : Nat} {α : Type}

/-- A vector stood up as a column: entry p sits at (p, 0). -/
theorem colCast_apply (v : (⟨1, ![a]⟩ : Shape).Idx → α) (h : (⟨1, ![a]⟩ : Shape).ShapeCasts ⟨2, ![a, 1]⟩) (p : Fin a) :
    shapeCast ⟨2, ![a, 1]⟩ v h (ix2 p (0 : Fin 1)) = v (ix1 p) :=
  shapeCast_apply v h (ix2 p (0 : Fin 1)) (ix1 p) (by
    rw [Shape.rowMajor_val_one, Shape.rowMajor_val_two]; show p.val = p.val * 1 + 0; omega)

/-- A column spread over b columns reads its entry (p, 0) at every (p, q). -/
theorem colBcast_apply (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The host's column of a vector: entry p sits at (p, 0). -/
theorem colInDim_apply (v : (⟨1, ![a]⟩ : Shape).Idx → α) (h : (⟨1, ![a]⟩ : Shape).BroadcastsInDim ⟨2, ![a, 1]⟩ ![0])
    (p : Fin a) : broadcastInDim ⟨2, ![a, 1]⟩ ![0] h v (ix2 p (0 : Fin 1)) = v (ix1 p) := by
  refine broadcastInDim_apply ![0] h v (ix2 p (0 : Fin 1)) (ix1 p) fun ax => ?_
  match ax with
  | ⟨0, _⟩ =>
    show p.val = if a = 1 then 0 else p.val
    split
    · have := p.isLt; omega
    · rfl

/-- The host's spread of a column over b columns reads its entry (p, 0) at every (p, q). -/
theorem colInDim2_apply (w : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h w (ix2 p q) = w (ix2 p (0 : Fin 1)) := by
  refine broadcastInDim_apply ![0, 1] h w (ix2 p q) (ix2 p (0 : Fin 1)) fun ax => ?_
  match ax with
  | ⟨0, _⟩ =>
    show p.val = if a = 1 then 0 else p.val
    split
    · have := p.isLt; omega
    · rfl
  | ⟨1, _⟩ => rfl

/-- Row p with column k put back is (p, k). -/
theorem lift_row (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A vector reduction's row maximum: the fold of max over the row's entries from the accumulator's value. -/
theorem rowMax_vector (src : FVec Ideal ⟨2, ![a, b]⟩ .f32) (acc : BitVec 32)
    (h : (⟨2, ![a, b]⟩ : Shape).Reduces [1] (⟨1, ![a]⟩ : Shape)) (hφ : FKind.Formats .f32)
    (hacc : acc = FKind.maximumf.neutral .f32 hφ) (p : Fin a) :
    multiReduction .maximumf [1] ⟨1, ![a]⟩ src acc h hφ hacc (ix1 p)
      = (Finset.univ : Finset (Fin b)).fold max (Ideal.ofBits .f32 acc) (fun j => src (ix2 p j)) := by
  refine (Ideal.multiReduction_maximumf_single src acc h hφ hacc (ix1 p)).trans ?_
  have hf : (src ∘ h.lift (ix1 p)) = fun k : Fin b => src (ix2 p k) := funext fun k => congrArg src (lift_row h p k)
  exact congrArg (fun f => Finset.fold max (Ideal.ofBits .f32 acc) f (Finset.univ : Finset (Fin b))) hf

/-- The host's row maximum: the fold of max over the row's entries from the initial value. -/
theorem rowMax_host (x : FVec Ideal ⟨2, ![a, b]⟩ .f32) (init : (⟨0, ![]⟩ : Shape).Idx → Ideal .f32)
    (h' : (⟨2, ![a, b]⟩ : Shape).ReducesTo [1] (⟨1, ![a]⟩ : Shape))
    (h : (⟨2, ![a, b]⟩ : Shape).Reduces [1] (⟨1, ![a]⟩ : Shape)) (hu : 0 < (⟨0, ![]⟩ : Shape).numel) (p : Fin a) :
    Host.reduce FloatOps.maximumf x init h' hu (ix1 p)
      = (Finset.univ : Finset (Fin b)).fold max (init (Shape.Idx.first hu)) (fun j => x (ix2 p j)) := by
  rw [Host.reduce_eq_fold_single FloatOps.maximumf x init h' h hu]
  have hf : (x ∘ h.lift (ix1 p)) = fun k : Fin b => x (ix2 p k) := funext fun k => congrArg x (lift_row h p k)
  exact congrArg (fun f => Finset.fold max (init (Shape.Idx.first hu)) f (Finset.univ : Finset (Fin b))) hf

/-- A vector reduction's row sum. -/
theorem rowSum_vector (src : FVec Ideal ⟨2, ![a, b]⟩ .f32) (acc : BitVec 32)
    (h : (⟨2, ![a, b]⟩ : Shape).Reduces [1] (⟨1, ![a]⟩ : Shape)) (hφ : FKind.Formats .f32)
    (hacc : acc = FKind.add.neutral .f32 hφ) (p : Fin a) :
    multiReduction .add [1] ⟨1, ![a]⟩ src acc h hφ hacc (ix1 p) = ∑ j : Fin b, src (ix2 p j) := by
  refine (Ideal.multiReduction_add_single src acc h hφ hacc (ix1 p)).trans ?_
  exact Finset.sum_congr rfl fun k _ => congrArg src (lift_row h p k)

/-- The host's row sum: the initial value plus the sum of the row's entries. -/
theorem rowSum_host (x : FVec Ideal ⟨2, ![a, b]⟩ .f32) (init : (⟨0, ![]⟩ : Shape).Idx → Ideal .f32)
    (h' : (⟨2, ![a, b]⟩ : Shape).ReducesTo [1] (⟨1, ![a]⟩ : Shape))
    (h : (⟨2, ![a, b]⟩ : Shape).Reduces [1] (⟨1, ![a]⟩ : Shape)) (hu : 0 < (⟨0, ![]⟩ : Shape).numel) (p : Fin a) :
    Host.reduceAdd x init h' hu (ix1 p) = init (Shape.Idx.first hu) + ∑ j : Fin b, x (ix2 p j) := by
  show Ideal.hostReduceAdd h' x (init (Shape.Idx.first hu)) (ix1 p) = _
  rw [Ideal.hostReduceAdd_single h' h]
  exact congrArg (fun s => init (Shape.Idx.first hu) + s) (Finset.sum_congr rfl fun k _ => congrArg x (lift_row h p k))

end Idealize.ShloMosaic.RowOps

end
-- ==== Proof.LibOnlineSoftmax.lean ====
/-
  The online ("streaming") softmax recurrence over the extended reals.

  A row of real logits arrives tile by tile, `W` columns at a time (tile `k`, column `j`: `z k j`). A running
  maximum `m` and a running denominator `l` are kept, starting at `(-∞, 0)`; one tile updates them to
      m' = max m (max_j z_j),     l' = exp (m - m') · l + Σ_j exp (z_j - m').
  After `k + 1` tiles `m` is the maximum `M` of every logit seen, a real number that is attained, and `l` is
  `Σ exp (z - M)` over every logit seen: the rescaling by `exp (m - m')` moves the old terms from the old shift to
  the new one, because `exp (a - b) · exp (x - a) = exp (x - b)` on the reals, and at the first tile the old
  state `(-∞, 0)` contributes `exp (-∞) · 0 = 0`. Hence `m + log l` is the row's log-sum-exp.
  Exponential and logarithm are the extended-real ones of the ideal float instance (`exp (-∞) = 0`).
-/
import Idealize.ShloMosaic.PureOps.Ideal

noncomputable section

namespace LibOnlineSoftmax

open Idealize.ShloMosaic

/-- A finite sum of real coercions is the coercion of the sum. -/
theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The coercion of the reals into the extended reals commutes with `max`. -/
theorem coe_max (a b : ℝ) : ((max a b : ℝ) : EReal) = max (a : EReal) (b : EReal) :=
  (EReal.coe_strictMono.monotone).map_max

/-- One tile's update of the running pair `(m, l)`. -/
def step {W : ℕ} (zk : Fin W → EReal) (s : EReal × EReal) : EReal × EReal :=
  (max s.1 (Finset.univ.sup zk),
   Ideal.exp (s.1 - max s.1 (Finset.univ.sup zk)) * s.2
     + ∑ j, Ideal.exp (zk j - max s.1 (Finset.univ.sup zk)))

/-- The running pair after `k` tiles of extended-real logits, from `(-∞, 0)`. -/
def stateE {W : ℕ} (z : ℕ → Fin W → EReal) : ℕ → EReal × EReal
  | 0 => (⊥, 0)
  | k + 1 => step (z k) (stateE z k)

/-- The running pair after `k` tiles of real logits. -/
def state {W : ℕ} (z : ℕ → Fin W → ℝ) (k : ℕ) : EReal × EReal :=
  stateE (fun i j => ((z i j : ℝ) : EReal)) k

theorem stateE_zero {W : ℕ} (z : ℕ → Fin W → EReal) : stateE z 0 = (⊥, 0) := rfl
theorem stateE_succ {W : ℕ} (z : ℕ → Fin W → EReal) (k : ℕ) : stateE z (k + 1) = step (z k) (stateE z k) := rfl

/-- The recurrence only reads the tiles it has passed. -/
theorem stateE_congr {W : ℕ} (z z' : ℕ → Fin W → EReal) (k : ℕ) (h : ∀ i, i < k → z i = z' i) :
    stateE z k = stateE z' k := by
  induction k with
  | zero => rfl
  | succ k ih =>
    rw [stateE_succ, stateE_succ, h k (Nat.lt_succ_self k), ih fun i hi => h i (Nat.lt_succ_of_lt hi)]

/-- The maximum of one nonempty tile of reals, inside the extended reals. -/
theorem sup_coe {W : ℕ} (hW : 0 < W) (f : Fin W → ℝ) :
    ∃ c : ℝ, Finset.univ.sup (fun j => ((f j : ℝ) : EReal)) = (c : EReal) ∧ (∀ j, f j ≤ c) ∧ ∃ j, f j = c := by
  have hne : (Finset.univ : Finset (Fin W)).Nonempty := ⟨⟨0, hW⟩, Finset.mem_univ _⟩
  obtain ⟨j0, -, hj0⟩ := Finset.exists_mem_eq_sup' hne f
  refine ⟨Finset.univ.sup' hne f, ?_, fun j => Finset.le_sup' f (Finset.mem_univ j), ⟨j0, hj0.symm⟩⟩
  apply le_antisymm
  · exact Finset.sup_le fun j _ => EReal.coe_le_coe_iff.2 (Finset.le_sup' f (Finset.mem_univ j))
  · rw [hj0]
    exact Finset.le_sup (f := fun j => ((f j : ℝ) : EReal)) (Finset.mem_univ j0)

/-- After `k + 1` tiles the running maximum is the attained real maximum `M` of the logits seen, and the running
    denominator is the real `Σ exp (z - M)` over them. -/
theorem state_succ {W : ℕ} (hW : 0 < W) (z : ℕ → Fin W → ℝ) (k : ℕ) :
    ∃ M : ℝ, (∀ i, i ≤ k → ∀ j, z i j ≤ M) ∧ (∃ i, i ≤ k ∧ ∃ j, z i j = M) ∧
      (state z (k + 1)).1 = (M : EReal) ∧
      (state z (k + 1)).2 = ((∑ i ∈ Finset.range (k + 1), ∑ j, Real.exp (z i j - M) : ℝ) : EReal) := by
  induction k with
  | zero =>
    obtain ⟨c, hc, hle, j0, hj0⟩ := sup_coe hW (z 0)
    have hle0 : ∀ i, i ≤ 0 → ∀ j, z i j ≤ c := by
      intro i hi j
      obtain rfl : i = 0 := by omega
      exact hle j
    refine ⟨c, hle0, ⟨0, le_refl 0, j0, hj0⟩, ?_, ?_⟩
    · show max (⊥ : EReal) _ = _
      rw [hc]; exact max_eq_right bot_le
    · show Ideal.exp ((⊥ : EReal) - max (⊥ : EReal) _) * (0 : EReal) + ∑ j, Ideal.exp (((z 0 j : ℝ) : EReal) - max (⊥ : EReal) _) = _
      rw [hc, max_eq_right (bot_le : (⊥ : EReal) ≤ (c : EReal)), mul_zero, zero_add, Finset.sum_range_one]
      rw [← coe_sum]
      refine Finset.sum_congr rfl fun j _ => ?_
      rw [← EReal.coe_sub]; rfl
  | succ k ih =>
    obtain ⟨M, hle, ⟨i0, hi0, j0, hj0⟩, hm, hl⟩ := ih
    obtain ⟨c, hc, hcle, j1, hj1⟩ := sup_coe hW (z (k + 1))
    have hm' : (state z (k + 1 + 1)).1 = ((max M c : ℝ) : EReal) := by
      show max (state z (k + 1)).1 _ = _
      rw [hm, hc, coe_max]
    refine ⟨max M c, ?_, ?_, hm', ?_⟩
    · intro i hi j
      rcases Nat.lt_or_ge i (k + 1) with h | h
      · exact (hle i (by omega) j).trans (le_max_left _ _)
      · obtain rfl : i = k + 1 := by omega
        exact (hcle j).trans (le_max_right _ _)
    · rcases le_total c M with h | h
      · exact ⟨i0, by omega, j0, by rw [hj0, max_eq_left h]⟩
      · exact ⟨k + 1, le_refl _, j1, by rw [hj1, max_eq_right h]⟩
    · show Ideal.exp ((state z (k + 1)).1 - max (state z (k + 1)).1 _) * (state z (k + 1)).2
          + ∑ j, Ideal.exp (((z (k + 1) j : ℝ) : EReal) - max (state z (k + 1)).1 _) = _
      rw [hm, hc, ← coe_max, hl, ← EReal.coe_sub]
      show ((Real.exp (M - max M c) : ℝ) : EReal) * _ + _ = _
      rw [← EReal.coe_mul]
      have e2 : (∑ j, Ideal.exp (((z (k + 1) j : ℝ) : EReal) - ((max M c : ℝ) : EReal)))
          = ((∑ j, Real.exp (z (k + 1) j - max M c) : ℝ) : EReal) := by
        rw [← coe_sum]
        refine Finset.sum_congr rfl fun j _ => ?_
        rw [← EReal.coe_sub]; rfl
      rw [e2, ← EReal.coe_add]
      congr 1
      rw [Finset.sum_range_succ (fun i => ∑ j, Real.exp (z i j - max M c)) (k + 1), Finset.mul_sum]
      congr 1
      refine Finset.sum_congr rfl fun i _ => ?_
      rw [Finset.mul_sum]
      refine Finset.sum_congr rfl fun j _ => ?_
      rw [← Real.exp_add]
      congr 1; ring

/-- A sum over `T · W` consecutive positions is the sum over the `T` tiles of each tile's `W` terms. -/
theorem sum_tiles (W : ℕ) (g : ℕ → ℝ) (T : ℕ) :
    (∑ i ∈ Finset.range T, ∑ j : Fin W, g (i * W + j.val)) = ∑ n ∈ Finset.range (T * W), g n := by
  induction T with
  | zero => simp
  | succ T ih =>
    rw [Finset.sum_range_succ, ih, Nat.succ_mul, Finset.sum_range_add, Fin.sum_univ_eq_sum_range (fun j => g (T * W + j)) W]

/-- The flat form: the logits are `z 0, z 1, …`, tile `k` holding positions `k · W … k · W + W − 1`. After `T + 1` tiles the
    running maximum is the attained maximum `M` of the first `(T + 1) · W` logits and the running denominator is
    `Σ exp (z n − M)` over them. -/
theorem state_flat {W : ℕ} (hW : 0 < W) (z : ℕ → ℝ) (T : ℕ) :
    ∃ M : ℝ, (∀ n, n < (T + 1) * W → z n ≤ M) ∧ (∃ n, n < (T + 1) * W ∧ z n = M) ∧
      (state (fun k (j : Fin W) => z (k * W + j.val)) (T + 1)).1 = (M : EReal) ∧
      (state (fun k (j : Fin W) => z (k * W + j.val)) (T + 1)).2
        = ((∑ n ∈ Finset.range ((T + 1) * W), Real.exp (z n - M) : ℝ) : EReal) := by
  obtain ⟨M, hle, ⟨i0, hi0, j0, hj0⟩, hm, hl⟩ := state_succ hW (fun k (j : Fin W) => z (k * W + j.val)) T
  refine ⟨M, ?_, ?_, hm, ?_⟩
  · intro n hn
    have hdiv : n / W ≤ T := by
      have : n / W < T + 1 := Nat.div_lt_of_lt_mul (by rw [Nat.mul_comm]; exact hn)
      omega
    have := hle (n / W) hdiv ⟨n % W, Nat.mod_lt _ hW⟩
    simpa [Nat.div_add_mod' n W] using this
  · refine ⟨i0 * W + j0.val, ?_, hj0⟩
    calc i0 * W + j0.val < i0 * W + W := by have := j0.isLt; omega
      _ = (i0 + 1) * W := by ring
      _ ≤ (T + 1) * W := Nat.mul_le_mul_right W (by omega)
  · rw [hl, sum_tiles W (fun n => Real.exp (z n - M)) (T + 1)]

/-- The running pair's `m + log l` after `k + 1` tiles is the real log-sum-exp `M + log Σ exp (z - M)`, with `M` the
    attained maximum; the sum is at least `1`, so its logarithm is a real number. -/
theorem lse {W : ℕ} (hW : 0 < W) (z : ℕ → Fin W → ℝ) (k : ℕ) :
    ∃ M : ℝ, (∀ i, i ≤ k → ∀ j, z i j ≤ M) ∧ (∃ i, i ≤ k ∧ ∃ j, z i j = M) ∧
      0 < (∑ i ∈ Finset.range (k + 1), ∑ j, Real.exp (z i j - M)) ∧
      (state z (k + 1)).1 + Ideal.log (state z (k + 1)).2
        = ((M + Real.log (∑ i ∈ Finset.range (k + 1), ∑ j, Real.exp (z i j - M)) : ℝ) : EReal) := by
  obtain ⟨M, hle, hatt, hm, hl⟩ := state_succ hW z k
  have hpos : 0 < (∑ i ∈ Finset.range (k + 1), ∑ j, Real.exp (z i j - M)) := by
    obtain ⟨i0, hi0, j0, -⟩ := hatt
    refine Finset.sum_pos' (fun i _ => Finset.sum_nonneg fun j _ => (Real.exp_pos _).le) ⟨i0, Finset.mem_range.2 (by omega), ?_⟩
    exact Finset.sum_pos' (fun j _ => (Real.exp_pos _).le) ⟨j0, Finset.mem_univ _, Real.exp_pos _⟩
  refine ⟨M, hle, hatt, hpos, ?_⟩
  rw [hm, hl, Ideal.log_coe, if_neg (not_le.2 hpos), ← EReal.coe_add]

/-- The cross-entropy of one row against a label's logit `zl`: log-sum-exp minus the logit is the negated
    log-softmax entry `(zl - M) - log S`, on real numbers inside the extended reals. -/
theorem lse_sub_eq_neg_log_softmax (M S zl : ℝ) :
    ((M + Real.log S : ℝ) : EReal) - (zl : EReal)
      = -((((zl : ℝ) : EReal) - (M : EReal)) - ((Real.log S : ℝ) : EReal)) := by
  rw [← EReal.coe_sub, ← EReal.coe_sub, ← EReal.coe_sub, ← EReal.coe_neg]
  congr 1; ring

end LibOnlineSoftmax

end
-- ==== Proof.LibFlashAttn.lean ====
/-
  Streaming ("flash") softmax attention over the extended reals: the online-softmax recurrence WITH the
  value accumulator.

  Real logits arrive tile by tile, `W` columns at a time (tile `k`, column `j`: `z k j`), each with a real value
  `v k j` (one fixed output column). A running maximum `m`, a running denominator `l` and a running accumulator
  `acc` are kept, starting at `(-∞, 0, 0)`; one tile updates them to
      m'   = max m (max_j z_j),
      l'   = exp (m - m') · l   + Σ_j exp (z_j - m'),
      acc' = exp (m - m') · acc + Σ_j exp (z_j - m') · v_j,
  and the output is `acc / l`. The pair `(m, l)` is the online-softmax pair. After `T + 1` tiles, with `M` the
  attained real maximum of every logit seen and `S = Σ exp (z - M) > 0`,
      l = S,      acc = Σ exp (z - M) · v,      acc / l = Σ (exp (z - M) / S) · v,
  the right side being softmax attention as a reference computes it: the softmax weight of each key times its
  value. The rescaling by `exp (m - m')` moves the old terms from the old shift to the new one, because
  `exp (a - b) · (exp (x - a) · v) = exp (x - b) · v` on the reals; at the first tile the old state `(-∞, 0, 0)`
  contributes `exp (-∞) · 0 = 0`. The maximum a reference takes, a fold of `max` from `-∞` over all logits, is the
  same `M`. Exponential and division are the extended-real ones of the ideal float instance.

  Also two scalar facts about the scale `1/16 = 1/√256`: multiplying by the single-precision pattern of `0.0625`
  and dividing by the square root of the pattern of `256.0` both divide a real by `16`.
-/
import proofs.«119718_j75144747811056_2_alg».proof.Proof.LibOnlineSoftmax

noncomputable section

namespace LibFlashAttn

open Idealize.ShloMosaic

/-! ## The maximum as a fold -/

/-- A fold of `max` from `b` over a finite set is `max b` of the supremum over the set. -/
theorem fold_max_eq_max_sup {ι : Type*} (s : Finset ι) (b : EReal) (f : ι → EReal) :
    s.fold max b f = max b (s.sup f) := by
  classical
  induction s using Finset.induction_on with
  | empty => simp
  | insert a s ha ih =>
    rw [Finset.fold_insert ha, Finset.sup_insert, ih]
    show max (f a) (max b (s.sup f)) = max b (max (f a) (s.sup f))
    exact max_left_comm _ _ _

/-- A fold of `max` from `-∞` over a finite set is the supremum over the set. -/
theorem fold_max_bot_eq_sup {ι : Type*} (s : Finset ι) (f : ι → EReal) : s.fold max ⊥ f = s.sup f := by
  rw [fold_max_eq_max_sup, max_eq_right bot_le]

/-- The same over all of `Fin n`. -/
theorem fold_max_bot_univ (n : ℕ) (f : Fin n → EReal) :
    (Finset.univ : Finset (Fin n)).fold max ⊥ f = Finset.univ.sup f :=
  fold_max_bot_eq_sup _ f

/-- A real upper bound of a finite family of reals that the family attains is its supremum inside the extended
    reals. -/
theorem sup_coe_eq_of_attained {ι : Type*} (s : Finset ι) (f : ι → ℝ) (M : ℝ) (hle : ∀ i ∈ s, f i ≤ M)
    (hatt : ∃ i ∈ s, f i = M) : s.sup (fun i => ((f i : ℝ) : EReal)) = (M : EReal) := by
  apply le_antisymm
  · exact Finset.sup_le fun i hi => EReal.coe_le_coe_iff.2 (hle i hi)
  · obtain ⟨i, hi, rfl⟩ := hatt
    exact Finset.le_sup (f := fun i => ((f i : ℝ) : EReal)) hi

/-! ## Real arithmetic inside the extended reals -/

/-- The exponential of a difference of reals. -/
theorem exp_sub_coe (x M : ℝ) : Ideal.exp ((x : EReal) - (M : EReal)) = ((Real.exp (x - M) : ℝ) : EReal) := by
  rw [← EReal.coe_sub]; rfl

/-- One tile of shifted exponentials. -/
theorem tile_exp_sum {ι : Type*} (s : Finset ι) (f : ι → ℝ) (M : ℝ) :
    (∑ j ∈ s, Ideal.exp ((f j : EReal) - (M : EReal))) = ((∑ j ∈ s, Real.exp (f j - M) : ℝ) : EReal) := by
  rw [← LibOnlineSoftmax.coe_sum]
  exact Finset.sum_congr rfl fun j _ => exp_sub_coe _ _

/-- One tile of shifted exponentials times values. -/
theorem tile_exp_mul_sum {ι : Type*} (s : Finset ι) (f u : ι → ℝ) (M : ℝ) :
    (∑ j ∈ s, Ideal.exp ((f j : EReal) - (M : EReal)) * (u j : EReal))
      = ((∑ j ∈ s, Real.exp (f j - M) * u j : ℝ) : EReal) := by
  rw [← LibOnlineSoftmax.coe_sum]
  refine Finset.sum_congr rfl fun j _ => ?_
  rw [exp_sub_coe, ← EReal.coe_mul]

/-- A quotient of reals, the divisor not zero. -/
theorem div_coe_coe (a : ℝ) {S : ℝ} (hS : S ≠ 0) : Ideal.div (a : EReal) (S : EReal) = ((a / S : ℝ) : EReal) := by
  rw [Ideal.div_coe hS, ← EReal.coe_mul, mul_one_div]

/-- One softmax weight times its value. -/
theorem weight_mul_coe (x M u : ℝ) {S : ℝ} (hS : S ≠ 0) :
    Ideal.div (Ideal.exp ((x : EReal) - (M : EReal))) (S : EReal) * (u : EReal)
      = ((Real.exp (x - M) / S * u : ℝ) : EReal) := by
  rw [exp_sub_coe, div_coe_coe _ hS, ← EReal.coe_mul]

/-! ## The recurrence -/

/-- The update of the running triple `(m, l, acc)` by one tile. -/
def step {W : ℕ} (zk vk : Fin W → EReal) (s : EReal × EReal × EReal) : EReal × EReal × EReal :=
  (max s.1 (Finset.univ.sup zk),
   Ideal.exp (s.1 - max s.1 (Finset.univ.sup zk)) * s.2.1
     + ∑ j, Ideal.exp (zk j - max s.1 (Finset.univ.sup zk)),
   Ideal.exp (s.1 - max s.1 (Finset.univ.sup zk)) * s.2.2
     + ∑ j, Ideal.exp (zk j - max s.1 (Finset.univ.sup zk)) * vk j)

/-- The running triple after `k` tiles of extended-real logits and values, from `(-∞, 0, 0)`. -/
def stateE {W : ℕ} (z v : ℕ → Fin W → EReal) : ℕ → EReal × EReal × EReal
  | 0 => (⊥, 0, 0)
  | k + 1 => step (z k) (v k) (stateE z v k)

/-- The running triple after `k` tiles of real logits and values. -/
def state {W : ℕ} (z v : ℕ → Fin W → ℝ) (k : ℕ) : EReal × EReal × EReal :=
  stateE (fun i j => ((z i j : ℝ) : EReal)) (fun i j => ((v i j : ℝ) : EReal)) k

theorem stateE_zero {W : ℕ} (z v : ℕ → Fin W → EReal) : stateE z v 0 = (⊥, 0, 0) := rfl
theorem stateE_succ {W : ℕ} (z v : ℕ → Fin W → EReal) (k : ℕ) :
    stateE z v (k + 1) = step (z k) (v k) (stateE z v k) := rfl

theorem state_zero {W : ℕ} (z v : ℕ → Fin W → ℝ) : state z v 0 = (⊥, 0, 0) := rfl

/-- The three components after one more tile, each in terms of the triple before it and the new maximum. -/
theorem state_m_succ {W : ℕ} (z v : ℕ → Fin W → ℝ) (k : ℕ) :
    (state z v (k + 1)).1 = max (state z v k).1 (Finset.univ.sup fun j => ((z k j : ℝ) : EReal)) := rfl

theorem state_l_succ {W : ℕ} (z v : ℕ → Fin W → ℝ) (k : ℕ) :
    (state z v (k + 1)).2.1 = Ideal.exp ((state z v k).1 - (state z v (k + 1)).1) * (state z v k).2.1
      + ∑ j, Ideal.exp (((z k j : ℝ) : EReal) - (state z v (k + 1)).1) := rfl

theorem state_acc_succ {W : ℕ} (z v : ℕ → Fin W → ℝ) (k : ℕ) :
    (state z v (k + 1)).2.2 = Ideal.exp ((state z v k).1 - (state z v (k + 1)).1) * (state z v k).2.2
      + ∑ j, Ideal.exp (((z k j : ℝ) : EReal) - (state z v (k + 1)).1) * ((v k j : ℝ) : EReal) := rfl

/-- The first two components are the online-softmax pair. -/
theorem stateE_pair {W : ℕ} (z v : ℕ → Fin W → EReal) (k : ℕ) :
    ((stateE z v k).1, (stateE z v k).2.1) = LibOnlineSoftmax.stateE z k := by
  induction k with
  | zero => rfl
  | succ k ih =>
    rw [stateE_succ, LibOnlineSoftmax.stateE_succ, ← ih]
    rfl

theorem state_pair {W : ℕ} (z v : ℕ → Fin W → ℝ) (k : ℕ) :
    ((state z v k).1, (state z v k).2.1) = LibOnlineSoftmax.state z k :=
  stateE_pair _ _ k

theorem state_fst {W : ℕ} (z v : ℕ → Fin W → ℝ) (k : ℕ) : (state z v k).1 = (LibOnlineSoftmax.state z k).1 :=
  congrArg Prod.fst (state_pair z v k)

theorem state_snd_fst {W : ℕ} (z v : ℕ → Fin W → ℝ) (k : ℕ) : (state z v k).2.1 = (LibOnlineSoftmax.state z k).2 :=
  congrArg Prod.snd (state_pair z v k)

/-- The recurrence only reads the tiles it has passed. -/
theorem stateE_congr {W : ℕ} (z z' v v' : ℕ → Fin W → EReal) (k : ℕ) (hz : ∀ i, i < k → z i = z' i)
    (hv : ∀ i, i < k → v i = v' i) : stateE z v k = stateE z' v' k := by
  induction k with
  | zero => rfl
  | succ k ih =>
    rw [stateE_succ, stateE_succ, hz k (Nat.lt_succ_self k), hv k (Nat.lt_succ_self k),
      ih (fun i hi => hz i (Nat.lt_succ_of_lt hi)) (fun i hi => hv i (Nat.lt_succ_of_lt hi))]

/-! ## The accumulator -/

/-- Whatever real `M` the running maximum is after `k + 1` tiles, the accumulator is `Σ exp (z - M) · v` over the
    logits seen: the rescaling moves every old term from the old maximum to the new one. -/
theorem acc_eq {W : ℕ} (hW : 0 < W) (z v : ℕ → Fin W → ℝ) (k : ℕ) :
    ∀ M : ℝ, (state z v (k + 1)).1 = (M : EReal) →
      (state z v (k + 1)).2.2 = ((∑ i ∈ Finset.range (k + 1), ∑ j, Real.exp (z i j - M) * v i j : ℝ) : EReal) := by
  induction k with
  | zero =>
    intro M hM
    rw [state_acc_succ, hM, state_zero]
    show Ideal.exp ((⊥ : EReal) - (M : EReal)) * (0 : EReal) + _ = _
    rw [mul_zero, zero_add, tile_exp_mul_sum, Finset.sum_range_one]
  | succ k ih =>
    intro M hM
    obtain ⟨Mk, -, -, hmk, -⟩ := LibOnlineSoftmax.state_succ hW z k
    have hmk' : (state z v (k + 1)).1 = (Mk : EReal) := (state_fst z v (k + 1)).trans hmk
    rw [state_acc_succ, hM, hmk', ih Mk hmk', tile_exp_mul_sum, exp_sub_coe, ← EReal.coe_mul, ← EReal.coe_add]
    congr 1
    rw [Finset.sum_range_succ (fun i => ∑ j, Real.exp (z i j - M) * v i j) (k + 1), Finset.mul_sum]
    congr 1
    refine Finset.sum_congr rfl fun i _ => ?_
    rw [Finset.mul_sum]
    refine Finset.sum_congr rfl fun j _ => ?_
    rw [← mul_assoc, ← Real.exp_add]
    congr 2; ring

/-! ## The streaming-attention law -/

/-- After `k + 1` tiles the running maximum is the attained real maximum `M` of the logits seen, the running denominator is
    the real `S = Σ exp (z - M)` over them, which is positive, and the accumulator is the real `Σ exp (z - M) · v`. -/
theorem state_succ {W : ℕ} (hW : 0 < W) (z v : ℕ → Fin W → ℝ) (k : ℕ) :
    ∃ M : ℝ, (∀ i, i ≤ k → ∀ j, z i j ≤ M) ∧ (∃ i, i ≤ k ∧ ∃ j, z i j = M) ∧
      0 < (∑ i ∈ Finset.range (k + 1), ∑ j, Real.exp (z i j - M)) ∧
      (state z v (k + 1)).1 = (M : EReal) ∧
      (state z v (k + 1)).2.1 = ((∑ i ∈ Finset.range (k + 1), ∑ j, Real.exp (z i j - M) : ℝ) : EReal) ∧
      (state z v (k + 1)).2.2
        = ((∑ i ∈ Finset.range (k + 1), ∑ j, Real.exp (z i j - M) * v i j : ℝ) : EReal) := by
  obtain ⟨M, hle, hatt, hm, hl⟩ := LibOnlineSoftmax.state_succ hW z k
  have hm' : (state z v (k + 1)).1 = (M : EReal) := (state_fst z v (k + 1)).trans hm
  refine ⟨M, hle, hatt, ?_, hm', (state_snd_fst z v (k + 1)).trans hl, acc_eq hW z v k M hm'⟩
  obtain ⟨i0, hi0, j0, -⟩ := hatt
  refine Finset.sum_pos' (fun i _ => Finset.sum_nonneg fun j _ => (Real.exp_pos _).le)
    ⟨i0, Finset.mem_range.2 (by omega), ?_⟩
  exact Finset.sum_pos' (fun j _ => (Real.exp_pos _).le) ⟨j0, Finset.mem_univ _, Real.exp_pos _⟩

/-- The quotient of the two real sums is the sum of the softmax weights times the values (tiled index). -/
theorem div_tiles {W : ℕ} (z v : ℕ → Fin W → ℝ) (K : ℕ) (M : ℝ)
    (hS : (∑ i ∈ Finset.range K, ∑ j, Real.exp (z i j - M)) ≠ 0) :
    Ideal.div ((∑ i ∈ Finset.range K, ∑ j, Real.exp (z i j - M) * v i j : ℝ) : EReal)
        ((∑ i ∈ Finset.range K, ∑ j, Real.exp (z i j - M) : ℝ) : EReal)
      = ∑ i ∈ Finset.range K, ∑ j, Ideal.div (Ideal.exp (((z i j : ℝ) : EReal) - (M : EReal)))
          ((∑ i ∈ Finset.range K, ∑ j, Real.exp (z i j - M) : ℝ) : EReal) * ((v i j : ℝ) : EReal) := by
  rw [div_coe_coe _ hS]
  have e : ∀ i ∈ Finset.range K, (∑ j, Ideal.div (Ideal.exp (((z i j : ℝ) : EReal) - (M : EReal)))
        ((∑ i ∈ Finset.range K, ∑ j, Real.exp (z i j - M) : ℝ) : EReal) * ((v i j : ℝ) : EReal))
      = ((∑ j, Real.exp (z i j - M) / (∑ i ∈ Finset.range K, ∑ j, Real.exp (z i j - M)) * v i j : ℝ) : EReal) := by
    intro i _
    exact (Finset.sum_congr rfl fun j _ => weight_mul_coe _ _ _ hS).trans (LibOnlineSoftmax.coe_sum _ _)
  rw [Finset.sum_congr rfl e, LibOnlineSoftmax.coe_sum]
  congr 1
  rw [Finset.sum_div]
  refine Finset.sum_congr rfl fun i _ => ?_
  rw [Finset.sum_div]
  refine Finset.sum_congr rfl fun j _ => ?_
  ring

/-- The same over any finite index set (flat index). -/
theorem div_flat {ι : Type*} (s : Finset ι) (f u : ι → ℝ) (M : ℝ) (hS : (∑ n ∈ s, Real.exp (f n - M)) ≠ 0) :
    Ideal.div ((∑ n ∈ s, Real.exp (f n - M) * u n : ℝ) : EReal) ((∑ n ∈ s, Real.exp (f n - M) : ℝ) : EReal)
      = ∑ n ∈ s, Ideal.div (Ideal.exp (((f n : ℝ) : EReal) - (M : EReal)))
          ((∑ n ∈ s, Real.exp (f n - M) : ℝ) : EReal) * ((u n : ℝ) : EReal) := by
  rw [div_coe_coe _ hS, Finset.sum_congr rfl fun n _ => weight_mul_coe (f n) M (u n) hS, LibOnlineSoftmax.coe_sum]
  congr 1
  rw [Finset.sum_div]
  refine Finset.sum_congr rfl fun n _ => ?_
  ring

/-- Streaming attention is softmax attention (tiled index). After `T + 1` tiles, with `M` the attained real maximum of the
    logits seen and `S = Σ exp (z - M)`, the output `acc / l` is the sum over all keys of the softmax weight
    `exp (z - M) / S` times the value. -/
theorem attn {W : ℕ} (hW : 0 < W) (z v : ℕ → Fin W → ℝ) (T : ℕ) :
    ∃ M : ℝ, (∀ i, i ≤ T → ∀ j, z i j ≤ M) ∧ (∃ i, i ≤ T ∧ ∃ j, z i j = M) ∧
      0 < (∑ i ∈ Finset.range (T + 1), ∑ j, Real.exp (z i j - M)) ∧
      (state z v (T + 1)).1 = (M : EReal) ∧
      (state z v (T + 1)).2.1 = ((∑ i ∈ Finset.range (T + 1), ∑ j, Real.exp (z i j - M) : ℝ) : EReal) ∧
      (state z v (T + 1)).2.2
        = ((∑ i ∈ Finset.range (T + 1), ∑ j, Real.exp (z i j - M) * v i j : ℝ) : EReal) ∧
      Ideal.div (state z v (T + 1)).2.2 (state z v (T + 1)).2.1
        = ∑ i ∈ Finset.range (T + 1), ∑ j, Ideal.div (Ideal.exp (((z i j : ℝ) : EReal) - (M : EReal)))
            ((∑ i ∈ Finset.range (T + 1), ∑ j, Real.exp (z i j - M) : ℝ) : EReal) * ((v i j : ℝ) : EReal) := by
  obtain ⟨M, hle, hatt, hpos, hm, hl, hacc⟩ := state_succ hW z v T
  refine ⟨M, hle, hatt, hpos, hm, hl, hacc, ?_⟩
  rw [hacc, hl]
  exact div_tiles z v (T + 1) M hpos.ne'

/-- The maximum a reference takes over the tiles seen (supremum over tiles of the supremum over each tile, from `-∞`)
    is the same real `M`: any real upper bound that is attained. -/
theorem sup_tiles_eq {W : ℕ} (z : ℕ → Fin W → ℝ) (T : ℕ) (M : ℝ) (hle : ∀ i, i ≤ T → ∀ j, z i j ≤ M)
    (hatt : ∃ i, i ≤ T ∧ ∃ j, z i j = M) :
    (Finset.range (T + 1)).sup (fun i => Finset.univ.sup fun j => ((z i j : ℝ) : EReal)) = (M : EReal) := by
  apply le_antisymm
  · refine Finset.sup_le fun i hi => Finset.sup_le fun j _ => EReal.coe_le_coe_iff.2 (hle i ?_ j)
    have := Finset.mem_range.1 hi; omega
  · obtain ⟨i, hi, j, rfl⟩ := hatt
    exact (Finset.le_sup (f := fun j => ((z i j : ℝ) : EReal)) (Finset.mem_univ j)).trans
      (Finset.le_sup (f := fun i => Finset.univ.sup fun j => ((z i j : ℝ) : EReal)) (Finset.mem_range.2 (by omega)))

/-! ## The flat form -/

/-- The running triple over flat logits and values `z 0, z 1, …` and `v 0, v 1, …`, tile `k` holding positions
    `k · W … k · W + W − 1`. -/
abbrev flat (W : ℕ) (z v : ℕ → ℝ) (k : ℕ) : EReal × EReal × EReal :=
  state (fun i (j : Fin W) => z (i * W + j.val)) (fun i (j : Fin W) => v (i * W + j.val)) k

/-- Streaming attention is softmax attention (flat index). After `T + 1` tiles the running maximum is the attained
    maximum `M` of the first `(T + 1) · W` logits, the denominator is `S = Σ exp (z n − M) > 0`, the accumulator is
    `Σ exp (z n − M) · v n`, and `acc / l` is the sum over those positions of the softmax weight `exp (z n − M) / S`
    times the value. -/
theorem attn_flat {W : ℕ} (hW : 0 < W) (z v : ℕ → ℝ) (T : ℕ) :
    ∃ M : ℝ, (∀ n, n < (T + 1) * W → z n ≤ M) ∧ (∃ n, n < (T + 1) * W ∧ z n = M) ∧
      0 < (∑ n ∈ Finset.range ((T + 1) * W), Real.exp (z n - M)) ∧
      (flat W z v (T + 1)).1 = (M : EReal) ∧
      (flat W z v (T + 1)).2.1 = ((∑ n ∈ Finset.range ((T + 1) * W), Real.exp (z n - M) : ℝ) : EReal) ∧
      (flat W z v (T + 1)).2.2 = ((∑ n ∈ Finset.range ((T + 1) * W), Real.exp (z n - M) * v n : ℝ) : EReal) ∧
      Ideal.div (flat W z v (T + 1)).2.2 (flat W z v (T + 1)).2.1
        = ∑ n ∈ Finset.range ((T + 1) * W), Ideal.div (Ideal.exp (((z n : ℝ) : EReal) - (M : EReal)))
            ((∑ n ∈ Finset.range ((T + 1) * W), Real.exp (z n - M) : ℝ) : EReal) * ((v n : ℝ) : EReal) := by
  obtain ⟨M, hle, hatt, hm, hl⟩ := LibOnlineSoftmax.state_flat hW z T
  have hm' : (flat W z v (T + 1)).1 = (M : EReal) := (state_fst _ _ (T + 1)).trans hm
  have hl' : (flat W z v (T + 1)).2.1 = ((∑ n ∈ Finset.range ((T + 1) * W), Real.exp (z n - M) : ℝ) : EReal) :=
    (state_snd_fst _ _ (T + 1)).trans hl
  have hacc : (flat W z v (T + 1)).2.2
      = ((∑ n ∈ Finset.range ((T + 1) * W), Real.exp (z n - M) * v n : ℝ) : EReal) := by
    rw [acc_eq hW _ _ T M hm', LibOnlineSoftmax.sum_tiles W (fun n => Real.exp (z n - M) * v n) (T + 1)]
  have hpos : 0 < (∑ n ∈ Finset.range ((T + 1) * W), Real.exp (z n - M)) := by
    obtain ⟨n0, hn0, -⟩ := hatt
    exact Finset.sum_pos' (fun n _ => (Real.exp_pos _).le) ⟨n0, Finset.mem_range.2 hn0, Real.exp_pos _⟩
  refine ⟨M, hle, hatt, hpos, hm', hl', hacc, ?_⟩
  rw [hacc, hl']
  exact div_flat (Finset.range ((T + 1) * W)) z v M hpos.ne'

/-- The maximum a reference takes over the first `N` logits, from `-∞`, is any real upper bound that is attained. -/
theorem sup_range_eq (z : ℕ → ℝ) (N : ℕ) (M : ℝ) (hle : ∀ n, n < N → z n ≤ M) (hatt : ∃ n, n < N ∧ z n = M) :
    (Finset.range N).sup (fun n => ((z n : ℝ) : EReal)) = (M : EReal) := by
  obtain ⟨n0, hn0, h0⟩ := hatt
  exact sup_coe_eq_of_attained _ z M (fun n hn => hle n (Finset.mem_range.1 hn)) ⟨n0, Finset.mem_range.2 hn0, h0⟩

/-- The same with the positions as `Fin N`. -/
theorem sup_fin_eq (z : ℕ → ℝ) (N : ℕ) (M : ℝ) (hle : ∀ n, n < N → z n ≤ M) (hatt : ∃ n, n < N ∧ z n = M) :
    (Finset.univ : Finset (Fin N)).sup (fun n => ((z n.val : ℝ) : EReal)) = (M : EReal) := by
  obtain ⟨n0, hn0, h0⟩ := hatt
  exact sup_coe_eq_of_attained _ (fun n : Fin N => z n.val) M (fun n _ => hle n.val n.isLt)
    ⟨⟨n0, hn0⟩, Finset.mem_univ _, h0⟩

/-- Streaming attention against the reference as it is written, nothing named: the output `acc / l` after
    `T + 1` tiles is `Σ_n (exp (z n − mx) / Σ_n' exp (z n' − mx)) · v n` over `n : Fin ((T + 1) · W)`, with `mx` the
    supremum (from `-∞`) of all those logits inside the extended reals. -/
theorem attn_flat_fin {W : ℕ} (hW : 0 < W) (z v : ℕ → ℝ) (T : ℕ) :
    Ideal.div (flat W z v (T + 1)).2.2 (flat W z v (T + 1)).2.1
      = ∑ n : Fin ((T + 1) * W),
          Ideal.div
            (Ideal.exp (((z n.val : ℝ) : EReal)
              - (Finset.univ : Finset (Fin ((T + 1) * W))).sup fun n' => ((z n'.val : ℝ) : EReal)))
            (∑ n' : Fin ((T + 1) * W), Ideal.exp (((z n'.val : ℝ) : EReal)
              - (Finset.univ : Finset (Fin ((T + 1) * W))).sup fun n'' => ((z n''.val : ℝ) : EReal)))
          * ((v n.val : ℝ) : EReal) := by
  obtain ⟨M, hle, hatt, -, -, -, -, hdiv⟩ := attn_flat hW z v T
  rw [hdiv, sup_fin_eq z _ M hle hatt, tile_exp_sum Finset.univ (fun n : Fin ((T + 1) * W) => z n.val) M,
    Fin.sum_univ_eq_sum_range (fun n => Real.exp (z n - M)) ((T + 1) * W),
    Fin.sum_univ_eq_sum_range (fun n => Ideal.div (Ideal.exp (((z n : ℝ) : EReal) - (M : EReal)))
      ((∑ n ∈ Finset.range ((T + 1) * W), Real.exp (z n - M) : ℝ) : EReal) * ((v n : ℝ) : EReal)) ((T + 1) * W)]

/-! ## The scale `1/16` -/

/-- The single-precision pattern of `0.0625` denotes the real `1/16`. -/
theorem ofBits_sixteenth : Ideal.ofBits .f32 0x3D800000#32 = ((1 / 16 : ℝ) : EReal) := by
  simp [Ideal.ofBits, Ideal.ieee, -EReal.coe_mul]; norm_num

/-- The single-precision pattern of `256.0` denotes the real `256`. -/
theorem ofBits_256 : Ideal.ofBits .f32 0x43800000#32 = ((256 : ℝ) : EReal) := by
  simp [Ideal.ofBits, Ideal.ieee, -EReal.coe_mul]; norm_num

/-- The single-precision pattern of `+∞` denotes `+∞`. -/
theorem ofBits_pos_inf : Ideal.ofBits .f32 0x7F800000#32 = ⊤ := by
  simp [Ideal.ofBits, Ideal.ieee]

/-- Multiplying a real by the pattern of `0.0625` divides it by `16`. -/
theorem mul_sixteenth (s : ℝ) : (s : EReal) * Ideal.ofBits .f32 0x3D800000#32 = ((s / 16 : ℝ) : EReal) := by
  rw [ofBits_sixteenth, ← EReal.coe_mul, mul_one_div]

/-- The square root of the pattern of `256.0` is `16`. -/
theorem sqrt_256 : Ideal.sqrt (Ideal.ofBits .f32 0x43800000#32) = ((16 : ℝ) : EReal) := by
  rw [ofBits_256, Ideal.sqrt_coe, if_neg (by norm_num)]
  congr 1
  rw [show (256 : ℝ) = 16 ^ 2 by norm_num]
  exact Real.sqrt_sq (by norm_num)

/-- Dividing a real by the square root of the pattern of `256.0` divides it by `16`. -/
theorem div_sqrt_256 (s : ℝ) :
    Ideal.div (s : EReal) (Ideal.sqrt (Ideal.ofBits .f32 0x43800000#32)) = ((s / 16 : ℝ) : EReal) := by
  rw [sqrt_256]
  exact div_coe_coe s (by norm_num)

/-- So the two scalings of a real agree. -/
theorem mul_sixteenth_eq_div_sqrt_256 (s : ℝ) :
    (s : EReal) * Ideal.ofBits .f32 0x3D800000#32
      = Ideal.div (s : EReal) (Ideal.sqrt (Ideal.ofBits .f32 0x43800000#32)) := by
  rw [mul_sixteenth, div_sqrt_256]

end LibFlashAttn

end
-- ==== Proof.KI.PayAtTile.lean ====
/-
  One tile of the body's streaming softmax, read at an index, over the extended reals.

  From a 1024 × 1024 tile of scaled scores S, the tile's values V, the running maximum m and denominator l (columns)
  and the running accumulator acc, the body computes, row by row,
      m' = max m (max_j S(p, j)),   a = exp (m − m'),   P(p, j) = exp (S(p, j) − m'(p)),
      l' = a · l + Σ_j P(p, j),     acc'(p, d) = a(p) · acc(p, d) + Σ_j P(p, j) · V(j, d).
  The row maximum is a fold of max from the word of minus infinity, which is the supremum over the columns; the row sum
  from the zero word is the plain sum; the product into the zero accumulator is the plain sum; the column casts and
  broadcasts read the row's entry; narrowing is the identity. So at row p and output column d the three new values are
  one step of the streaming-attention recurrence on the row's scores S(p, ·) and the column's values V(·, d).

  The scaled scores themselves are the query tile times the transposed key tile into a zero accumulator, times the
  word of 1/16: at (p, j) the sum over the features e of q(p, e) · K(j, e), times that word.

  Each family of the body's payloads is one of these functions of its operands, by unfolding.
-/
import proofs.«119718_j75144747811056_2_alg».proof.Proof.Gen.KernelIdeal.Skeleton
import proofs.«119718_j75144747811056_2_alg».proof.Proof.LibPlainDot
import proofs.«119718_j75144747811056_2_alg».proof.Proof.LibRowOps
import proofs.«119718_j75144747811056_2_alg».proof.Proof.LibFlashAttn
import Idealize.ShloMosaic.Lib.ValueLayout

noncomputable section

open scoped BigOperators

namespace Cert.KernelIdeal.PayAt

open Cert.KernelIdeal Cert.KernelIdeal.Gen Idealize.ShloMosaic Idealize.ShloMosaic.ValueIdx

/-- The score product has the plain dimension numbers of a 1024×256 by 256×1024 product. -/
theorem dot_score_eq : dot_S1024x256_S256x1024_S1024x1024_1_0_0_1_n_n = DotDims.plain 1024 256 1024 := rfl

/-- The product of probabilities and values has the plain dimension numbers of a 1024×1024 by 1024×256 product. -/
theorem dot_pv_eq : dot_S1024x1024_S1024x256_S1024x256_1_0_0_1_n_n = DotDims.plain 1024 1024 256 := rfl

/-- The word of minus infinity denotes the bottom element, by computation. -/
theorem neg_inf_word : Ideal.ofBits .f32 0xFF800000#32 = (⊥ : EReal) := rfl

/-! ## The scaled scores of a query tile against a key tile -/

/-- The query tile times the transposed key tile into a zero accumulator, times the broadcast word of 1/16. -/
def scoreT (q K : FVec Ideal S1024x256 .bf16) : FVec Ideal S1024x1024 .f32 :=
  mulf (matmul dot_S1024x256_S256x1024_S1024x1024_1_0_0_1_n_n none q
      (transpose S256x1024 [1, 0] K transposes_S1024x256_p1_0_S256x1024) (constant S1024x1024 .f32 0x00000000#32))
    (broadcast S1024x1024 (Scalar.ofBits (F := Ideal) .f32 0x3D800000#32))

/-- At (p, j): the sum over the features of q(p, e) · K(j, e), times the word of 1/16. -/
theorem scoreT_at (q K : FVec Ideal S1024x256 .bf16) (p j : Fin 1024) :
    scoreT q K (ix2 p j) = (∑ e : Fin 256, q (ix2 p e) * K (ix2 j e)) * Ideal.ofBits .f32 0x3D800000#32 := by
  unfold scoreT
  rw [mulf_apply, broadcast_apply, dot_score_eq]
  refine congrArg₂ (· * ·) ?_ rfl
  refine (PlainDot.matmul_zero_apply none _ _ p j).trans (Finset.sum_congr rfl fun e _ => ?_)
  rw [transpose_ix2_apply]

/-! ## One tile's update -/

section Tile

variable (S : FVec Ideal S1024x1024 .f32) (V : FVec Ideal S1024x256 .bf16) (m mr l : FVec Ideal S1024x1 .f32)
  (acc : FVec Ideal S1024x256 .f32)

/-- The new running maximum: the old one against the tile's row maxima stood up as a column. -/
def newM : FVec Ideal S1024x1 .f32 :=
  maximumf m (shapeCast S1024x1
    (multiReduction .maximumf [1] S1024 S 0xFF800000#32 reduces_S1024x1024_S1024 (.inl rfl) rfl) shapeCasts_S1024_S1024x1)

/-- The shifted exponentials of the tile's scores. -/
def probs : FVec Ideal S1024x1024 .f32 :=
  exp (subf S (broadcastTo S1024x1024 (newM S m) broadcasts_S1024x1_S1024x1024))

/-- The new running denominator (the old maximum read a second time as mr). -/
def newL : FVec Ideal S1024x1 .f32 :=
  shapeCast S1024x1 (addf (mulf (exp (subf mr (newM S m))) l)
    (shapeCast S1024x1
      (multiReduction .add [1] S1024 (probs S m) 0x00000000#32 reduces_S1024x1024_S1024 (.inl rfl) rfl) shapeCasts_S1024_S1024x1))
    shapeCasts_S1024x1_S1024x1

/-- The new running accumulator. -/
def newA : FVec Ideal S1024x256 .f32 :=
  shapeCast S1024x256 (addf (mulf (broadcastTo S1024x256 (exp (subf mr (newM S m))) broadcasts_S1024x1_S1024x256) acc)
    (matmul dot_S1024x1024_S1024x256_S1024x256_1_0_0_1_n_n none (truncf .bf16 (probs S m) bitsLt_bf16_f32) V
      (constant S1024x256 .f32 0x00000000#32)))
    shapeCasts_S1024x256_S1024x256

/-- The new maximum of row p: the old one against the supremum of the row's scores. -/
theorem newM_at (p : Fin 1024) :
    newM S m (ix2 p (0 : Fin 1)) = max (m (ix2 p (0 : Fin 1))) (Finset.univ.sup fun j : Fin 1024 => S (ix2 p j)) := by
  unfold newM
  rw [maximumf_apply]
  refine congrArg (max (m (ix2 p (0 : Fin 1)))) ?_
  refine (RowOps.colCast_apply _ shapeCasts_S1024_S1024x1 p).trans ?_
  refine (RowOps.rowMax_vector S 0xFF800000#32 reduces_S1024x1024_S1024 (.inl rfl) rfl p).trans ?_
  rw [neg_inf_word]
  exact LibFlashAttn.fold_max_bot_univ 1024 _

/-- A shifted exponential at (p, j). -/
theorem probs_at (p j : Fin 1024) :
    probs S m (ix2 p j) = Ideal.exp (S (ix2 p j) - newM S m (ix2 p (0 : Fin 1))) := by
  unfold probs
  show Ideal.exp (S (ix2 p j) - broadcastTo S1024x1024 (newM S m) broadcasts_S1024x1_S1024x1024 (ix2 p j)) = _
  rw [RowOps.colBcast_apply]

/-- The new denominator of row p. -/
theorem newL_at (p : Fin 1024) :
    newL S m mr l (ix2 p (0 : Fin 1))
      = Ideal.exp (mr (ix2 p (0 : Fin 1)) - newM S m (ix2 p (0 : Fin 1))) * l (ix2 p (0 : Fin 1))
        + ∑ j : Fin 1024, Ideal.exp (S (ix2 p j) - newM S m (ix2 p (0 : Fin 1))) := by
  unfold newL
  rw [shapeCast_self, addf_apply, mulf_apply]
  refine congrArg₂ (· + ·) rfl ?_
  refine (RowOps.colCast_apply _ shapeCasts_S1024_S1024x1 p).trans ?_
  refine (RowOps.rowSum_vector (probs S m) 0x00000000#32 reduces_S1024x1024_S1024 (.inl rfl) rfl p).trans ?_
  exact Finset.sum_congr rfl fun j _ => probs_at S m p j

/-- The new accumulator at row p and column d. -/
theorem newA_at (p : Fin 1024) (d : Fin 256) :
    newA S V m mr acc (ix2 p d)
      = Ideal.exp (mr (ix2 p (0 : Fin 1)) - newM S m (ix2 p (0 : Fin 1))) * acc (ix2 p d)
        + ∑ j : Fin 1024, Ideal.exp (S (ix2 p j) - newM S m (ix2 p (0 : Fin 1))) * V (ix2 j d) := by
  unfold newA
  rw [shapeCast_self, addf_apply, mulf_apply, RowOps.colBcast_apply, dot_pv_eq]
  refine congrArg₂ (· + ·) rfl ?_
  refine (PlainDot.matmul_zero_apply none _ _ p d).trans (Finset.sum_congr rfl fun j _ => ?_)
  rw [truncf_apply, probs_at]

/-- At row p and column d, one tile's update is one step of the streaming-attention recurrence on the row's scores
    and the column's values. -/
theorem tile_step (p : Fin 1024) (d : Fin 256) (zk vk : Fin 1024 → EReal) (s : EReal × EReal × EReal)
    (hS : ∀ j, S (ix2 p j) = zk j) (hV : ∀ j, V (ix2 j d) = vk j)
    (hm : m (ix2 p (0 : Fin 1)) = s.1) (hmr : mr (ix2 p (0 : Fin 1)) = s.1)
    (hl : l (ix2 p (0 : Fin 1)) = s.2.1) (ha : acc (ix2 p d) = s.2.2) :
    (newM S m (ix2 p (0 : Fin 1)), newL S m mr l (ix2 p (0 : Fin 1)), newA S V m mr acc (ix2 p d))
      = LibFlashAttn.step zk vk s := by
  have hM : newM S m (ix2 p (0 : Fin 1)) = max s.1 (Finset.univ.sup zk) := by
    rw [newM_at, hm]
    exact congrArg (fun f => max s.1 (Finset.univ.sup f)) (funext hS)
  rw [newL_at, newA_at, hM, hmr, hl, ha]
  simp only [hS, hV]
  rfl

end Tile

/-! ## The payloads are these functions -/

section Payloads

variable (v29 : FVec Ideal S1024x1024 .f32) (c : Ideal .f32) (v13 K : FVec Ideal S1024x256 .bf16)
  (V : FVec Ideal S1024x256 .bf16) (m mr l : FVec Ideal S1024x1 .f32) (acc : FVec Ideal S1024x256 .f32)

/-- Tile 0 scales a score product it is handed by a word it is handed. -/
theorem pay11_eq : k0_pay11 (F := Ideal) v29 c m = newM (k0_pay10 v29 c) m := rfl
theorem pay16_eq : k0_pay16 (F := Ideal) v29 c m = newM (k0_pay10 v29 c) m := shapeCast_self _ _
theorem pay14_eq : k0_pay14 (F := Ideal) v29 c m mr l = newL (k0_pay10 v29 c) m mr l := rfl
theorem pay15_eq : k0_pay15 (F := Ideal) V v29 c m mr acc = newA (k0_pay10 v29 c) V m mr acc := rfl

/-- Tile 0's scaled scores, from the query tile and the key tile. -/
theorem pay10_eq (x1 : Vec Ideal S1x1024x256 .f32) (wq : Vec Ideal S256x256 .bf16) (bq : Vec Ideal S256 .f32) :
    k0_pay10 (F := Ideal) (k0_pay9 x1 wq bq K) (Scalar.ofBits .f32 0x3D800000#32) = scoreT (k0_pay5 x1 wq bq) K := rfl

/-- Tile 1 is handed the transposed key tile and the zero accumulator. -/
theorem pay18_eq : k0_pay18 (F := Ideal) v13 (k0_pay17 K) (constant S1024x1024 .f32 0x00000000#32) = scoreT v13 K := rfl
theorem pay19_eq (v64 : FVec Ideal S256x1024 .bf16) (z0 : FVec Ideal S1024x1024 .f32) :
    k0_pay19 (F := Ideal) v13 v64 z0 m = newM (k0_pay18 v13 v64 z0) m := rfl
theorem pay24_eq (v64 : FVec Ideal S256x1024 .bf16) (z0 : FVec Ideal S1024x1024 .f32) :
    k0_pay24 (F := Ideal) v13 v64 z0 m = newM (k0_pay18 v13 v64 z0) m := shapeCast_self _ _
theorem pay22_eq (v64 : FVec Ideal S256x1024 .bf16) (z0 : FVec Ideal S1024x1024 .f32) :
    k0_pay22 (F := Ideal) v13 v64 z0 m mr l = newL (k0_pay18 v13 v64 z0) m mr l := rfl
theorem pay23_eq (v64 : FVec Ideal S256x1024 .bf16) (z0 : FVec Ideal S1024x1024 .f32) :
    k0_pay23 (F := Ideal) v13 V v64 z0 m mr acc = newA (k0_pay18 v13 v64 z0) V m mr acc := rfl

/-- Tile 2. -/
theorem pay25_eq : k0_pay25 (F := Ideal) v13 K = scoreT v13 K := rfl
theorem pay31_eq : k0_pay31 (F := Ideal) v13 K m = newM (k0_pay25 v13 K) m := shapeCast_self _ _
theorem pay29_eq : k0_pay29 (F := Ideal) v13 K m mr l = newL (k0_pay25 v13 K) m mr l := rfl
theorem pay30_eq : k0_pay30 (F := Ideal) v13 K V m mr acc = newA (k0_pay25 v13 K) V m mr acc := rfl

/-- Tile 3. -/
theorem pay32_eq : k0_pay32 (F := Ideal) v13 K = scoreT v13 K := rfl
theorem pay38_eq : k0_pay38 (F := Ideal) v13 K m = newM (k0_pay32 v13 K) m := shapeCast_self _ _
theorem pay36_eq : k0_pay36 (F := Ideal) v13 K m mr l = newL (k0_pay32 v13 K) m mr l := rfl
theorem pay37_eq : k0_pay37 (F := Ideal) v13 K V m mr acc = newA (k0_pay32 v13 K) V m mr acc := rfl

end Payloads

end Cert.KernelIdeal.PayAt

end
-- ==== Proof.KI.PayAtOut.lean ====
/-
  The body's output term read at an index is streaming attention on one query row, over the extended reals.

  At row p of the query tile and output column d, the value the body stores is acc / l after four tiles of the
  streaming-attention recurrence started from (−∞, 0, 0), on the row's scaled scores against the four key tiles,
      z k j = (Σ_e q(p, e) · K_k(j, e)) · (the word of 1/16),     q(p, g) = Σ_f x(0, p, f) · Wq(f, g) + bq(g),
  and the column's values v k j = V_k(j, d). Each of the body's running maximum, denominator and accumulator after a
  tile is the tile update of the ones before it; the start values are the words of minus infinity and of zero; the final
  quotient is taken entry by entry with the denominator's column broadcast along the row, and the leading unit axis of
  the stored block is dropped. No finiteness is needed: every step is an unfolding.
-/
import proofs.«119718_j75144747811056_2_alg».proof.Proof.KI.PayAtProj
import proofs.«119718_j75144747811056_2_alg».proof.Proof.KI.PayAtTile

noncomputable section

open scoped BigOperators

namespace Cert.KernelIdeal.PayAt

open Cert.KernelIdeal Cert.KernelIdeal.Gen Cert.KernelIdeal.Hand Idealize.ShloMosaic Idealize.ShloMosaic.ValueIdx

/-! ## The start values -/

/-- The running maximum starts at minus infinity. -/
theorem pay6_at (p : Fin 1024) : k0_pay6 (F := Ideal) (ix2 p (0 : Fin 1)) = (⊥ : EReal) := by
  unfold k0_pay6
  rw [shapeCast_self, broadcast_apply]
  exact neg_inf_word

/-- The running denominator starts at zero. -/
theorem pay7_at (p : Fin 1024) : k0_pay7 (F := Ideal) (ix2 p (0 : Fin 1)) = (0 : EReal) := by
  unfold k0_pay7
  rw [shapeCast_self, broadcast_apply]
  exact Ideal.ofBits_zero_f32

/-- The running accumulator starts at zero. -/
theorem pay8_at (p : Fin 1024) (d : Fin 256) : k0_pay8 (F := Ideal) (ix2 p d) = (0 : EReal) := by
  unfold k0_pay8
  rw [shapeCast_self, broadcast_apply]
  exact Ideal.ofBits_zero_f32

/-- A triple equal to a given one has its components. -/
theorem triple_eq {a b c : EReal} {t : EReal × EReal × EReal} (h : (a, b, c) = t) : a = t.1 ∧ b = t.2.1 ∧ c = t.2.2 := by
  subst h
  exact ⟨rfl, rfl, rfl⟩

section Term

variable (x1 : Vec Ideal S1x1024x256 .f32) (wq : Vec Ideal S256x256 .bf16) (bq : Vec Ideal S256 .f32)
  (K0 K1 K2 K3 V0 V1 V2 V3 : Vec Ideal S1024x256 .bf16)

/-! ## Each running value is the tile update of the ones before it -/

theorem m1_eq : m1 (F := Ideal) x1 wq bq K0 = newM (scoreT (qT x1 wq bq) K0) k0_pay6 := by
  unfold m1 s0 scaleW qT
  rw [pay16_eq, pay10_eq]

theorem l1_eq : l1 (F := Ideal) x1 wq bq K0 = newL (scoreT (qT x1 wq bq) K0) k0_pay6 k0_pay6 k0_pay7 := by
  unfold l1 s0 scaleW qT
  rw [pay14_eq, pay10_eq]

theorem a1_eq : a1 (F := Ideal) x1 wq bq K0 V0 = newA (scoreT (qT x1 wq bq) K0) V0 k0_pay6 k0_pay6 k0_pay8 := by
  unfold a1 s0 scaleW qT
  rw [pay15_eq, pay10_eq]

theorem m2_eq : m2 (F := Ideal) x1 wq bq K0 K1 = newM (scoreT (qT x1 wq bq) K1) (m1 x1 wq bq K0) := by
  unfold m2 zeroAcc
  rw [pay24_eq, pay18_eq]

theorem l2_eq : l2 (F := Ideal) x1 wq bq K0 K1
    = newL (scoreT (qT x1 wq bq) K1) (m1 x1 wq bq K0) (m1 x1 wq bq K0) (l1 x1 wq bq K0) := by
  unfold l2 zeroAcc
  rw [pay22_eq, pay18_eq]

theorem a2_eq : a2 (F := Ideal) x1 wq bq K0 K1 V0 V1
    = newA (scoreT (qT x1 wq bq) K1) V1 (m1 x1 wq bq K0) (m1 x1 wq bq K0) (a1 x1 wq bq K0 V0) := by
  unfold a2 zeroAcc
  rw [pay23_eq, pay18_eq]

theorem m3_eq : m3 (F := Ideal) x1 wq bq K0 K1 K2 = newM (scoreT (qT x1 wq bq) K2) (m2 x1 wq bq K0 K1) := by
  unfold m3
  rw [pay31_eq, pay25_eq]

theorem l3_eq : l3 (F := Ideal) x1 wq bq K0 K1 K2
    = newL (scoreT (qT x1 wq bq) K2) (m2 x1 wq bq K0 K1) (m2 x1 wq bq K0 K1) (l2 x1 wq bq K0 K1) := by
  unfold l3
  rw [pay29_eq, pay25_eq]

theorem a3_eq : a3 (F := Ideal) x1 wq bq K0 K1 K2 V0 V1 V2
    = newA (scoreT (qT x1 wq bq) K2) V2 (m2 x1 wq bq K0 K1) (m2 x1 wq bq K0 K1) (a2 x1 wq bq K0 K1 V0 V1) := by
  unfold a3
  rw [pay30_eq, pay25_eq]

theorem l4_eq : l4 (F := Ideal) x1 wq bq K0 K1 K2 K3
    = newL (scoreT (qT x1 wq bq) K3) (m3 x1 wq bq K0 K1 K2) (m3 x1 wq bq K0 K1 K2) (l3 x1 wq bq K0 K1 K2) := by
  unfold l4
  rw [pay36_eq, pay32_eq]

theorem a4_eq : a4 (F := Ideal) x1 wq bq K0 K1 K2 K3 V0 V1 V2 V3
    = newA (scoreT (qT x1 wq bq) K3) V3 (m3 x1 wq bq K0 K1 K2) (m3 x1 wq bq K0 K1 K2) (a3 x1 wq bq K0 K1 K2 V0 V1 V2) := by
  unfold a4
  rw [pay37_eq, pay32_eq]

/-! ## The running triple at (p, d) after each tile -/

section Row

variable (p : Fin 1024) (d : Fin 256) (z vv : ℕ → Fin 1024 → EReal)

/-- After tile 0. -/
theorem state1 (hz0 : ∀ j, scoreT (qT x1 wq bq) K0 (ix2 p j) = z 0 j) (hv0 : ∀ j, V0 (ix2 j d) = vv 0 j) :
    (m1 (F := Ideal) x1 wq bq K0 (ix2 p (0 : Fin 1)), l1 (F := Ideal) x1 wq bq K0 (ix2 p (0 : Fin 1)),
        a1 (F := Ideal) x1 wq bq K0 V0 (ix2 p d)) = LibFlashAttn.stateE z vv 1 := by
  rw [m1_eq, l1_eq, a1_eq]
  refine Eq.trans ?_ (LibFlashAttn.stateE_succ z vv 0).symm
  exact tile_step _ V0 _ _ _ _ p d (z 0) (vv 0) (⊥, 0, 0) hz0 hv0 (pay6_at p) (pay6_at p) (pay7_at p) (pay8_at p d)

/-- After tile 1. -/
theorem state2 (hz0 : ∀ j, scoreT (qT x1 wq bq) K0 (ix2 p j) = z 0 j) (hv0 : ∀ j, V0 (ix2 j d) = vv 0 j)
    (hz1 : ∀ j, scoreT (qT x1 wq bq) K1 (ix2 p j) = z 1 j) (hv1 : ∀ j, V1 (ix2 j d) = vv 1 j) :
    (m2 (F := Ideal) x1 wq bq K0 K1 (ix2 p (0 : Fin 1)), l2 (F := Ideal) x1 wq bq K0 K1 (ix2 p (0 : Fin 1)),
        a2 (F := Ideal) x1 wq bq K0 K1 V0 V1 (ix2 p d)) = LibFlashAttn.stateE z vv 2 := by
  obtain ⟨hm, hl, ha⟩ := triple_eq (state1 x1 wq bq K0 V0 p d z vv hz0 hv0)
  rw [m2_eq, l2_eq, a2_eq]
  refine Eq.trans ?_ (LibFlashAttn.stateE_succ z vv 1).symm
  exact tile_step _ V1 _ _ _ _ p d (z 1) (vv 1) _ hz1 hv1 hm hm hl ha

/-- After tile 2. -/
theorem state3 (hz0 : ∀ j, scoreT (qT x1 wq bq) K0 (ix2 p j) = z 0 j) (hv0 : ∀ j, V0 (ix2 j d) = vv 0 j)
    (hz1 : ∀ j, scoreT (qT x1 wq bq) K1 (ix2 p j) = z 1 j) (hv1 : ∀ j, V1 (ix2 j d) = vv 1 j)
    (hz2 : ∀ j, scoreT (qT x1 wq bq) K2 (ix2 p j) = z 2 j) (hv2 : ∀ j, V2 (ix2 j d) = vv 2 j) :
    (m3 (F := Ideal) x1 wq bq K0 K1 K2 (ix2 p (0 : Fin 1)), l3 (F := Ideal) x1 wq bq K0 K1 K2 (ix2 p (0 : Fin 1)),
        a3 (F := Ideal) x1 wq bq K0 K1 K2 V0 V1 V2 (ix2 p d)) = LibFlashAttn.stateE z vv 3 := by
  obtain ⟨hm, hl, ha⟩ := triple_eq (state2 x1 wq bq K0 K1 V0 V1 p d z vv hz0 hv0 hz1 hv1)
  rw [m3_eq, l3_eq, a3_eq]
  refine Eq.trans ?_ (LibFlashAttn.stateE_succ z vv 2).symm
  exact tile_step _ V2 _ _ _ _ p d (z 2) (vv 2) _ hz2 hv2 hm hm hl ha

/-- After tile 3 (the body keeps the last maximum only inside the other two). -/
theorem state4 (hz0 : ∀ j, scoreT (qT x1 wq bq) K0 (ix2 p j) = z 0 j) (hv0 : ∀ j, V0 (ix2 j d) = vv 0 j)
    (hz1 : ∀ j, scoreT (qT x1 wq bq) K1 (ix2 p j) = z 1 j) (hv1 : ∀ j, V1 (ix2 j d) = vv 1 j)
    (hz2 : ∀ j, scoreT (qT x1 wq bq) K2 (ix2 p j) = z 2 j) (hv2 : ∀ j, V2 (ix2 j d) = vv 2 j)
    (hz3 : ∀ j, scoreT (qT x1 wq bq) K3 (ix2 p j) = z 3 j) (hv3 : ∀ j, V3 (ix2 j d) = vv 3 j) :
    (newM (scoreT (qT x1 wq bq) K3) (m3 (F := Ideal) x1 wq bq K0 K1 K2) (ix2 p (0 : Fin 1)),
        l4 (F := Ideal) x1 wq bq K0 K1 K2 K3 (ix2 p (0 : Fin 1)),
        a4 (F := Ideal) x1 wq bq K0 K1 K2 K3 V0 V1 V2 V3 (ix2 p d)) = LibFlashAttn.stateE z vv 4 := by
  obtain ⟨hm, hl, ha⟩ := triple_eq (state3 x1 wq bq K0 K1 K2 V0 V1 V2 p d z vv hz0 hv0 hz1 hv1 hz2 hv2)
  rw [l4_eq, a4_eq]
  refine Eq.trans ?_ (LibFlashAttn.stateE_succ z vv 3).symm
  exact tile_step _ V3 _ _ _ _ p d (z 3) (vv 3) _ hz3 hv3 hm hm hl ha

/-- The stored value at (0, p, d): the accumulator over the denominator after the four tiles, for any tiled scores
    and values that the four score tiles' row p and the four value tiles' column d are. -/
theorem outTerm_at_of_scores (hz0 : ∀ j, scoreT (qT x1 wq bq) K0 (ix2 p j) = z 0 j) (hv0 : ∀ j, V0 (ix2 j d) = vv 0 j)
    (hz1 : ∀ j, scoreT (qT x1 wq bq) K1 (ix2 p j) = z 1 j) (hv1 : ∀ j, V1 (ix2 j d) = vv 1 j)
    (hz2 : ∀ j, scoreT (qT x1 wq bq) K2 (ix2 p j) = z 2 j) (hv2 : ∀ j, V2 (ix2 j d) = vv 2 j)
    (hz3 : ∀ j, scoreT (qT x1 wq bq) K3 (ix2 p j) = z 3 j) (hv3 : ∀ j, V3 (ix2 j d) = vv 3 j) :
    outTerm (F := Ideal) x1 wq bq K0 K1 K2 K3 V0 V1 V2 V3 (ix3 (0 : Fin 1) p d)
      = Ideal.div (LibFlashAttn.stateE z vv 4).2.2 (LibFlashAttn.stateE z vv 4).2.1 := by
  obtain ⟨-, hl, ha⟩ := triple_eq (state4 x1 wq bq K0 K1 K2 K3 V0 V1 V2 V3 p d z vv hz0 hv0 hz1 hv1 hz2 hv2 hz3 hv3)
  unfold outTerm k0_pay1
  rw [shapeCast_ab_1ab_apply, divf_apply, RowOps.colBcast_apply, ha, hl]

end Row

/-! ## The scores and values written out -/

/-- The query row: the linear layer of the query block. -/
def qrow (p : Fin 1024) (g : Fin 256) : EReal :=
  (∑ f : Fin 256, x1 (ix3 (0 : Fin 1) p f) * wq (ix2 f g)) + bq (ix1 g)

/-- A score tile's row p, written out. -/
theorem scoreT_qT_at (K : Vec Ideal S1024x256 .bf16) (p j : Fin 1024) :
    scoreT (qT x1 wq bq) K (ix2 p j)
      = (∑ e : Fin 256, qrow x1 wq bq p e * K (ix2 j e)) * Ideal.ofBits .f32 0x3D800000#32 := by
  rw [scoreT_at]
  simp only [qT_at]
  rfl

/-- Row p's scaled scores against the four key tiles (the fourth repeated past the end). -/
def zrow (p : Fin 1024) : ℕ → Fin 1024 → EReal
  | 0 => fun j => (∑ e : Fin 256, qrow x1 wq bq p e * K0 (ix2 j e)) * Ideal.ofBits .f32 0x3D800000#32
  | 1 => fun j => (∑ e : Fin 256, qrow x1 wq bq p e * K1 (ix2 j e)) * Ideal.ofBits .f32 0x3D800000#32
  | 2 => fun j => (∑ e : Fin 256, qrow x1 wq bq p e * K2 (ix2 j e)) * Ideal.ofBits .f32 0x3D800000#32
  | _ => fun j => (∑ e : Fin 256, qrow x1 wq bq p e * K3 (ix2 j e)) * Ideal.ofBits .f32 0x3D800000#32

/-- Column d of the four value tiles (the fourth repeated past the end). -/
def vcol (d : Fin 256) : ℕ → Fin 1024 → EReal
  | 0 => fun j => V0 (ix2 j d)
  | 1 => fun j => V1 (ix2 j d)
  | 2 => fun j => V2 (ix2 j d)
  | _ => fun j => V3 (ix2 j d)

/-- The stored value at (0, p, d), for any tiled scores and values given by the written-out formulas. -/
theorem outTerm_at_of (p : Fin 1024) (d : Fin 256) (z vv : ℕ → Fin 1024 → EReal)
    (hz0 : ∀ j, z 0 j = (∑ e : Fin 256, qrow x1 wq bq p e * K0 (ix2 j e)) * Ideal.ofBits .f32 0x3D800000#32)
    (hz1 : ∀ j, z 1 j = (∑ e : Fin 256, qrow x1 wq bq p e * K1 (ix2 j e)) * Ideal.ofBits .f32 0x3D800000#32)
    (hz2 : ∀ j, z 2 j = (∑ e : Fin 256, qrow x1 wq bq p e * K2 (ix2 j e)) * Ideal.ofBits .f32 0x3D800000#32)
    (hz3 : ∀ j, z 3 j = (∑ e : Fin 256, qrow x1 wq bq p e * K3 (ix2 j e)) * Ideal.ofBits .f32 0x3D800000#32)
    (hv0 : ∀ j, vv 0 j = V0 (ix2 j d)) (hv1 : ∀ j, vv 1 j = V1 (ix2 j d))
    (hv2 : ∀ j, vv 2 j = V2 (ix2 j d)) (hv3 : ∀ j, vv 3 j = V3 (ix2 j d)) :
    outTerm (F := Ideal) x1 wq bq K0 K1 K2 K3 V0 V1 V2 V3 (ix3 (0 : Fin 1) p d)
      = Ideal.div (LibFlashAttn.stateE z vv 4).2.2 (LibFlashAttn.stateE z vv 4).2.1 :=
  outTerm_at_of_scores x1 wq bq K0 K1 K2 K3 V0 V1 V2 V3 p d z vv
    (fun j => (scoreT_qT_at x1 wq bq K0 p j).trans (hz0 j).symm) (fun j => (hv0 j).symm)
    (fun j => (scoreT_qT_at x1 wq bq K1 p j).trans (hz1 j).symm) (fun j => (hv1 j).symm)
    (fun j => (scoreT_qT_at x1 wq bq K2 p j).trans (hz2 j).symm) (fun j => (hv2 j).symm)
    (fun j => (scoreT_qT_at x1 wq bq K3 p j).trans (hz3 j).symm) (fun j => (hv3 j).symm)

/-- The stored value at (0, p, d) is the accumulator over the denominator after four tiles of the streaming-attention
    recurrence on row p's scaled scores and column d's values. -/
theorem outTerm_at (p : Fin 1024) (d : Fin 256) :
    outTerm (F := Ideal) x1 wq bq K0 K1 K2 K3 V0 V1 V2 V3 (ix3 (0 : Fin 1) p d)
      = Ideal.div (LibFlashAttn.stateE (zrow x1 wq bq K0 K1 K2 K3 p) (vcol V0 V1 V2 V3 d) 4).2.2
          (LibFlashAttn.stateE (zrow x1 wq bq K0 K1 K2 K3 p) (vcol V0 V1 V2 V3 d) 4).2.1 :=
  outTerm_at_of x1 wq bq K0 K1 K2 K3 V0 V1 V2 V3 p d _ _ (fun _ => rfl) (fun _ => rfl) (fun _ => rfl) (fun _ => rfl)
    (fun _ => rfl) (fun _ => rfl) (fun _ => rfl) (fun _ => rfl)

end Term

end Cert.KernelIdeal.PayAt

end
-- ==== Proof.Spec.lean ====
/-
  Scaled dot-product self-attention on the extended reals, index by index — the one function both programs of this
  certificate compute.

  From an input `x` of shape [4, 4096, 256] (batch, position, feature) and three linear layers (a weight [256, 256]
  and a bias [256] each), the queries, keys and values are `x · Wᵀ + b`:
      q(b, n, g) = Σ_f x(b, n, f) · Wq(g, f) + bq(g),          likewise k and v.
  The score of query position `n` against key position `n'` is the dot product over the 256 features, scaled by
  1/16 = 1/√256:
      s(b, n, n') = (Σ_d q(b, n, d) · k(b, n', d)) · (1/16).
  Each query's scores are normalised by the softmax over the 4096 key positions, shifted by the row's maximum,
      w(b, n, n') = exp (s(b, n, n') − max_{n''} s(b, n, n'')) / Σ_{n''} exp (s(b, n, n'') − max …),
  and the result averages the values with these weights:
      out(b, n, d) = Σ_{n'} w(b, n, n') · v(b, n', d).
  Exponential and quotient are the ideal float instance's (`Ideal.exp`, `Ideal.div`); the maximum is the supremum
  over the finite index set in the extended reals (bottom for an empty set, never the case here).
-/
import Idealize.ShloMosaic.PureOps.Ideal
import Idealize.ShloMosaic.Lib.ValueIdx

noncomputable section

open scoped BigOperators

namespace Cert.Attn

open Idealize.ShloMosaic Idealize.ShloMosaic.ValueIdx

/-- The input's shape, a weight's and a bias's. -/
abbrev SX : Shape := ⟨3, ![4, 4096, 256]⟩
abbrev SW : Shape := ⟨2, ![256, 256]⟩
abbrev SB : Shape := ⟨1, ![256]⟩

/-- A linear layer `x · Wᵀ + b` at batch `bi`, position `n`, output feature `g`. -/
def proj (x : SX.Idx → EReal) (W : SW.Idx → EReal) (b : SB.Idx → EReal) (bi : Fin 4) (n : Fin 4096) (g : Fin 256) : EReal :=
  (∑ f : Fin 256, x (ix3 bi n f) * W (ix2 g f)) + b (ix1 g)

/-- The scaled score of query position `n` against key position `n'`. -/
def score (q k : Fin 4 → Fin 4096 → Fin 256 → EReal) (bi : Fin 4) (n n' : Fin 4096) : EReal :=
  (∑ d : Fin 256, q bi n d * k bi n' d) * ((1 / 16 : ℝ) : EReal)

/-- A query's largest score. -/
def rowMax (s : Fin 4 → Fin 4096 → Fin 4096 → EReal) (bi : Fin 4) (n : Fin 4096) : EReal :=
  Finset.univ.sup fun n' : Fin 4096 => s bi n n'

/-- The shifted exponentials' sum, the softmax's denominator. -/
def rowDen (s : Fin 4 → Fin 4096 → Fin 4096 → EReal) (bi : Fin 4) (n : Fin 4096) : EReal :=
  ∑ n' : Fin 4096, Ideal.exp (s bi n n' - rowMax s bi n)

/-- The softmax weight of key position `n'` for query position `n`. -/
def weight (s : Fin 4 → Fin 4096 → Fin 4096 → EReal) (bi : Fin 4) (n n' : Fin 4096) : EReal :=
  Ideal.div (Ideal.exp (s bi n n' - rowMax s bi n)) (rowDen s bi n)

/-- Attention from given queries, keys and values. -/
def attend (q k v : Fin 4 → Fin 4096 → Fin 256 → EReal) (bi : Fin 4) (n : Fin 4096) (d : Fin 256) : EReal :=
  ∑ n' : Fin 4096, weight (score q k) bi n n' * v bi n' d

/-- The whole function of the seven argument arrays, as an array of the input's shape. -/
def G (x : SX.Idx → EReal) (Wq : SW.Idx → EReal) (bq : SB.Idx → EReal) (Wk : SW.Idx → EReal) (bk : SB.Idx → EReal)
    (Wv : SW.Idx → EReal) (bv : SB.Idx → EReal) : SX.Idx → EReal :=
  fun i => attend (proj x Wq bq) (proj x Wk bk) (proj x Wv bv) (i 0) (i 1) (i 2)

end Cert.Attn

end
-- ==== Proof.AttendFlash.lean ====
/-
  The reference-shaped attention is the streaming recurrence.

  For queries, keys and values with real entries, the softmax attention of one query position over the 4096 key
  positions — scores `(q · k) · (1/16)`, shifted by their maximum, exponentiated, normalised by their sum, and
  averaged against one column of the values — is what the streaming recurrence computes over four tiles of 1024
  key positions: tile `i`, column `j` is key position `i · 1024 + j`. The scores are real numbers (finite sums of
  products of reals), so the streaming-attention law applies; the four tiles of 1024 re-index the 4096 positions.
  Also: a linear layer of real arrays has real entries.
-/
import proofs.«119718_j75144747811056_2_alg».proof.Proof.Spec
import proofs.«119718_j75144747811056_2_alg».proof.Proof.LibFlashAttn

noncomputable section

open scoped BigOperators

namespace Cert.AttendFlash

open Idealize.ShloMosaic Idealize.ShloMosaic.ValueIdx Cert.Attn

/-- Key position of column `j` of key tile `i`: `i · 1024 + j`. -/
def keyRow (i : Fin 4) (j : Fin 1024) : Fin 4096 := ⟨i.val * 1024 + j.val, by omega⟩

theorem keyRow_val (i : Fin 4) (j : Fin 1024) : (keyRow i j).val = i.val * 1024 + j.val := rfl

/-- A function on the 4096 positions laid out as a sequence (zero past the end). -/
def flatOf (f : Fin 4096 → ℝ) (m : ℕ) : ℝ := if h : m < 4096 then f ⟨m, h⟩ else 0

theorem flatOf_val (f : Fin 4096 → ℝ) (n' : Fin 4096) : flatOf f n'.val = f n' := by
  unfold flatOf; rw [dif_pos n'.isLt]

theorem flatOf_tile (f : Fin 4096 → ℝ) (i : Fin 4) (j : Fin 1024) :
    flatOf f (i.val * 1024 + j.val) = f (keyRow i j) := by
  have h : i.val * 1024 + j.val < 4096 := (keyRow i j).isLt
  unfold flatOf; rw [dif_pos h]; rfl

/-- The real scaled score. -/
def scoreR (qr kr : Fin 4 → Fin 4096 → Fin 256 → ℝ) (bi : Fin 4) (n n' : Fin 4096) : ℝ :=
  (∑ e : Fin 256, qr bi n e * kr bi n' e) * (1 / 16)

/-- The scaled score of real queries and keys is the real scaled score. -/
theorem score_coe (qr kr : Fin 4 → Fin 4096 → Fin 256 → ℝ) (bi : Fin 4) (n n' : Fin 4096) :
    score (fun b m g => ((qr b m g : ℝ) : EReal)) (fun b m g => ((kr b m g : ℝ) : EReal)) bi n n'
      = ((scoreR qr kr bi n n' : ℝ) : EReal) := by
  unfold score scoreR
  rw [EReal.coe_mul, ← LibOnlineSoftmax.coe_sum]
  congr 1

/-- Softmax-weighted averaging over 4096 real scores is the streaming recurrence over four tiles of 1024: the sum over
    the positions of `exp (s − max s) / Σ exp (s − max s)` times the value is `acc / l` after the fourth tile. -/
theorem softmax_flash (s u : Fin 4096 → ℝ) :
    (∑ n' : Fin 4096,
        Ideal.div (Ideal.exp (((s n' : ℝ) : EReal) - Finset.univ.sup fun n'' : Fin 4096 => ((s n'' : ℝ) : EReal)))
            (∑ n'' : Fin 4096,
              Ideal.exp (((s n'' : ℝ) : EReal) - Finset.univ.sup fun n''' : Fin 4096 => ((s n''' : ℝ) : EReal)))
          * ((u n' : ℝ) : EReal))
      = Ideal.div (LibFlashAttn.flat 1024 (flatOf s) (flatOf u) 4).2.2
          (LibFlashAttn.flat 1024 (flatOf s) (flatOf u) 4).2.1 := by
  refine Eq.trans ?_ (LibFlashAttn.attn_flat_fin (W := 1024) (by norm_num) (flatOf s) (flatOf u) 3).symm
  simp only [← flatOf_val s, ← flatOf_val u]

/-- Attention of real queries, keys and values is the streaming recurrence over the four key tiles. -/
theorem attend_coe (qr kr vr : Fin 4 → Fin 4096 → Fin 256 → ℝ) (bi : Fin 4) (n : Fin 4096) (d : Fin 256) :
    attend (fun b m g => ((qr b m g : ℝ) : EReal)) (fun b m g => ((kr b m g : ℝ) : EReal))
        (fun b m g => ((vr b m g : ℝ) : EReal)) bi n d
      = Ideal.div (LibFlashAttn.flat 1024 (flatOf (scoreR qr kr bi n)) (flatOf fun n' => vr bi n' d) 4).2.2
          (LibFlashAttn.flat 1024 (flatOf (scoreR qr kr bi n)) (flatOf fun n' => vr bi n' d) 4).2.1 := by
  unfold attend weight rowDen rowMax
  simp only [score_coe]
  exact softmax_flash (scoreR qr kr bi n) (fun n' => vr bi n' d)

/-- THE SPECIFICATION IS THE STREAMING RECURRENCE. For queries, keys and values with real entries, and any tile
    sequences `z`, `vv` that on the four key tiles are the scaled scores of query position `n` (scaled by the pattern of
    `0.0625`) and column `d` of the values, attention at `(bi, n, d)` is `acc / l` of the streaming recurrence after the
    fourth tile. -/
theorem attend_eq_flash (q k v : Fin 4 → Fin 4096 → Fin 256 → EReal)
    (hq : ∀ b m g, ∃ r : ℝ, q b m g = (r : EReal)) (hk : ∀ b m g, ∃ r : ℝ, k b m g = (r : EReal))
    (hv : ∀ b m g, ∃ r : ℝ, v b m g = (r : EReal)) (bi : Fin 4) (n : Fin 4096) (d : Fin 256)
    (z vv : ℕ → Fin 1024 → EReal)
    (hz : ∀ (i : Fin 4) (j : Fin 1024),
      z i.val j = (∑ e : Fin 256, q bi n e * k bi (keyRow i j) e) * Ideal.ofBits .f32 0x3D800000#32)
    (hvv : ∀ (i : Fin 4) (j : Fin 1024), vv i.val j = v bi (keyRow i j) d) :
    attend q k v bi n d
      = Ideal.div (LibFlashAttn.stateE z vv 4).2.2 (LibFlashAttn.stateE z vv 4).2.1 := by
  choose qr hqr using hq
  choose kr hkr using hk
  choose vr hvr using hv
  obtain rfl : q = fun b m g => ((qr b m g : ℝ) : EReal) := funext fun b => funext fun m => funext fun g => hqr b m g
  obtain rfl : k = fun b m g => ((kr b m g : ℝ) : EReal) := funext fun b => funext fun m => funext fun g => hkr b m g
  obtain rfl : v = fun b m g => ((vr b m g : ℝ) : EReal) := funext fun b => funext fun m => funext fun g => hvr b m g
  have hstate : LibFlashAttn.stateE z vv 4
      = LibFlashAttn.flat 1024 (flatOf (scoreR qr kr bi n)) (flatOf fun n' => vr bi n' d) 4 := by
    refine LibFlashAttn.stateE_congr _ _ _ _ 4 (fun i hi => funext fun j => ?_) (fun i hi => funext fun j => ?_)
    · refine (hz ⟨i, hi⟩ j).trans ?_
      show _ = ((flatOf (scoreR qr kr bi n) ((⟨i, hi⟩ : Fin 4).val * 1024 + j.val) : ℝ) : EReal)
      rw [flatOf_tile, ← score_coe, LibFlashAttn.ofBits_sixteenth]
      rfl
    · refine (hvv ⟨i, hi⟩ j).trans ?_
      show _ = ((flatOf (fun n' => vr bi n' d) ((⟨i, hi⟩ : Fin 4).val * 1024 + j.val) : ℝ) : EReal)
      rw [flatOf_tile]
  rw [hstate]
  exact attend_coe qr kr vr bi n d

/-! ## The linear layers -/

/-- A linear layer of real arrays has real entries: a finite sum of products of reals plus a real. -/
theorem proj_real (x : SX.Idx → EReal) (W : SW.Idx → EReal) (b : SB.Idx → EReal)
    (hx : ∀ i, ∃ r : ℝ, x i = (r : EReal)) (hW : ∀ i, ∃ r : ℝ, W i = (r : EReal)) (hb : ∀ i, ∃ r : ℝ, b i = (r : EReal))
    (bi : Fin 4) (n : Fin 4096) (g : Fin 256) : ∃ r : ℝ, proj x W b bi n g = (r : EReal) := by
  choose xr hxr using hx
  choose Wr hWr using hW
  choose br hbr using hb
  refine ⟨(∑ f : Fin 256, xr (ix3 bi n f) * Wr (ix2 g f)) + br (ix1 g), ?_⟩
  unfold proj
  rw [EReal.coe_add, ← LibOnlineSoftmax.coe_sum, hbr]
  congr 1
  exact Finset.sum_congr rfl fun f _ => by rw [hxr, hWr, EReal.coe_mul]

/-- The whole function of seven real arrays, at one index, is the streaming recurrence over the four key tiles of the
    projected queries, keys and values. -/
theorem G_eq_flash (x : SX.Idx → EReal) (Wq : SW.Idx → EReal) (bq : SB.Idx → EReal) (Wk : SW.Idx → EReal)
    (bk : SB.Idx → EReal) (Wv : SW.Idx → EReal) (bv : SB.Idx → EReal)
    (hx : ∀ i, ∃ r : ℝ, x i = (r : EReal)) (hWq : ∀ i, ∃ r : ℝ, Wq i = (r : EReal)) (hbq : ∀ i, ∃ r : ℝ, bq i = (r : EReal))
    (hWk : ∀ i, ∃ r : ℝ, Wk i = (r : EReal)) (hbk : ∀ i, ∃ r : ℝ, bk i = (r : EReal))
    (hWv : ∀ i, ∃ r : ℝ, Wv i = (r : EReal)) (hbv : ∀ i, ∃ r : ℝ, bv i = (r : EReal))
    (bi : Fin 4) (n : Fin 4096) (d : Fin 256) (z vv : ℕ → Fin 1024 → EReal)
    (hz : ∀ (i : Fin 4) (j : Fin 1024),
      z i.val j = (∑ e : Fin 256, proj x Wq bq bi n e * proj x Wk bk bi (keyRow i j) e) * Ideal.ofBits .f32 0x3D800000#32)
    (hvv : ∀ (i : Fin 4) (j : Fin 1024), vv i.val j = proj x Wv bv bi (keyRow i j) d) :
    G x Wq bq Wk bk Wv bv (ix3 bi n d)
      = Ideal.div (LibFlashAttn.stateE z vv 4).2.2 (LibFlashAttn.stateE z vv 4).2.1 :=
  attend_eq_flash _ _ _ (proj_real x Wq bq hx hWq hbq) (proj_real x Wk bk hx hWk hbk) (proj_real x Wv bv hx hWv hbv)
    bi n d z vv hz hvv

end Cert.AttendFlash

end
-- ==== Proof.KI.BlockValue.lean ====
/-
  The value the body stores for one query tile is the specification's attention at the tile's rows.

  The body works on one batch and one tile of 1024 query positions. Its key and value scratch hold the batch's projected
  keys and values, 4096 rows each, which it loads as four tiles of 1024 rows: row j of tile k is row 1024·k + j. Its
  query block holds the input rows of the tile, its query weight the transposed weight. With real arguments the
  specification's attention at batch bt, query position 1024·qi + p and output column d is the streaming recurrence
  over four tiles of 1024 key positions on the scaled scores of that query row and on column d of the values; the
  body's stored value at (0, p, d) is the same recurrence on the same scores and values, entry by entry: the body's
  query row is the specification's projected query (the weight read transposed), and a tile's row is the projected key
  or value at its key position.
-/
import proofs.«119718_j75144747811056_2_alg».proof.Proof.KI.PayAtOut
import proofs.«119718_j75144747811056_2_alg».proof.Proof.KI.Tiles
import proofs.«119718_j75144747811056_2_alg».proof.Proof.AttendFlash

noncomputable section

open scoped BigOperators

namespace Cert.KernelIdeal.BlockValue

open Cert.KernelIdeal Cert.KernelIdeal.Gen Cert.KernelIdeal.Hand Cert.KernelIdeal.PayAt Idealize.ShloMosaic
  Idealize.ShloMosaic.ValueIdx
open Cert.AttendFlash (keyRow)

/-! ## The four tiles of a 4096-row scratch buffer -/

/-- Row j of tile 0 is row j. -/
theorem tile0_at (xs : Vec Ideal S4096x256 .bf16) (j : Fin 1024) (e : Fin 256) (r : Fin 4096) (hr : r.val = 0 * 1024 + j.val) :
    tile0 xs (ix2 j e) = xs (ix2 r e) := by
  refine congrArg xs (funext fun a => Fin.ext ?_)
  match a with
  | ⟨0, _⟩ => show 0 + 1 * j.val = r.val; omega
  | ⟨1, _⟩ => show 0 + 1 * e.val = e.val; omega

/-- Row j of tile 1 is row 1024 + j. -/
theorem tile1_at (xs : Vec Ideal S4096x256 .bf16) (j : Fin 1024) (e : Fin 256) (r : Fin 4096) (hr : r.val = 1 * 1024 + j.val) :
    tile1 xs (ix2 j e) = xs (ix2 r e) := by
  refine congrArg xs (funext fun a => Fin.ext ?_)
  match a with
  | ⟨0, _⟩ => show 1024 + 1 * j.val = r.val; omega
  | ⟨1, _⟩ => show 0 + 1 * e.val = e.val; omega

/-- Row j of tile 2 is row 2048 + j. -/
theorem tile2_at (xs : Vec Ideal S4096x256 .bf16) (j : Fin 1024) (e : Fin 256) (r : Fin 4096) (hr : r.val = 2 * 1024 + j.val) :
    tile2 xs (ix2 j e) = xs (ix2 r e) := by
  refine congrArg xs (funext fun a => Fin.ext ?_)
  match a with
  | ⟨0, _⟩ => show 2048 + 1 * j.val = r.val; omega
  | ⟨1, _⟩ => show 0 + 1 * e.val = e.val; omega

/-- Row j of tile 3 is row 3072 + j. -/
theorem tile3_at (xs : Vec Ideal S4096x256 .bf16) (j : Fin 1024) (e : Fin 256) (r : Fin 4096) (hr : r.val = 3 * 1024 + j.val) :
    tile3 xs (ix2 j e) = xs (ix2 r e) := by
  refine congrArg xs (funext fun a => Fin.ext ?_)
  match a with
  | ⟨0, _⟩ => show 3072 + 1 * j.val = r.val; omega
  | ⟨1, _⟩ => show 0 + 1 * e.val = e.val; omega

/-! ## A linear layer of the body is the specification's, the weight read transposed -/

/-- The sum over the input features plus the bias, of a block that holds batch bt's rows, a weight that holds the
    specification's weight transposed and the specification's bias, is the specification's linear layer. -/
theorem linear_eq_proj (X : Cert.Attn.SX.Idx → EReal) (W : Cert.Attn.SW.Idx → EReal) (b : Cert.Attn.SB.Idx → EReal)
    (bt : Fin 4) (n : Fin 4096) (g : Fin 256) (xrow : Fin 256 → EReal) (w : Vec Ideal S256x256 .bf16) (b' : Vec Ideal S256 .f32)
    (hxrow : ∀ f, xrow f = X (ix3 bt n f)) (hw : ∀ f g, w (ix2 f g) = W (ix2 g f)) (hb : ∀ g, b' (ix1 g) = b (ix1 g)) :
    (∑ f : Fin 256, xrow f * w (ix2 f g)) + b' (ix1 g) = Cert.Attn.proj X W b bt n g := by
  unfold Cert.Attn.proj
  rw [hb]
  exact congrArg (· + b (ix1 g)) (Finset.sum_congr rfl fun f _ => by rw [hxrow, hw])

/-- The key scratch holds the specification's projected keys. -/
theorem kTerm_eq_proj (xf : Vec Ideal S1x4096x256 .f32) (w : Vec Ideal S256x256 .bf16) (b' : Vec Ideal S256 .f32)
    (X : Cert.Attn.SX.Idx → EReal) (W : Cert.Attn.SW.Idx → EReal) (b : Cert.Attn.SB.Idx → EReal) (bt : Fin 4)
    (hxf : ∀ (r : Fin 4096) (f : Fin 256), xf (ix3 (0 : Fin 1) r f) = X (ix3 bt r f))
    (hw : ∀ f g, w (ix2 f g) = W (ix2 g f)) (hb : ∀ g, b' (ix1 g) = b (ix1 g)) (r : Fin 4096) (g : Fin 256) :
    kTerm (F := Ideal) xf w b' (ix2 r g) = Cert.Attn.proj X W b bt r g :=
  (kTerm_at xf w b' r g).trans (linear_eq_proj X W b bt r g _ w b' (fun f => hxf r f) hw hb)

/-- The value scratch holds the specification's projected values. -/
theorem vTerm_eq_proj (xf : Vec Ideal S1x4096x256 .f32) (w : Vec Ideal S256x256 .bf16) (b' : Vec Ideal S256 .f32)
    (X : Cert.Attn.SX.Idx → EReal) (W : Cert.Attn.SW.Idx → EReal) (b : Cert.Attn.SB.Idx → EReal) (bt : Fin 4)
    (hxf : ∀ (r : Fin 4096) (f : Fin 256), xf (ix3 (0 : Fin 1) r f) = X (ix3 bt r f))
    (hw : ∀ f g, w (ix2 f g) = W (ix2 g f)) (hb : ∀ g, b' (ix1 g) = b (ix1 g)) (r : Fin 4096) (g : Fin 256) :
    vTerm (F := Ideal) xf w b' (ix2 r g) = Cert.Attn.proj X W b bt r g :=
  (vTerm_at xf w b' r g).trans (linear_eq_proj X W b bt r g _ w b' (fun f => hxf r f) hw hb)

/-! ## The stored block is the specification's attention -/

section Block

variable (X : Cert.Attn.SX.Idx → EReal) (Wq : Cert.Attn.SW.Idx → EReal) (bq : Cert.Attn.SB.Idx → EReal)
  (Wk : Cert.Attn.SW.Idx → EReal) (bk : Cert.Attn.SB.Idx → EReal) (Wv : Cert.Attn.SW.Idx → EReal) (bv : Cert.Attn.SB.Idx → EReal)

/-- Query position n's scaled scores against the four tiles of key positions (the fourth repeated past the end). -/
def zspec (bt : Fin 4) (n : Fin 4096) : ℕ → Fin 1024 → EReal
  | 0 => fun j => (∑ e : Fin 256, Cert.Attn.proj X Wq bq bt n e * Cert.Attn.proj X Wk bk bt (keyRow 0 j) e)
      * Ideal.ofBits .f32 0x3D800000#32
  | 1 => fun j => (∑ e : Fin 256, Cert.Attn.proj X Wq bq bt n e * Cert.Attn.proj X Wk bk bt (keyRow 1 j) e)
      * Ideal.ofBits .f32 0x3D800000#32
  | 2 => fun j => (∑ e : Fin 256, Cert.Attn.proj X Wq bq bt n e * Cert.Attn.proj X Wk bk bt (keyRow 2 j) e)
      * Ideal.ofBits .f32 0x3D800000#32
  | _ => fun j => (∑ e : Fin 256, Cert.Attn.proj X Wq bq bt n e * Cert.Attn.proj X Wk bk bt (keyRow 3 j) e)
      * Ideal.ofBits .f32 0x3D800000#32

/-- Column d of the projected values at the four tiles of key positions (the fourth repeated past the end). -/
def vspec (bt : Fin 4) (d : Fin 256) : ℕ → Fin 1024 → EReal
  | 0 => fun j => Cert.Attn.proj X Wv bv bt (keyRow 0 j) d
  | 1 => fun j => Cert.Attn.proj X Wv bv bt (keyRow 1 j) d
  | 2 => fun j => Cert.Attn.proj X Wv bv bt (keyRow 2 j) d
  | _ => fun j => Cert.Attn.proj X Wv bv bt (keyRow 3 j) d

/-- The value the body stores at row p and column d of query tile qi of batch bt is the specification's attention at
    batch bt, query position 1024·qi + p and column d, for real arguments. -/
theorem outTerm_eq_G
    (hX : ∀ i, ∃ r : ℝ, X i = (r : EReal)) (hWq : ∀ i, ∃ r : ℝ, Wq i = (r : EReal)) (hbq : ∀ i, ∃ r : ℝ, bq i = (r : EReal))
    (hWk : ∀ i, ∃ r : ℝ, Wk i = (r : EReal)) (hbk : ∀ i, ∃ r : ℝ, bk i = (r : EReal))
    (hWv : ∀ i, ∃ r : ℝ, Wv i = (r : EReal)) (hbv : ∀ i, ∃ r : ℝ, bv i = (r : EReal))
    (bt qi : Fin 4) (x1 : Vec Ideal S1x1024x256 .f32) (wq : Vec Ideal S256x256 .bf16) (bq' : Vec Ideal S256 .f32)
    (Ks Vs : Vec Ideal S4096x256 .bf16)
    (hx1 : ∀ (p : Fin 1024) (f : Fin 256),
      x1 (ix3 (0 : Fin 1) p f) = X (ix3 bt (⟨qi.val * 1024 + p.val, by omega⟩ : Fin 4096) f))
    (hwq : ∀ f g, wq (ix2 f g) = Wq (ix2 g f)) (hbq' : ∀ g, bq' (ix1 g) = bq (ix1 g))
    (hK : ∀ (r : Fin 4096) (g : Fin 256), Ks (ix2 r g) = Cert.Attn.proj X Wk bk bt r g)
    (hV : ∀ (r : Fin 4096) (g : Fin 256), Vs (ix2 r g) = Cert.Attn.proj X Wv bv bt r g)
    (p : Fin 1024) (d : Fin 256) :
    outTerm (F := Ideal) x1 wq bq' (tile0 Ks) (tile1 Ks) (tile2 Ks) (tile3 Ks) (tile0 Vs) (tile1 Vs) (tile2 Vs) (tile3 Vs)
        (ix3 (0 : Fin 1) p d)
      = Cert.Attn.G X Wq bq Wk bk Wv bv (ix3 bt (⟨qi.val * 1024 + p.val, by omega⟩ : Fin 4096) d) := by
  have hq : ∀ e, qrow x1 wq bq' p e = Cert.Attn.proj X Wq bq bt (⟨qi.val * 1024 + p.val, by omega⟩ : Fin 4096) e :=
    fun e => linear_eq_proj X Wq bq bt _ e _ wq bq' (fun f => hx1 p f) hwq hbq'
  have hz : ∀ (i : Fin 4) (T : Vec Ideal S1024x256 .bf16),
      (∀ (j : Fin 1024) (e : Fin 256), T (ix2 j e) = Ks (ix2 (keyRow i j) e)) → ∀ j : Fin 1024,
      (∑ e : Fin 256, Cert.Attn.proj X Wq bq bt (⟨qi.val * 1024 + p.val, by omega⟩ : Fin 4096) e
            * Cert.Attn.proj X Wk bk bt (keyRow i j) e) * Ideal.ofBits .f32 0x3D800000#32
        = (∑ e : Fin 256, qrow x1 wq bq' p e * T (ix2 j e)) * Ideal.ofBits .f32 0x3D800000#32 :=
    fun i T hT j => congrArg (· * Ideal.ofBits .f32 0x3D800000#32)
      (Finset.sum_congr rfl fun e _ => by rw [hq, hT, hK])
  have hv : ∀ (i : Fin 4) (T : Vec Ideal S1024x256 .bf16),
      (∀ (j : Fin 1024) (e : Fin 256), T (ix2 j e) = Vs (ix2 (keyRow i j) e)) → ∀ j : Fin 1024,
      Cert.Attn.proj X Wv bv bt (keyRow i j) d = T (ix2 j d) :=
    fun i T hT j => by rw [hT, hV]
  refine (outTerm_at_of x1 wq bq' _ _ _ _ _ _ _ _ p d
    (zspec X Wq bq Wk bk bt (⟨qi.val * 1024 + p.val, by omega⟩ : Fin 4096)) (vspec X Wv bv bt d)
    (hz 0 _ fun j e => tile0_at Ks j e _ rfl) (hz 1 _ fun j e => tile1_at Ks j e _ rfl)
    (hz 2 _ fun j e => tile2_at Ks j e _ rfl) (hz 3 _ fun j e => tile3_at Ks j e _ rfl)
    (hv 0 _ fun j e => tile0_at Vs j e _ rfl) (hv 1 _ fun j e => tile1_at Vs j e _ rfl)
    (hv 2 _ fun j e => tile2_at Vs j e _ rfl) (hv 3 _ fun j e => tile3_at Vs j e _ rfl)).trans ?_
  refine (Cert.AttendFlash.G_eq_flash X Wq bq Wk bk Wv bv hX hWq hbq hWk hbk hWv hbv bt _ d _ _ ?_ ?_).symm
  · intro i j
    match i with
    | ⟨0, _⟩ => rfl
    | ⟨1, _⟩ => rfl
    | ⟨2, _⟩ => rfl
    | ⟨3, _⟩ => rfl
  · intro i j
    match i with
    | ⟨0, _⟩ => rfl
    | ⟨1, _⟩ => rfl
    | ⟨2, _⟩ => rfl
    | ⟨3, _⟩ => rfl

end Block

end Cert.KernelIdeal.BlockValue

end
-- ==== Proof.Finite.lean ====
/-
  Finiteness of the inputs from the precondition.

  The precondition is the conjunction, over the seven argument arrays, of "every entry's absolute value is below
  `+∞`": each array's comparison `|a| < +∞` entry by entry, reduced by `and` over all axes from `true`, the seven
  results and-ed together. If the result is `true` then every entry of every array is a real number: in the extended
  reals `|x| = max x (-x)` is `+∞` at both infinities, so `|x| < +∞` leaves the reals.
-/
import proofs.«119718_j75144747811056_2_alg».proof.Pre_finite_inputs
import proofs.«119718_j75144747811056_2_alg».proof.Proof.LibFlashAttn
import Idealize.ShloMosaic.Lib.ReduceAll
import Idealize.ShloMosaic.Lib.ValueIdx

noncomputable section

namespace Cert.Finite

open Idealize.ShloMosaic Cert.Pre_finite_inputs

/-- The scalar shape has one index. -/
instance : Subsingleton S_.Idx := ⟨fun a b => funext fun d => d.elim0⟩

/-- An extended real whose absolute value compares below `+∞` is a real number. -/
theorem real_of_abs_lt_top (x : EReal) (h : Ideal.cmp .olt (max x (-x)) ⊤ = 1#1) : ∃ r : ℝ, x = (r : EReal) := by
  induction x using EReal.rec with
  | bot => exact absurd h (by simp [Ideal.cmp])
  | coe r => exact ⟨r, rfl⟩
  | top => exact absurd h (by simp [Ideal.cmp])

/-- One array: if the reduction by `and` of `|a| < +∞` over all axes is `true`, every entry of `a` is real. -/
theorem real_of_all {s : Shape} {axes : List (Fin s.rank)} (a : FVec Ideal s .f32) (dims : Fin S_.rank → Fin s.rank)
    (hb : S_.BroadcastsInDim s dims) (hr : s.ReducesTo axes S_) (hu : 0 < S_.numel)
    (e : Host.reduce IntOp.andi (cmpf .olt (Host.absf a) (broadcastInDim s dims hb (constant (F := Ideal) S_ .f32 0x7F800000#32)))
          (constantI S_ 1 1#1) hr hu ValueIdx.ix0 = 1#1) (i : s.Idx) : ∃ r : ℝ, a i = (r : EReal) := by
  have h := Host.reduce_andi_all _ _ hr hu ValueIdx.ix0 e i
  apply real_of_abs_lt_top
  rw [← LibFlashAttn.ofBits_pos_inf]
  exact h

/-- A conjunction of two scalar truth values that is `true` has both `true`. -/
theorem and_split (a b : IVec S_ 1) (h : andi a b ValueIdx.ix0 = 1#1) :
    a ValueIdx.ix0 = 1#1 ∧ b ValueIdx.ix0 = 1#1 :=
  IntOp.andi_eq_one.1 h

variable [Facts]

/-- THE PRECONDITION DECODED: if `finite_inputs` of the seven arrays is `true`, every entry of each is a real number. -/
theorem finite (x : FVec Ideal S4x4096x256 .f32) (Wq : FVec Ideal S256x256 .f32) (bq : FVec Ideal S256 .f32)
    (Wk : FVec Ideal S256x256 .f32) (bk : FVec Ideal S256 .f32) (Wv : FVec Ideal S256x256 .f32) (bv : FVec Ideal S256 .f32)
    (h : fn (F := Ideal) x Wq bq Wk bk Wv bv = fun _ => 1#1) :
    (∀ i, ∃ r : ℝ, x i = (r : EReal)) ∧ (∀ i, ∃ r : ℝ, Wq i = (r : EReal)) ∧ (∀ i, ∃ r : ℝ, bq i = (r : EReal))
      ∧ (∀ i, ∃ r : ℝ, Wk i = (r : EReal)) ∧ (∀ i, ∃ r : ℝ, bk i = (r : EReal))
      ∧ (∀ i, ∃ r : ℝ, Wv i = (r : EReal)) ∧ (∀ i, ∃ r : ℝ, bv i = (r : EReal)) := by
  have e := congrFun h ValueIdx.ix0
  dsimp only [fn, fn_part1] at e
  obtain ⟨e, h6⟩ := and_split _ _ e
  obtain ⟨e, h5⟩ := and_split _ _ e
  obtain ⟨e, h4⟩ := and_split _ _ e
  obtain ⟨e, h3⟩ := and_split _ _ e
  obtain ⟨e, h2⟩ := and_split _ _ e
  obtain ⟨h0, h1⟩ := and_split _ _ e
  exact ⟨real_of_all x _ _ _ _ h0, real_of_all Wq _ _ _ _ h1, real_of_all bq _ _ _ _ h2, real_of_all Wk _ _ _ _ h3,
    real_of_all bk _ _ _ _ h4, real_of_all Wv _ _ _ _ h5, real_of_all bv _ _ _ _ h6⟩

end Cert.Finite

end
-- ==== Proof.KI.Value.lean ====
/-
  What the attention kernel's result array holds, at the ideal instance: the attention function of the seven
  arguments.

  The keys and values a batch's first point projects into the scratch buffers are the linear layers `x · Wkᵀ + bk`,
  `x · Wvᵀ + bv` of the batch's 4096 rows, and they stay through the batch's other three points (induction on the
  point). So at every point the output's staging buffer holds the streaming-softmax term of the point's query tile
  against those keys and values, which — the inputs being finite — is the softmax attention of the specification,
  entry by entry: block `t` of the attention array. The sixteen blocks tile the array, so it ends holding the
  attention array whole.
-/
import proofs.«119718_j75144747811056_2_alg».proof.Proof.KI.Pieces
import proofs.«119718_j75144747811056_2_alg».proof.Proof.KI.Blocks
import proofs.«119718_j75144747811056_2_alg».proof.Proof.KI.BlockValue
import proofs.«119718_j75144747811056_2_alg».proof.Proof.Finite

set_option maxRecDepth 16384
set_option maxHeartbeats 1600000

noncomputable section

namespace Cert.KernelIdeal.Value

open Cert.KernelIdeal Cert.KernelIdeal.Gen Cert.KernelIdeal.Hand
open Cert.KernelIdeal.Blocks (bt qrow)
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The seven arguments on device `c`, as the specification reads them. -/
abbrev aX (c : Dev nD) : Cert.Attn.SX.Idx → EReal := m ((c : Thread nD τ).loc main_arg0)
abbrev aWq (c : Dev nD) : Cert.Attn.SW.Idx → EReal := m ((c : Thread nD τ).loc main_arg1)
abbrev abq (c : Dev nD) : Cert.Attn.SB.Idx → EReal := m ((c : Thread nD τ).loc main_arg2)
abbrev aWk (c : Dev nD) : Cert.Attn.SW.Idx → EReal := m ((c : Thread nD τ).loc main_arg3)
abbrev abk (c : Dev nD) : Cert.Attn.SB.Idx → EReal := m ((c : Thread nD τ).loc main_arg4)
abbrev aWv (c : Dev nD) : Cert.Attn.SW.Idx → EReal := m ((c : Thread nD τ).loc main_arg5)
abbrev abv (c : Dev nD) : Cert.Attn.SB.Idx → EReal := m ((c : Thread nD τ).loc main_arg6)

/-- The attention array of device `c`'s arguments. -/
abbrev GA (c : Dev nD) : Cert.Attn.SX.Idx → EReal :=
  Cert.Attn.G (aX m c) (aWq m c) (abq m c) (aWk m c) (abk m c) (aWv m c) (abv m c)

/-- Every entry of the seven arguments is a real number. -/
def Fin7 (c : Dev nD) : Prop :=
  (∀ i, ∃ r : ℝ, aX m c i = (r : EReal)) ∧ (∀ i, ∃ r : ℝ, aWq m c i = (r : EReal)) ∧ (∀ i, ∃ r : ℝ, abq m c i = (r : EReal))
    ∧ (∀ i, ∃ r : ℝ, aWk m c i = (r : EReal)) ∧ (∀ i, ∃ r : ℝ, abk m c i = (r : EReal))
    ∧ (∀ i, ∃ r : ℝ, aWv m c i = (r : EReal)) ∧ (∀ i, ∃ r : ℝ, abv m c i = (r : EReal))

/-- Batch `b`'s projected keys and values, as [4096, 256] arrays. -/
def Ks (c : Dev nD) (b : Fin 4) : Vec Ideal S4096x256 .bf16 := fun i => Cert.Attn.proj (aX m c) (aWk m c) (abk m c) b (i 0) (i 1)
def Vs (c : Dev nD) (b : Fin 4) : Vec Ideal S4096x256 .bf16 := fun i => Cert.Attn.proj (aX m c) (aWv m c) (abv m c) b (i 0) (i 1)

theorem N16 : cfg0.N = 16 := N_0
/-- Point `t`'s batch and query tile. -/
def qt (t : Fin cfg0.N) : Fin 4 := ⟨t.val % 4, by omega⟩

/-! ## The carried keys and values -/

/-- What the first-tile case stores into the key scratch at point `t` is batch `bt t`'s projected keys, -/
theorem kTerm_iblk (c : Dev nD) (t : Fin cfg0.N) :
    kTerm (F := Ideal) (iblk m c 0 t) (iblk m c 4 t) (iblk m c 5 t) = Ks m c (bt t) := by
  funext i
  obtain ⟨r, g, rfl⟩ : ∃ (r : Fin 4096) (g : Fin 256), i = ix2 r g := ⟨i 0, i 1, eq_ix2 i⟩
  exact BlockValue.kTerm_eq_proj _ _ _ (aX m c) (aWk m c) (abk m c) (bt t)
    (fun r f => Blocks.blk0_apply m c t r f) (fun f g => Blocks.blk4_apply m c t f g) (fun g => Blocks.blk5_apply m c t g) r g

/-- and into the value scratch its projected values. -/
theorem vTerm_iblk (c : Dev nD) (t : Fin cfg0.N) :
    vTerm (F := Ideal) (iblk m c 0 t) (iblk m c 6 t) (iblk m c 7 t) = Vs m c (bt t) := by
  funext i
  obtain ⟨r, g, rfl⟩ : ∃ (r : Fin 4096) (g : Fin 256), i = ix2 r g := ⟨i 0, i 1, eq_ix2 i⟩
  exact BlockValue.vTerm_eq_proj _ _ _ (aX m c) (aWv m c) (abv m c) (bt t)
    (fun r f => Blocks.blk0_apply m c t r f) (fun f g => Blocks.blk6_apply m c t f g) (fun g => Blocks.blk7_apply m c t g) r g

/-- After every point the key and value scratch hold the point's batch's projected keys and values: stored at the
    batch's first point, untouched at its other three. -/
theorem carried (c : Dev nD) : ∀ (n : ℕ) (h : n < cfg0.N),
    (outsAt0 m c n h).2.1 = Ks m c (bt ⟨n, h⟩) ∧ (outsAt0 m c n h).2.2 = Vs m c (bt ⟨n, h⟩)
  | 0, h => by
    rw [outsAt0_A m c ⟨0, h⟩ rfl]
    dsimp only
    rw [sout0_A_0_eq, sout0_A_1_eq]
    exact ⟨kTerm_iblk m c ⟨0, h⟩, vTerm_iblk m c ⟨0, h⟩⟩
  | n + 1, h => by
    by_cases h0 : (n + 1) % 4 = 0
    · rw [outsAt0_A m c ⟨n + 1, h⟩ h0]
      dsimp only
      rw [sout0_A_0_eq, sout0_A_1_eq]
      exact ⟨kTerm_iblk m c ⟨n + 1, h⟩, vTerm_iblk m c ⟨n + 1, h⟩⟩
    · rw [outsAt0_B m c ⟨n + 1, h⟩ h0]
      have ih := carried c n (Nat.lt_of_succ_lt h)
      have hb : bt ⟨n + 1, h⟩ = bt ⟨n, Nat.lt_of_succ_lt h⟩ := Fin.ext (by show (n + 1) / 4 = n / 4; omega)
      rw [hb]
      dsimp only
      exact ih

/-! ## What a point leaves in the output's staging buffer -/

/-- The streaming-softmax term of the point's query tile against its batch's projected keys and values. -/
theorem out_eq (c : Dev nD) (t : Fin cfg0.N) :
    (outsAt0 m c t.val t.isLt).1
      = outTerm (iblk m c 1 t) (iblk m c 2 t) (iblk m c 3 t) (tile0 (Ks m c (bt t))) (tile1 (Ks m c (bt t))) (tile2 (Ks m c (bt t))) (tile3 (Ks m c (bt t))) (tile0 (Vs m c (bt t))) (tile1 (Vs m c (bt t))) (tile2 (Vs m c (bt t))) (tile3 (Vs m c (bt t))) := by
  by_cases h0 : t.val % 4 = 0
  · rw [outsAt0_A m c t h0]
    dsimp only
    rw [out0_A_8_eq, kTerm_iblk, vTerm_iblk]
  · rw [outsAt0_B m c t h0]
    dsimp only
    rw [out0_B_8_eq]
    have ih := carried m c (t.val - 1) (Nat.lt_of_le_of_lt (Nat.sub_le _ _) t.isLt)
    have hb : bt ⟨t.val - 1, Nat.lt_of_le_of_lt (Nat.sub_le _ _) t.isLt⟩ = bt t := Fin.ext (by show (t.val - 1) / 4 = t.val / 4; omega)
    rw [ih.1, ih.2, hb]

/-! ## The result array -/

/-- WHAT POINT `t` WRITES BACK is block `t` of the attention array. -/
theorem flushed_eq (c : Dev nD) (hfin : Fin7 m c) (t : Fin cfg0.N) (hf : (cfg0.win 8).flush t = true) :
    (dats m 0 c).flushed 8 t = ((cfg0.win 8).blk t).view.read (Elt Ideal) (GA m c) := by
  show (cfg0.win 8).cut (grid0.coords t) ((dats m 0 c).after 8 t) = _
  rw [after0_8, out_eq]
  obtain ⟨hX, hWq, hbq, hWk, hbk, hWv, hbv⟩ := hfin
  refine funext fun (y : S1x1024x256.Idx) => ?_
  obtain ⟨a, p, d, rfl⟩ : ∃ (a : Fin 1) (p : Fin 1024) (d : Fin 256), y = ix3 a p d := ⟨y 0, y 1, y 2, eq_ix3 y⟩
  obtain rfl : a = (0 : Fin 1) := Subsingleton.elim _ _
  show outTerm (F := Ideal) _ _ _ _ _ _ _ _ _ _ _ (ix3 (0 : Fin 1) p d) = GA m c (((cfg0.win 8).blk t).view.emb (ix3 (0 : Fin 1) p d))
  rw [Blocks.emb8 t p d]
  exact BlockValue.outTerm_eq_G (aX m c) (aWq m c) (abq m c) (aWk m c) (abk m c) (aWv m c) (abv m c) hX hWq hbq hWk hbk hWv hbv
    (bt t) (qt t) _ _ _ (Ks m c (bt t)) (Vs m c (bt t))
    (fun p f => Blocks.blk1_apply m c t p f) (fun f g => Blocks.blk2_apply m c t f g) (fun g => Blocks.blk3_apply m c t g)
    (fun r g => rfl) (fun r g => rfl) p d

/-- THE ARRAY after the run: the attention array, whole (the sixteen blocks tile it). -/
theorem final8 (c : Dev nD) (hfin : Fin7 m c) : (dats m 0 c).arrAt 8 cfg0.N = GA m c :=
  (dats m 0 c).arrAt_eq_of_cover 8 (GA m c) (fun t hf => flushed_eq m c hfin t hf) Blocks.cover8

/-- THE KERNEL'S RUN, read: under finiteness of the arguments every weakly fair execution terminates without a fault,
    the result array at the attention array of the arguments, the arguments unchanged. -/
theorem run (hfin : ∀ c, Fin7 m c) : θ_run defs (onTc (τ := τ) (main (F := Ideal))) ⟨m, fun _ => 0, ρ⟩ (fun r => ∀ c : Dev nD,
      r.2.mem ((c.tc : Thread nD τ).loc main_v6) = GA m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).1 8).trans (final8 m c (hfin c)),
     ((h c).1 0).trans ((arr_in m c 0 rfl).trans (V_main_arg0 m c)),
     ((h c).2 main_arg1 (Pipeline.mem_restRefs_of _ rfl (by decide))).trans (V_main_arg1 m c),
     ((h c).1 3).trans ((arr_in m c 3 rfl).trans (V_main_arg2 m c)),
     ((h c).2 main_arg3 (Pipeline.mem_restRefs_of _ rfl (by decide))).trans (V_main_arg3 m c),
     ((h c).1 5).trans ((arr_in m c 5 rfl).trans (V_main_arg4 m c)),
     ((h c).2 main_arg5 (Pipeline.mem_restRefs_of _ rfl (by decide))).trans (V_main_arg5 m c),
     ((h c).1 7).trans ((arr_in m c 7 rfl).trans (V_main_arg6 m c))⟩) (run_main m ρ)

end Cert.KernelIdeal.Value

end
-- ==== Proof.RefConsts.lean ====
/-
  The float words the reference program spells, as the extended reals they denote, and the scale they make:
  the word of 256.0 is the real 256, whose square root is 16, so that dividing by it is multiplying by 1/16 on every
  extended real; the word of minus infinity is the bottom element.
-/
import proofs.«119718_j75144747811056_2_alg».proof.Proof.LibFlashAttn

noncomputable section

namespace Cert.RefConsts

open Idealize.ShloMosaic

/-- The word of 256.0 denotes the real 256. -/
theorem ofBits_256 : Ideal.ofBits .f32 0x43800000#32 = ((256 : ℝ) : EReal) := LibFlashAttn.ofBits_256

/-- The word of minus infinity denotes the bottom element: its exponent field is all ones, its fraction zero and its
    sign set, which the pattern's reading decides by computation. -/
theorem ofBits_neg_inf : Ideal.ofBits .f32 0xFF800000#32 = (⊥ : EReal) := rfl

/-- The square root of 256 is 16. -/
theorem sqrt_256 : Ideal.sqrt ((256 : ℝ) : EReal) = ((16 : ℝ) : EReal) := by
  rw [← LibFlashAttn.ofBits_256]
  exact LibFlashAttn.sqrt_256

/-- Dividing by the square root of the word of 256.0 is multiplying by 1/16, on every extended real. -/
theorem div_sqrt_256 (s : EReal) :
    Ideal.div s (Ideal.sqrt (Ideal.ofBits .f32 0x43800000#32)) = s * ((1 / 16 : ℝ) : EReal) := by
  rw [LibFlashAttn.sqrt_256, Ideal.div_coe (by norm_num : (16 : ℝ) ≠ 0)]

end Cert.RefConsts

end
-- ==== Proof.LibLastAxisMax.lean ====
/-
  The host's maximum over the last axis of a three-axis array, read at an index, over the extended reals.

  For an a × b × c array reduced over its last axis by the host's reduce with a maximum body, the result at (p, q)
  is the fold of max, from the initial value, over the c entries (p, q, j). Putting coordinate k back on the
  dropped last axis of the result index (p, q) gives the source index (p, q, k).
-/
import Idealize.ShloMosaic.Lib.ValueIdx
import Idealize.ShloMosaic.PureOps.Ideal.Laws
import Idealize.ShloMosaic.PureOps.Reduce

noncomputable section

namespace Idealize.ShloMosaic.LastAxisMax

open Idealize.ShloMosaic Idealize.ShloMosaic.ValueIdx

variable {a b c : Nat}

/-- Result index (p, q) with coordinate k put back on the last axis is (p, q, k). -/
theorem lift_last (h : (⟨3, ![a, b, c]⟩ : Shape).Reduces [2] (⟨2, ![a, b]⟩ : Shape)) (p : Fin a) (q : Fin b)
    (k : Fin ((⟨3, ![a, b, c]⟩ : Shape).size 2)) : h.lift (ix2 p q) k = ix3 p q (⟨k.val, k.isLt⟩ : Fin c) := by
  funext d; apply Fin.ext
  fin_cases d <;> rfl

/-- The host's maximum over the last axis at (p, q): the fold of max over the entries (p, q, j) from the initial value. -/
theorem lastMax_host (x : FVec Ideal ⟨3, ![a, b, c]⟩ .f32) (init : (⟨0, ![]⟩ : Shape).Idx → Ideal .f32)
    (h' : (⟨3, ![a, b, c]⟩ : Shape).ReducesTo [2] (⟨2, ![a, b]⟩ : Shape))
    (h : (⟨3, ![a, b, c]⟩ : Shape).Reduces [2] (⟨2, ![a, b]⟩ : Shape)) (hu : 0 < (⟨0, ![]⟩ : Shape).numel)
    (p : Fin a) (q : Fin b) :
    Host.reduce FloatOps.maximumf x init h' hu (ix2 p q)
      = (Finset.univ : Finset (Fin c)).fold max (init (Shape.Idx.first hu)) (fun j => x (ix3 p q j)) := by
  rw [Host.reduce_eq_fold_single FloatOps.maximumf x init h' h hu]
  have hf : (x ∘ h.lift (ix2 p q)) = fun k : Fin c => x (ix3 p q k) :=
    funext fun k => congrArg x (lift_last h p q k)
  exact congrArg (fun f => Finset.fold max (init (Shape.Idx.first hu)) f (Finset.univ : Finset (Fin c))) hf

end Idealize.ShloMosaic.LastAxisMax

end
-- ==== Proof.RefValue.lean ====
/-
  The reference program's result, read one operation at a time, is the attention function of its seven arguments.

  Every step is an identity on all extended reals, so no finiteness is asked of the arguments: a contraction is a
  plain sum; a bias broadcast along the batch and position axes is the bias at the feature; dividing by the square
  root of 256 is multiplying by 1/16; the maximum with minus infinity is the other operand; the maximum over the last
  axis, folded from minus infinity, is the supremum over the key positions; the sum over the last axis from zero is
  the sum; exponential and quotient are the ideal ones.
-/
import proofs.«119718_j75144747811056_2_alg».proof.Proof.Gen.ReferenceIdeal.Run
import proofs.«119718_j75144747811056_2_alg».proof.Proof.Gen.ReferenceIdeal.Read
import proofs.«119718_j75144747811056_2_alg».proof.Proof.Spec
import proofs.«119718_j75144747811056_2_alg».proof.Proof.RefConsts
import proofs.«119718_j75144747811056_2_alg».proof.Proof.LibLastAxisMax

noncomputable section

open scoped BigOperators

namespace Cert.ReferenceIdeal.RefValue

open Cert.ReferenceIdeal Cert.ReferenceIdeal.Gen Cert.ReferenceIdeal.Read Idealize.ShloMosaic Idealize.ShloMosaic.ValueIdx
open Cert.Attn (proj score rowMax rowDen weight attend G)

/-! ## The three linear layers -/

/-- The first product plus its broadcast bias is the linear layer of the first weight and bias: the queries. -/
theorem query_at (x : FVec Ideal S4x4096x256 .f32) (W : FVec Ideal S256x256 .f32) (b : FVec Ideal S256 .f32)
    (bi : Fin 4) (n : Fin 4096) (g : Fin 256) :
    val_main_v3 (F := Ideal) x W b (ix3 bi n g) = proj x W b bi n g := by
  have el : ∀ k : Fin 256, lidx_main_v0 (ix3 bi n g) k = ix3 bi n k := fun k => funext fun a => Fin.ext (by
    match a with | ⟨0, _⟩ => rfl | ⟨1, _⟩ => rfl | ⟨2, _⟩ => rfl)
  have er : ∀ k : Fin 256, ridx_main_v0 (ix3 bi n g) k = ix2 g k := fun k => funext fun a => Fin.ext (by
    match a with | ⟨0, _⟩ => rfl | ⟨1, _⟩ => rfl)
  have eb : idx_main_v1 (idx_main_v2 (ix3 bi n g)) = ix1 g := funext fun a => Fin.ext (by
    match a with | ⟨0, _⟩ => rfl)
  rw [val_main_v3_apply, val_main_v0_apply, val_main_v2_apply, val_main_v1_apply, eb]
  simp only [el, er, Ideal.addf_def]
  rfl

/-- The second product plus its broadcast bias is the linear layer of the second weight and bias: the keys. -/
theorem key_at (x : FVec Ideal S4x4096x256 .f32) (W : FVec Ideal S256x256 .f32) (b : FVec Ideal S256 .f32)
    (bi : Fin 4) (n : Fin 4096) (g : Fin 256) :
    val_main_v7 (F := Ideal) x W b (ix3 bi n g) = proj x W b bi n g := by
  have el : ∀ k : Fin 256, lidx_main_v4 (ix3 bi n g) k = ix3 bi n k := fun k => funext fun a => Fin.ext (by
    match a with | ⟨0, _⟩ => rfl | ⟨1, _⟩ => rfl | ⟨2, _⟩ => rfl)
  have er : ∀ k : Fin 256, ridx_main_v4 (ix3 bi n g) k = ix2 g k := fun k => funext fun a => Fin.ext (by
    match a with | ⟨0, _⟩ => rfl | ⟨1, _⟩ => rfl)
  have eb : idx_main_v5 (idx_main_v6 (ix3 bi n g)) = ix1 g := funext fun a => Fin.ext (by
    match a with | ⟨0, _⟩ => rfl)
  rw [val_main_v7_apply, val_main_v4_apply, val_main_v6_apply, val_main_v5_apply, eb]
  simp only [el, er, Ideal.addf_def]
  rfl

/-- The third product plus its broadcast bias is the linear layer of the third weight and bias: the values. -/
theorem value_at (x : FVec Ideal S4x4096x256 .f32) (W : FVec Ideal S256x256 .f32) (b : FVec Ideal S256 .f32)
    (bi : Fin 4) (n : Fin 4096) (g : Fin 256) :
    val_main_v11 (F := Ideal) x W b (ix3 bi n g) = proj x W b bi n g := by
  have el : ∀ k : Fin 256, lidx_main_v8 (ix3 bi n g) k = ix3 bi n k := fun k => funext fun a => Fin.ext (by
    match a with | ⟨0, _⟩ => rfl | ⟨1, _⟩ => rfl | ⟨2, _⟩ => rfl)
  have er : ∀ k : Fin 256, ridx_main_v8 (ix3 bi n g) k = ix2 g k := fun k => funext fun a => Fin.ext (by
    match a with | ⟨0, _⟩ => rfl | ⟨1, _⟩ => rfl)
  have eb : idx_main_v9 (idx_main_v10 (ix3 bi n g)) = ix1 g := funext fun a => Fin.ext (by
    match a with | ⟨0, _⟩ => rfl)
  rw [val_main_v11_apply, val_main_v8_apply, val_main_v10_apply, val_main_v9_apply, eb]
  simp only [el, er, Ideal.addf_def]
  rfl

/-! ## The scores -/

/-- The contraction of queries against keys over the features, divided by the square root of 256, is the scaled
    score: the quotient is the product with 1/16 on every extended real. -/
theorem score_at (x : FVec Ideal S4x4096x256 .f32) (Wq : FVec Ideal S256x256 .f32) (bq : FVec Ideal S256 .f32)
    (Wk : FVec Ideal S256x256 .f32) (bk : FVec Ideal S256 .f32) (bi : Fin 4) (n n' : Fin 4096) :
    val_main_v15 (F := Ideal) x Wq bq Wk bk (ix3 bi n n') = score (proj x Wq bq) (proj x Wk bk) bi n n' := by
  have el : ∀ k : Fin 256, lidx_main_v13 (ix3 bi n n') k = ix3 bi n k := fun k => funext fun a => Fin.ext (by
    match a with | ⟨0, _⟩ => rfl | ⟨1, _⟩ => rfl | ⟨2, _⟩ => rfl)
  have er : ∀ k : Fin 256, ridx_main_v13 (ix3 bi n n') k = ix3 bi n' k := fun k => funext fun a => Fin.ext (by
    match a with | ⟨0, _⟩ => rfl | ⟨1, _⟩ => rfl | ⟨2, _⟩ => rfl)
  rw [val_main_v15_apply, val_main_v13_apply, val_main_v14_apply, val_main_v12_apply, val_main_cst_apply]
  simp only [el, er, query_at, key_at, Ideal.hostDivf_def, Ideal.hostUnary_sqrt_def, Ideal.ofBits_def,
    Cert.RefConsts.div_sqrt_256]
  rfl

/-! ## The row maxima -/

/-- Folding the maximum from the bottom element over a finite range is the supremum over it. -/
theorem fold_max_bot {n : Nat} (f : Fin n → EReal) :
    (Finset.univ : Finset (Fin n)).fold max ⊥ f = Finset.univ.sup f := rfl

/-- The maximum over the last axis of any score array, folded from the word of minus infinity, is at each batch and
    query position the supremum over the key positions. -/
theorem lastMax_at (s : FVec Ideal S4x4096x4096 .f32) (bi : Fin 4) (n : Fin 4096) :
    Host.reduce FloatOps.maximumf s (val_main_cst_0 (F := Ideal)) reducesTo_S4x4096x4096_S4x4096_d2 h_S_ (ix2 bi n)
      = Finset.univ.sup fun j : Fin 4096 => s (ix3 bi n j) := by
  rw [LastAxisMax.lastMax_host s (val_main_cst_0 (F := Ideal)) reducesTo_S4x4096x4096_S4x4096_d2 (by decide) h_S_ bi n,
    val_main_cst_0_apply, Ideal.ofBits_def, Cert.RefConsts.ofBits_neg_inf]
  exact fold_max_bot _

/-- The maximum of minus infinity and the maximum over the last axis is the row's largest score. -/
theorem rowMax_at (x : FVec Ideal S4x4096x256 .f32) (Wq : FVec Ideal S256x256 .f32) (bq : FVec Ideal S256 .f32)
    (Wk : FVec Ideal S256x256 .f32) (bk : FVec Ideal S256 .f32) (bi : Fin 4) (n : Fin 4096) :
    val_main_v18 (F := Ideal) x Wq bq Wk bk (ix2 bi n) = rowMax (score (proj x Wq bq) (proj x Wk bk)) bi n := by
  rw [val_main_v18_apply, val_main_v17_apply, val_main_cst_1_apply, Ideal.maximumf_def, Ideal.ofBits_def,
    Cert.RefConsts.ofBits_neg_inf, max_eq_right bot_le]
  unfold val_main_v16
  rw [lastMax_at]
  simp only [score_at]
  rfl

/-! ## The softmax -/

/-- The exponential of a score less its row's maximum, the maximum broadcast back along the key axis. -/
theorem shifted_exp_at (x : FVec Ideal S4x4096x256 .f32) (Wq : FVec Ideal S256x256 .f32) (bq : FVec Ideal S256 .f32)
    (Wk : FVec Ideal S256x256 .f32) (bk : FVec Ideal S256 .f32) (bi : Fin 4) (n n' : Fin 4096) :
    val_main_v22 (F := Ideal) x Wq bq Wk bk (ix3 bi n n')
      = Ideal.exp (score (proj x Wq bq) (proj x Wk bk) bi n n' - rowMax (score (proj x Wq bq) (proj x Wk bk)) bi n) := by
  have e : idx_main_v19 (idx_main_v20 (ix3 bi n n')) = ix2 bi n := funext fun a => Fin.ext (by
    match a with | ⟨0, _⟩ => rfl | ⟨1, _⟩ => rfl)
  rw [val_main_v22_apply, val_main_v21_apply, val_main_v20_apply, val_main_v19_apply, e, score_at, rowMax_at,
    Ideal.hostUnary_exp_def, Ideal.subf_def]

/-- The sum over the last axis from the zero word is the softmax's denominator. -/
theorem rowDen_at (x : FVec Ideal S4x4096x256 .f32) (Wq : FVec Ideal S256x256 .f32) (bq : FVec Ideal S256 .f32)
    (Wk : FVec Ideal S256x256 .f32) (bk : FVec Ideal S256 .f32) (bi : Fin 4) (n : Fin 4096) :
    val_main_v23 (F := Ideal) x Wq bq Wk bk (ix2 bi n) = rowDen (score (proj x Wq bq) (proj x Wk bk)) bi n := by
  have e : ∀ k : Fin 4096, idx_main_v23 (ix2 bi n) k = ix3 bi n k := fun k => funext fun a => Fin.ext (by
    match a with | ⟨0, _⟩ => rfl | ⟨1, _⟩ => rfl | ⟨2, _⟩ => rfl)
  rw [val_main_v23_apply, val_main_cst_2_apply, Ideal.ofBits_def, Ideal.ofBits_zero_f32, zero_add]
  simp only [e, shifted_exp_at]
  rfl

/-- The shifted exponential over the denominator broadcast back along the key axis is the softmax weight. -/
theorem weight_at (x : FVec Ideal S4x4096x256 .f32) (Wq : FVec Ideal S256x256 .f32) (bq : FVec Ideal S256 .f32)
    (Wk : FVec Ideal S256x256 .f32) (bk : FVec Ideal S256 .f32) (bi : Fin 4) (n n' : Fin 4096) :
    val_main_v26 (F := Ideal) x Wq bq Wk bk (ix3 bi n n') = weight (score (proj x Wq bq) (proj x Wk bk)) bi n n' := by
  have e : idx_main_v24 (idx_main_v25 (ix3 bi n n')) = ix2 bi n := funext fun a => Fin.ext (by
    match a with | ⟨0, _⟩ => rfl | ⟨1, _⟩ => rfl)
  rw [val_main_v26_apply, val_main_v25_apply, val_main_v24_apply, e, shifted_exp_at, rowDen_at, Ideal.hostDivf_def]
  rfl

/-! ## The result -/

/-- The contraction of the weights against the values over the key positions is the attention output. -/
theorem output_at (x : FVec Ideal S4x4096x256 .f32) (Wq : FVec Ideal S256x256 .f32) (bq : FVec Ideal S256 .f32)
    (Wk : FVec Ideal S256x256 .f32) (bk : FVec Ideal S256 .f32) (Wv : FVec Ideal S256x256 .f32) (bv : FVec Ideal S256 .f32)
    (bi : Fin 4) (n : Fin 4096) (d : Fin 256) :
    val_main_v27 (F := Ideal) x Wq bq Wk bk Wv bv (ix3 bi n d)
      = attend (proj x Wq bq) (proj x Wk bk) (proj x Wv bv) bi n d := by
  have el : ∀ k : Fin 4096, lidx_main_v27 (ix3 bi n d) k = ix3 bi n k := fun k => funext fun a => Fin.ext (by
    match a with | ⟨0, _⟩ => rfl | ⟨1, _⟩ => rfl | ⟨2, _⟩ => rfl)
  have er : ∀ k : Fin 4096, ridx_main_v27 (ix3 bi n d) k = ix3 bi k d := fun k => funext fun a => Fin.ext (by
    match a with | ⟨0, _⟩ => rfl | ⟨1, _⟩ => rfl | ⟨2, _⟩ => rfl)
  rw [val_main_v27_apply]
  simp only [el, er, weight_at, value_at]
  rfl

/-- The last stage, as an array, is the attention function of the seven argument arrays. -/
theorem value_eq (x : FVec Ideal S4x4096x256 .f32) (Wq : FVec Ideal S256x256 .f32) (bq : FVec Ideal S256 .f32)
    (Wk : FVec Ideal S256x256 .f32) (bk : FVec Ideal S256 .f32) (Wv : FVec Ideal S256x256 .f32) (bv : FVec Ideal S256 .f32) :
    val_main_v27 (F := Ideal) x Wq bq Wk bk Wv bv = G x Wq bq Wk bk Wv bv := by
  funext i
  obtain ⟨bi, n, d, rfl⟩ : ∃ (bi : Fin 4) (n : Fin 4096) (d : Fin 256), i = ix3 bi n d := ⟨i 0, i 1, i 2, eq_ix3 i⟩
  exact output_at x Wq bq Wk bk Wv bv bi n d

/-- The reference run's result term is the attention function of the run's seven argument arrays. -/
theorem result_eq (m : (ℓ : Loc nD τ sig) → Buf (Elt Ideal) ℓ) (c : Dev nD) :
    Cert.ReferenceIdeal.Value.res_out0 (F := Ideal) m c
      = G (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) :=
  (val_main_v27_eq (F := Ideal) m c).trans (value_eq _ _ _ _ _ _ _)

end Cert.ReferenceIdeal.RefValue

end
-- ==== Proof.lean ====
/-
  The certificate of a fused self-attention kernel against its softmax-attention reference, over the extended reals.

  The kernel takes an input x[4, 4096, 256] and three linear layers; per batch it projects the keys and values once
  (at the batch's first query tile) into scratch memory, and for each 1024-row query tile it streams the four
  1024-row key/value tiles through the online-softmax recurrence — a running maximum m, denominator l and accumulator
  acc, rescaled by exp (m − m') at every tile — and writes acc / l. The reference computes the same queries, keys and
  values, the whole 4096 × 4096 score matrix scaled by 1/√256, its row softmax, and the weighted sum of the values.

  Frames: the kernel (read bit-exactly, and read over the extended reals) runs to the end at every grid point, faults
  nowhere and leaves its seven arguments unchanged — the input array is handed to two of the pipeline's windows at
  once (the batch's block for the keys and values, the query tile), each holding half of it —; the reference is a
  straight line of host operations.
  Preserves: the idealization rewrote no operation.
  Algebraic: on finite inputs every score is a real number, the recurrence's rescalings are exact
  (exp (a − b) · exp (x − a) = exp (x − b)), so after the four tiles acc / l is Σ exp (s − M) · v / Σ exp (s − M) with M
  the row's maximum: the reference's softmax-weighted sum, entry by entry. The scale 0.0625 the kernel multiplies by is
  the dyadic 1/16 = 1/√256 the reference divides by.
-/
import proofs.«119718_j75144747811056_2_alg».proof.Defs
import proofs.«119718_j75144747811056_2_alg».proof.Proof.Gen.Kernel
import proofs.«119718_j75144747811056_2_alg».proof.Proof.Gen.KernelIdeal
import proofs.«119718_j75144747811056_2_alg».proof.Proof.Gen.ReferenceIdeal
import proofs.«119718_j75144747811056_2_alg».proof.Proof.Gen.Pre_finite_inputs
import proofs.«119718_j75144747811056_2_alg».proof.Proof.Gen.ReferenceIdeal.Run
import proofs.«119718_j75144747811056_2_alg».proof.Proof.KB.Frame
import proofs.«119718_j75144747811056_2_alg».proof.Proof.KI.Value
import proofs.«119718_j75144747811056_2_alg».proof.Proof.RefValue
import proofs.«119718_j75144747811056_2_alg».proof.Proof.Finite
import Idealize.ShloMosaic.Adequacy
import Idealize.ShloMosaic.Init

noncomputable section

namespace Cert.Proof

open Idealize.ShloMosaic Idealize.SL.Sem

/-- The kernel as printed runs and leaves its arguments unchanged. -/
theorem frame_k : Cert.frame_Kernel := fun m ρ _ => Cert.Kernel.Hand.frame m ρ

/-- So does its reading over the extended reals. -/
theorem frame_ki : Cert.frame_KernelIdeal := fun m ρ _ => Cert.KernelIdeal.Hand.frame m ρ

/-- The reference is a straight line of host operations: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- On finite inputs both programs end with the attention array of the arguments. -/
theorem algebraic : Cert.algebraic_KernelIdeal_ReferenceIdeal := by
  intro m ρ m' ρ' hpre hagree
  have hfin : ∀ c, Cert.KernelIdeal.Value.Fin7 m c := fun c => Cert.Finite.finite _ _ _ _ _ _ _ (hpre c)
  refine ⟨fun c => Cert.KernelIdeal.Value.GA m c, Cert.KernelIdeal.Value.run m ρ hfin, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.RefValue.result_eq m' c).trans ?_
  show Cert.Attn.G _ _ _ _ _ _ _ = Cert.Attn.G _ _ _ _ _ _ _
  rw [(hagree c).1, (hagree c).2.1, (hagree c).2.2.1, (hagree c).2.2.2.1, (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
